-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x1 .f32) (main_arg15 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S3x128 .f32) (main_arg10 : FVec F S3x128x128 .f32) (main_arg11 : FVec F S3x128 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg10
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S128 .f32) (main_arg7 : FVec F S64x128 .f32) (main_arg8 : FVec F S3x128x128 .f32) (main_arg9 : FVec F S3x128 .f32) (main_arg10 : FVec F S3x128x128 .f32) (main_arg11 : FVec F S3x128 .f32) (main_arg12 : FVec F S128x128 .f32) (main_arg13 : FVec F S128 .f32) (main_arg14 : FVec F S128x1 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S128x128 .f32) (main_arg6 : FVec F S128 .f32) (main_arg7 : FVec F S64x128 .f32) (main_arg8 : FVec F S3x128x128 .f32) (main_arg9 : FVec F S3x128 .f32) (main_arg10 : FVec F S3x128x128 .f32) (main_arg11 : FVec F S3x128 .f32) (main_arg12 : FVec F S128x128 .f32) (main_arg13 : FVec F S128 .f32) (main_arg14 : FVec F S128x1 .f32) (main_arg15 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S1x128x128 : Shape := ⟨3, ![1, 128, 128]⟩
abbrev S1024x128 : Shape := ⟨2, ![1024, 128]⟩
abbrev S50000x1 : Shape := ⟨2, ![50000, 1]⟩
abbrev S1024 : Shape := ⟨1, ![1024]⟩
abbrev S1024x1 : Shape := ⟨2, ![1024, 1]⟩
abbrev S1x1 : Shape := ⟨2, ![1, 1]⟩

abbrev nBuf : Space → Nat
  | .hbm => 127
  | .vmem => 47
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S3x128x128, .f32⟩
  | .hbm, ⟨9, _⟩ => ⟨S3x128, .f32⟩
  | .hbm, ⟨10, _⟩ => ⟨S3x128x128, .f32⟩
  | .hbm, ⟨11, _⟩ => ⟨S3x128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S1x128, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S128, .f32⟩
  | .hbm, ⟨53, _⟩ => ⟨S1x128x128, .f32⟩
  | .hbm, ⟨54, _⟩ => ⟨S128x128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x128x128, .f32⟩
  | .hbm, ⟨74, _⟩ => ⟨S128x128, .f32⟩
  | .hbm, ⟨75, _⟩ => ⟨S1x128, .f32⟩
  | .hbm, ⟨76, _⟩ => ⟨S128, .f32⟩
  | .hbm, ⟨77, _⟩ => ⟨S1x128x128, .f32⟩
  | .hbm, ⟨78, _⟩ => ⟨S128x128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S1x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S1x128x128, .f32⟩
  | .hbm, ⟨98, _⟩ => ⟨S128x128, .f32⟩
  | .hbm, ⟨99, _⟩ => ⟨S1x128, .f32⟩
  | .hbm, ⟨100, _⟩ => ⟨S128, .f32⟩
  | .hbm, ⟨101, _⟩ => ⟨S1x128x128, .f32⟩
  | .hbm, ⟨102, _⟩ => ⟨S128x128, .f32⟩
  | .hbm, ⟨103, _⟩ => ⟨S1x128, .f32⟩
  | .hbm, ⟨104, _⟩ => ⟨S128, .f32⟩
  | .hbm, ⟨105, _⟩ => ⟨S1x128, .f32⟩
  | .hbm, ⟨106, _⟩ => ⟨S1x128, .f32⟩
  | .hbm, ⟨107, _⟩ => ⟨S50000x128, .f32⟩
  | .hbm, ⟨108, _⟩ => ⟨S_, .f32⟩
  | .hbm, ⟨109, _⟩ => ⟨S1024x128, .f32⟩
  | .hbm, ⟨110, _⟩ => ⟨S50000x1, .i32⟩
  | .hbm, ⟨111, _⟩ => ⟨S1024x128, .f32⟩
  | .hbm, ⟨112, _⟩ => ⟨S_, .f32⟩
  | .hbm, ⟨113, _⟩ => ⟨S50000, .f32⟩
  | .hbm, ⟨114, _⟩ => ⟨S_, .f32⟩
  | .hbm, ⟨115, _⟩ => ⟨S1024, .f32⟩
  | .hbm, ⟨116, _⟩ => ⟨S50000x1, .i32⟩
  | .hbm, ⟨117, _⟩ => ⟨S1024, .f32⟩
  | .hbm, ⟨118, _⟩ => ⟨S_, .f32⟩
  | .hbm, ⟨119, _⟩ => ⟨S1024, .f32⟩
  | .hbm, ⟨120, _⟩ => ⟨S1024, .f32⟩
  | .hbm, ⟨121, _⟩ => ⟨S1024x1, .f32⟩
  | .hbm, ⟨122, _⟩ => ⟨S1024x128, .f32⟩
  | .hbm, ⟨123, _⟩ => ⟨S1024x128, .f32⟩
  | .hbm, ⟨124, _⟩ => ⟨S1x128, .f32⟩
  | .hbm, ⟨125, _⟩ => ⟨S1x1, .f32⟩
  | .hbm, ⟨126, _⟩ => ⟨S1024x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S64x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S5000x128, .f32⟩
  | .local _ .vmem, ⟨40, _⟩ => ⟨S5000x128, .f32⟩
  | .local _ .vmem, ⟨41, _⟩ => ⟨S1024x128, .f32⟩
  | .local _ .vmem, ⟨42, _⟩ => ⟨S128x128, .f32⟩
  | .local _ .vmem, ⟨43, _⟩ => ⟨S1x128, .f32⟩
  | .local _ .vmem, ⟨44, _⟩ => ⟨S128x1, .f32⟩
  | .local _ .vmem, ⟨45, _⟩ => ⟨S1x1, .f32⟩
  | .local _ .vmem, ⟨46, _⟩ => ⟨S1024x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_7 : Ref sig .tc := ⟨.hbm, 84, rfl⟩
abbrev main_v59 : Ref sig .tc := ⟨.hbm, 85, rfl⟩
abbrev main_v60 : Ref sig .tc := ⟨.hbm, 86, rfl⟩
abbrev main_c_8 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_10 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_11 : Ref sig .tc := ⟨.hbm, 112, rfl⟩
abbrev main_v83 : Ref sig .tc := ⟨.hbm, 113, rfl⟩
abbrev main_cst_12 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_13 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg6_1 : Ref sig .tc := ⟨.vmem, 40, rfl⟩
abbrev cc4_stg0_0 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem6_1 : DmaSem sig := 40
abbrev cc4_sem0_0 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1024x128 : S_.BroadcastsInDim S1024x128 (![] : Fin 0 → Fin S1024x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1_S128x1_0_0 : ∀ a, (![0, 0] : Fin 2 → Nat) a + S128x1.size a ≤ S128x1.size a
  h_S128x1 : 0 < S128x1.numel
  broadcasts_S1x128_S1024x128 : S1x128.Broadcasts S1024x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S1024x128_S50000x1_S50000x128_1_0_0_1_wf : ScatterDims.WF S1024x128 S50000x1 S50000x128 [1] [0] [0] 1
  scatter_S1024_S50000x1_S50000_n_0_0_1_wf : ScatterDims.WF S1024 S50000x1 S50000 [] [0] [0] 1
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S1024x128.size a
  hwx4_0 : ∀ i : grid4.Coords, EltTy.bits .f32 = 32 ∨ (Rect.block (s := S1024x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x1.size a ≤ S1024x1.size a
  hwx4_5 : ∀ i : grid4.Coords, EltTy.bits .f32 = 32 ∨ (Rect.block (s := S1024x1) S1024x1.size (cc4_transform_5 i) (hinb4_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v91) S1024x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S1024x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S1x128x128 : Shape := ⟨3, ![1, 128, 128]⟩
abbrev S800000x128 : Shape := ⟨2, ![800000, 128]⟩
abbrev S1024x128 : Shape := ⟨2, ![1024, 128]⟩
abbrev S50000x1 : Shape := ⟨2, ![50000, 1]⟩
abbrev S1024 : Shape := ⟨1, ![1024]⟩
abbrev S1024x1 : Shape := ⟨2, ![1024, 1]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S128x128, .f32⟩
  | 6 => ⟨S128, .f32⟩
  | 7 => ⟨S64x128, .f32⟩
  | 8 => ⟨S3x128x128, .f32⟩
  | 9 => ⟨S3x128, .f32⟩
  | 10 => ⟨S3x128x128, .f32⟩
  | 11 => ⟨S3x128, .f32⟩
  | 12 => ⟨S128x128, .f32⟩
  | 13 => ⟨S128, .f32⟩
  | 14 => ⟨S128x1, .f32⟩
  | 15 => ⟨S1, .f32⟩
  | 16 => ⟨S1x800000, .i32⟩
  | 17 => ⟨S800000, .i32⟩
  | 18 => ⟨S1x800000, .i32⟩
  | 19 => ⟨S800000, .i32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S_, .f32⟩
  | 31 => ⟨S50000x64, .f32⟩
  | 32 => ⟨S800000x1, .i32⟩
  | 33 => ⟨S50000x64, .f32⟩
  | 34 => ⟨S50000x64, .f32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S1x128x128, .f32⟩
  | 88 => ⟨S128x128, .f32⟩
  | 89 => ⟨S1x128, .f32⟩
  | 90 => ⟨S128, .f32⟩
  | 91 => ⟨S1x128x128, .f32⟩
  | 92 => ⟨S128x128, .f32⟩
  | 93 => ⟨S1x128, .f32⟩
  | 94 => ⟨S128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S1x128, .f32⟩
  | 127 => ⟨S128, .f32⟩
  | _ => ⟨S50000x64, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S_, .f32⟩
  | 34 => ⟨S1024x128, .f32⟩
  | 35 => ⟨S50000x1, .i32⟩
  | 36 => ⟨S1024x128, .f32⟩
  | 37 => ⟨S_, .f32⟩
  | 38 => ⟨S50000, .f32⟩
  | 39 => ⟨S_, .f32⟩
  | 40 => ⟨S1024, .f32⟩
  | 41 => ⟨S50000x1, .i32⟩
  | 42 => ⟨S1024, .f32⟩
  | 43 => ⟨S_, .f32⟩
  | 44 => ⟨S1024, .f32⟩
  | 45 => ⟨S1024, .f32⟩
  | 46 => ⟨S1024x1, .f32⟩
  | 47 => ⟨S1024x128, .f32⟩
  | 48 => ⟨S1024x128, .f32⟩
  | 49 => ⟨S1024x128, .f32⟩
  | 50 => ⟨S1x128, .f32⟩
  | 51 => ⟨S1024x128, .f32⟩
  | 52 => ⟨S1024x128, .f32⟩
  | 53 => ⟨S_, .f32⟩
  | 54 => ⟨S_, .f32⟩
  | 55 => ⟨S1024x128, .f32⟩
  | 56 => ⟨S1024x128, .i1⟩
  | 57 => ⟨S_, .f32⟩
  | 58 => ⟨S1024x128, .f32⟩
  | 59 => ⟨S1024x128, .f32⟩
  | 60 => ⟨S1024x128, .f32⟩
  | 61 => ⟨S1024x1, .f32⟩
  | 62 => ⟨S1x1, .f32⟩
  | 63 => ⟨S1024x1, .f32⟩
  | 64 => ⟨S1024x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_cst : Ref sig .tc := ⟨.hbm, 39, rfl⟩
abbrev main_call0_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_cst : Ref sig .tc := ⟨.hbm, 47, rfl⟩
abbrev main_call1_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_1 : Ref sig .tc := ⟨.hbm, 58, rfl⟩
abbrev main_v35 : Ref sig .tc := ⟨.hbm, 59, rfl⟩
abbrev main_v36 : Ref sig .tc := ⟨.hbm, 60, rfl⟩
abbrev main_c_2 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_3 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call2_cst : Ref sig .tc := ⟨.hbm, 76, rfl⟩
abbrev main_call2_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call3_cst : Ref sig .tc := ⟨.hbm, 84, rfl⟩
abbrev main_call3_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_4 : Ref sig .tc := ⟨.hbm, 95, rfl⟩
abbrev main_v65 : Ref sig .tc := ⟨.hbm, 96, rfl⟩
abbrev main_v66 : Ref sig .tc := ⟨.hbm, 97, rfl⟩
abbrev main_c_5 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_6 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_call4_cst : Ref sig .tc := ⟨.hbm, 113, rfl⟩
abbrev main_call4_v0 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_call5_cst : Ref sig .tc := ⟨.hbm, 121, rfl⟩
abbrev main_call5_v0 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_7 : Ref sig .tc := ⟨.hbm, 132, rfl⟩
abbrev main_v95 : Ref sig .tc := ⟨.hbm, 133, rfl⟩
abbrev main_v96 : Ref sig .tc := ⟨.hbm, 134, rfl⟩
abbrev main_c_8 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_9 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call6_cst : Ref sig .tc := ⟨.hbm, 150, rfl⟩
abbrev main_call6_v0 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_call7_cst : Ref sig .tc := ⟨.hbm, 158, rfl⟩
abbrev main_call7_v0 : Ref sig .tc := ⟨.hbm, 159, rfl⟩
abbrev main_v116 : Ref sig .tc := ⟨.hbm, 160, rfl⟩
abbrev main_cst_10 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_11 : Ref sig .tc := ⟨.hbm, 165, rfl⟩
abbrev main_v120 : Ref sig .tc := ⟨.hbm, 166, rfl⟩
abbrev main_cst_12 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_13 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_14 : Ref sig .tc := ⟨.hbm, 181, rfl⟩
abbrev main_call8_cst : Ref sig .tc := ⟨.hbm, 182, rfl⟩
abbrev main_call8_v0 : Ref sig .tc := ⟨.hbm, 183, rfl⟩
abbrev main_call8_v1 : Ref sig .tc := ⟨.hbm, 184, rfl⟩
abbrev main_call8_v2 : Ref sig .tc := ⟨.hbm, 185, rfl⟩
abbrev main_call8_v3 : Ref sig .tc := ⟨.hbm, 186, rfl⟩
abbrev main_call8_v4 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1024x128 : S_.BroadcastsInDim S1024x128 (![] : Fin 0 → Fin S1024x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S50000x64_S64x128_S50000x128_1_0_0_1_n_n_wf : DotDims.WF S50000x64 S64x128 S50000x128 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S1024x128_S50000x1_S50000x128_1_0_0_1_wf : ScatterDims.WF S1024x128 S50000x1 S50000x128 [1] [0] [0] 1
  scatter_S1024_S50000x1_S50000_n_0_0_1_wf : ScatterDims.WF S1024 S50000x1 S50000 [] [0] [0] 1
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

class Facts : Prop extends Facts₀ where

variable [Facts]
-- ==== Proof.KRun.lean ====
/-
  The idealized kernel program's run with every buffer named: from any launch memory every weakly fair
  execution ends, without a fault, with each unscoped TensorCore buffer at the last boundary's contents of
  the fold through the program's ten segments (five host stretches, five kernel regions).
-/
import proofs.«132390_j82068235092697_1_alg».proof.Proof.Gen.KernelIdeal.Frame

set_option maxRecDepth 16384

noncomputable section

namespace Cert.Gin.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.Gin.KRun

end
-- ==== Proof.Spec.lean ====
/-
  The network both programs compute, written once over whole arrays of extended reals.

  A graph of 50000 nodes and 800000 directed edges; four GIN layers, each adding to a node's features the
  sum of the features of the edges' source nodes that point at it (a row gather through the source index,
  negative indices wrapped by the node count, then a scatter-add through the target index), followed by two
  affine maps with a rectifier between them, a residual (a projection of the input in the first layer, the
  layer's own input afterwards) and a final rectifier; a mean pool over 1024 graphs (segment sums of the
  features and of ones, the count floored at one); and a two-layer head with a leaky rectifier of slope
  f32(0.01).  Every function below is a composition of the host operations of the reference program, in its
  own order, so that the reference's result is this term by unfolding, while the kernel program reaches the
  dense layers block by block.
-/
import proofs.«132390_j82068235092697_1_alg».proof.ReferenceIdeal
import Idealize.ShloMosaic.PureOps.Ideal
import Idealize.ShloMosaic.Lib.ValueIdx

noncomputable section

namespace Cert.Gin

open Idealize.ShloMosaic Idealize.SL.Sem
open Cert.ReferenceIdeal Cert.ReferenceIdeal.Facts₀

variable [Cert.ReferenceIdeal.Facts]

/-- A float array of shape `S` at the ideal instance. -/
abbrev T (S : Shape) : Type := FVec Ideal S .f32
/-- An array of 32-bit words of shape `S`. -/
abbrev TI (S : Shape) : Type := IVec S 32

/-- The scalar `0.0`. -/
def zero0 : T S_ := constant (F := Ideal) S_ .f32 0x00000000#32
/-- The scalar `1.0`. -/
def one0 : T S_ := constant (F := Ideal) S_ .f32 0x3F800000#32
/-- The scalar f32(0.01), the leaky rectifier's slope. -/
def slope0 : T S_ := constant (F := Ideal) S_ .f32 0x3C23D70A#32

/-- Row 0 of the edge list: each edge's source node. -/
def srcRaw (ei : TI S2x800000) : TI S800000 :=
  fun i => shapeCast S800000 (extractStridedSlice S1x800000 ![0, 0] ei slices_S2x800000_S1x800000_0_0) shapeCasts_S1x800000_S800000 i
/-- Row 1 of the edge list: each edge's target node. -/
def dstRaw (ei : TI S2x800000) : TI S800000 :=
  fun i => shapeCast S800000 (extractStridedSlice S1x800000 ![1, 0] ei slices_S2x800000_S1x800000_1_0) shapeCasts_S1x800000_S800000 i
/-- The source indices with a negative one wrapped by the node count, as a column of index words. -/
def srcCol (ei : TI S2x800000) : TI S800000x1 :=
  broadcastInDim S800000x1 ![0] bcast_S800000_S800000x1_0
    (select (cmpi .slt (srcRaw ei) (broadcastInDim S800000 ![] bcast_S_S800000 (constantI S_ 32 0#32)))
      (addi (srcRaw ei) (broadcastInDim S800000 ![] bcast_S_S800000 (constantI S_ 32 50000#32))) (srcRaw ei))
/-- The target indices as a column of index words. -/
def dstCol (ei : TI S2x800000) : TI S800000x1 :=
  broadcastInDim S800000x1 ![0] bcast_S800000_S800000x1_0 (dstRaw ei)

/-- Neighbour sums of 64 features: gather the source rows, add them at the target rows. -/
def agg64 (x : T S50000x64) (ei : TI S2x800000) : T S50000x64 :=
  Host.scatterAdd (F := Ideal) scatter_S50000x64_S800000x1_S800000x64_1_0_0_1 (broadcastInDim S50000x64 ![] bcast_S_S50000x64 zero0) (dstCol ei)
    (Host.gather gather_S50000x64_S800000x1_S800000x64_1_0_n_n_0_1_164 x (srcCol ei))
/-- Neighbour sums of 128 features. -/
def agg128 (h : T S50000x128) (ei : TI S2x800000) : T S50000x128 :=
  Host.scatterAdd (F := Ideal) scatter_S50000x128_S800000x1_S800000x128_1_0_0_1 (broadcastInDim S50000x128 ![] bcast_S_S50000x128 zero0) (dstCol ei)
    (Host.gather gather_S50000x128_S800000x1_S800000x128_1_0_n_n_0_1_1128 h (srcCol ei))

/-- A bias of 128 entries added to every row. -/
def bias (b : T S128) : T S50000x128 :=
  broadcastInDim S50000x128 ![0, 1] bcast_S1x128_S50000x128_0_1 (broadcastInDim S1x128 ![1] bcast_S128_S1x128_1 b)
/-- The rectifier. -/
def relu (t : T S50000x128) : T S50000x128 :=
  maximumf (F := Ideal) t (broadcastInDim S50000x128 ![] bcast_S_S50000x128 zero0)

/-- The first layer's dense part: `relu(relu((x + a)·W1 + b1)·W2 + b2 + x·Wres)`. -/
def dense0 (x a : T S50000x64) (W1 : T S64x128) (b1 : T S128) (W2 : T S128x128) (b2 : T S128) (Wres : T S64x128) : T S50000x128 :=
  relu (addf (F := Ideal) (addf (F := Ideal) (Host.dotGeneral (F := Ideal) dot_S50000x128_S128x128_S50000x128_1_0_0_1_n_n none
      (relu (addf (F := Ideal) (Host.dotGeneral (F := Ideal) dot_S50000x64_S64x128_S50000x128_1_0_0_1_n_n none (addf (F := Ideal) x a) W1) (bias b1))) W2) (bias b2))
    (Host.dotGeneral (F := Ideal) dot_S50000x64_S64x128_S50000x128_1_0_0_1_n_n none x Wres))
/-- A later layer's dense part: `relu(relu((h + a)·W1 + b1)·W2 + b2 + h)`. -/
def dense (h a : T S50000x128) (W1 : T S128x128) (b1 : T S128) (W2 : T S128x128) (b2 : T S128) : T S50000x128 :=
  relu (addf (F := Ideal) (addf (F := Ideal) (Host.dotGeneral (F := Ideal) dot_S50000x128_S128x128_S50000x128_1_0_0_1_n_n none
      (relu (addf (F := Ideal) (Host.dotGeneral (F := Ideal) dot_S50000x128_S128x128_S50000x128_1_0_0_1_n_n none (addf (F := Ideal) h a) W1) (bias b1))) W2) (bias b2)) h)

/-- Layer `k`'s weight matrix out of the stack of three. -/
def wsl0 (Ws : T S3x128x128) : T S128x128 :=
  fun i => shapeCast S128x128 (extractStridedSlice S1x128x128 ![0, 0, 0] Ws slices_S3x128x128_S1x128x128_0_0_0) shapeCasts_S1x128x128_S128x128 i
def wsl1 (Ws : T S3x128x128) : T S128x128 :=
  fun i => shapeCast S128x128 (extractStridedSlice S1x128x128 ![1, 0, 0] Ws slices_S3x128x128_S1x128x128_1_0_0) shapeCasts_S1x128x128_S128x128 i
def wsl2 (Ws : T S3x128x128) : T S128x128 :=
  fun i => shapeCast S128x128 (extractStridedSlice S1x128x128 ![2, 0, 0] Ws slices_S3x128x128_S1x128x128_2_0_0) shapeCasts_S1x128x128_S128x128 i
/-- Layer `k`'s bias out of the stack of three. -/
def bsl0 (bs : T S3x128) : T S128 :=
  fun i => shapeCast S128 (extractStridedSlice S1x128 ![0, 0] bs slices_S3x128_S1x128_0_0) shapeCasts_S1x128_S128 i
def bsl1 (bs : T S3x128) : T S128 :=
  fun i => shapeCast S128 (extractStridedSlice S1x128 ![1, 0] bs slices_S3x128_S1x128_1_0) shapeCasts_S1x128_S128 i
def bsl2 (bs : T S3x128) : T S128 :=
  fun i => shapeCast S128 (extractStridedSlice S1x128 ![2, 0] bs slices_S3x128_S1x128_2_0) shapeCasts_S1x128_S128 i

/-- The graph index of each node as a column of index words. -/
def batchCol (bt : TI S50000) : TI S50000x1 := broadcastInDim S50000x1 ![0] bcast_S50000_S50000x1_0 bt

/-- The mean pool: per graph the sum of its nodes' features over the number of its nodes floored at one. -/
def pool (h : T S50000x128) (bt : TI S50000) : T S1024x128 :=
  Host.divf (F := Ideal)
    (Host.scatterAdd (F := Ideal) scatter_S1024x128_S50000x1_S50000x128_1_0_0_1 (broadcastInDim S1024x128 ![] bcast_S_S1024x128 zero0) (batchCol bt) h)
    (broadcastInDim S1024x128 ![0, 1] bcast_S1024x1_S1024x128_0_1 (broadcastInDim S1024x1 ![0] bcast_S1024_S1024x1_0
      (maximumf (F := Ideal) (Host.scatterAdd (F := Ideal) scatter_S1024_S50000x1_S50000_n_0_0_1 (broadcastInDim S1024 ![] bcast_S_S1024 zero0) (batchCol bt)
          (broadcastInDim S50000 ![] bcast_S_S50000 one0))
        (broadcastInDim S1024 ![] bcast_S_S1024 one0))))

/-- The leaky rectifier: `t` where `t ≥ 0`, `f32(0.01)·t` elsewhere. -/
def leaky (t : T S1024x128) : T S1024x128 :=
  select (cmpf (F := Ideal) .oge t (broadcastInDim S1024x128 ![] bcast_S_S1024x128 zero0)) t
    (mulf (F := Ideal) (broadcastInDim S1024x128 ![] bcast_S_S1024x128 slope0) t)

/-- The head: `leaky(p·W1 + b1)·W2 + b2`. -/
def head (p : T S1024x128) (W1 : T S128x128) (b1 : T S128) (W2 : T S128x1) (b2 : T S1) : T S1024x1 :=
  addf (F := Ideal) (Host.dotGeneral (F := Ideal) dot_S1024x128_S128x1_S1024x1_1_0_0_1_n_n none
      (leaky (addf (F := Ideal) (Host.dotGeneral (F := Ideal) dot_S1024x128_S128x128_S1024x128_1_0_0_1_n_n none p W1)
        (broadcastInDim S1024x128 ![0, 1] bcast_S1x128_S1024x128_0_1 (broadcastInDim S1x128 ![1] bcast_S128_S1x128_1 b1)))) W2)
    (broadcastInDim S1024x1 ![0, 1] bcast_S1x1_S1024x1_0_1 (broadcastInDim S1x1 ![1] bcast_S1_S1x1_1 b2))

/-- A bias the kernel program keeps as one row `[1, 128]`, read back as its 128 entries. -/
def unrow (r : T S1x128) : T S128 := fun i => r (ValueIdx.ix2 (0 : Fin 1) (i 0))
/-- The head's last bias kept as `[1, 1]`, read back as its one entry. -/
def unrow1 (r : T S1x1) : T S1 := fun _ => r (ValueIdx.ix2 (0 : Fin 1) (0 : Fin 1))

/-- The first layer's node features. -/
def h1 (x : T S50000x64) (ei : TI S2x800000) (W1 : T S64x128) (b1 : T S128) (W2 : T S128x128) (b2 : T S128) (Wres : T S64x128) : T S50000x128 :=
  dense0 x (agg64 x ei) W1 b1 W2 b2 Wres
/-- One later layer from the previous layer's features. -/
def step (h : T S50000x128) (ei : TI S2x800000) (W1 : T S128x128) (b1 : T S128) (W2 : T S128x128) (b2 : T S128) : T S50000x128 :=
  dense h (agg128 h ei) W1 b1 W2 b2

/-- The whole network's result, `f32[1024, 1]`, as a function of the sixteen arguments. -/
def net (x : T S50000x64) (ei : TI S2x800000) (bt : TI S50000) (W1 : T S64x128) (b1 : T S128) (W2 : T S128x128) (b2 : T S128)
    (Wres : T S64x128) (Ws1 : T S3x128x128) (bs1 : T S3x128) (Ws2 : T S3x128x128) (bs2 : T S3x128)
    (fW1 : T S128x128) (fb1 : T S128) (fW2 : T S128x1) (fb2 : T S1) : T S1024x1 :=
  head (pool (step (step (step (h1 x ei W1 b1 W2 b2 Wres) ei (wsl0 Ws1) (bsl0 bs1) (wsl0 Ws2) (bsl0 bs2))
      ei (wsl1 Ws1) (bsl1 bs1) (wsl1 Ws2) (bsl1 bs2)) ei (wsl2 Ws1) (bsl2 bs1) (wsl2 Ws2) (bsl2 bs2)) bt) fW1 fb1 fW2 fb2

end Cert.Gin

end
-- ==== Proof.KValue.lean ====
/-
  The idealized kernel program's result as a function of its arguments.

  The program is five host stretches and five kernel regions.  Reading the fold of buffer contents
  boundary by boundary: the first stretch leaves the edges' source and target indices and the neighbour
  sums of the input features; each of the first four regions leaves a layer's features (given as a
  hypothesis here: the region's output array is the layer's dense part of the region's input arrays);
  each later stretch leaves the neighbour sums of the previous layer's features and the layer's weights
  cut out of the stacks; the last stretch leaves the mean pool; the last region the head.  A buffer that a
  stretch does not write, and that is none of a region's arrays, keeps its contents across it, which
  carries the indices and the arguments to where they are read.
-/
import proofs.«132390_j82068235092697_1_alg».proof.Proof.Spec
import proofs.«132390_j82068235092697_1_alg».proof.Proof.Gen.KernelIdeal.Frame
import proofs.«132390_j82068235092697_1_alg».proof.Proof.Gen.ReferenceIdeal
import Idealize.ShloMosaic.Lib.Pipeline.Value
import Idealize.ShloMosaic.Lib.StableHlo.Run

set_option maxRecDepth 16384

noncomputable section

namespace Cert.Gin.KVal

open Idealize.ShloMosaic Idealize.ShloMosaic.TcCoe Idealize.SL.Sem
open Cert.KernelIdeal Cert.KernelIdeal.Gen Cert.Gin

/-- Argument 0 of the launch memory on core `c`. -/
def A.arg0 (m : (ℓ : Loc nD τ sig) → Buf (Elt Ideal) ℓ) (c : Dev nD) : T S50000x64 := m ((c : Thread nD τ).loc main_arg0)
/-- Argument 1 of the launch memory on core `c`. -/
def A.arg1 (m : (ℓ : Loc nD τ sig) → Buf (Elt Ideal) ℓ) (c : Dev nD) : TI S2x800000 := m ((c : Thread nD τ).loc main_arg1)
/-- Argument 2 of the launch memory on core `c`. -/
def A.arg2 (m : (ℓ : Loc nD τ sig) → Buf (Elt Ideal) ℓ) (c : Dev nD) : TI S50000 := m ((c : Thread nD τ).loc main_arg2)
/-- Argument 3 of the launch memory on core `c`. -/
def A.arg3 (m : (ℓ : Loc nD τ sig) → Buf (Elt Ideal) ℓ) (c : Dev nD) : T S64x128 := m ((c : Thread nD τ).loc main_arg3)
/-- Argument 4 of the launch memory on core `c`. -/
def A.arg4 (m : (ℓ : Loc nD τ sig) → Buf (Elt Ideal) ℓ) (c : Dev nD) : T S128 := m ((c : Thread nD τ).loc main_arg4)
/-- Argument 5 of the launch memory on core `c`. -/
def A.arg5 (m : (ℓ : Loc nD τ sig) → Buf (Elt Ideal) ℓ) (c : Dev nD) : T S128x128 := m ((c : Thread nD τ).loc main_arg5)
/-- Argument 6 of the launch memory on core `c`. -/
def A.arg6 (m : (ℓ : Loc nD τ sig) → Buf (Elt Ideal) ℓ) (c : Dev nD) : T S128 := m ((c : Thread nD τ).loc main_arg6)
/-- Argument 7 of the launch memory on core `c`. -/
def A.arg7 (m : (ℓ : Loc nD τ sig) → Buf (Elt Ideal) ℓ) (c : Dev nD) : T S64x128 := m ((c : Thread nD τ).loc main_arg7)
/-- Argument 8 of the launch memory on core `c`. -/
def A.arg8 (m : (ℓ : Loc nD τ sig) → Buf (Elt Ideal) ℓ) (c : Dev nD) : T S3x128x128 := m ((c : Thread nD τ).loc main_arg8)
/-- Argument 9 of the launch memory on core `c`. -/
def A.arg9 (m : (ℓ : Loc nD τ sig) → Buf (Elt Ideal) ℓ) (c : Dev nD) : T S3x128 := m ((c : Thread nD τ).loc main_arg9)
/-- Argument 10 of the launch memory on core `c`. -/
def A.arg10 (m : (ℓ : Loc nD τ sig) → Buf (Elt Ideal) ℓ) (c : Dev nD) : T S3x128x128 := m ((c : Thread nD τ).loc main_arg10)
/-- Argument 11 of the launch memory on core `c`. -/
def A.arg11 (m : (ℓ : Loc nD τ sig) → Buf (Elt Ideal) ℓ) (c : Dev nD) : T S3x128 := m ((c : Thread nD τ).loc main_arg11)
/-- Argument 12 of the launch memory on core `c`. -/
def A.arg12 (m : (ℓ : Loc nD τ sig) → Buf (Elt Ideal) ℓ) (c : Dev nD) : T S128x128 := m ((c : Thread nD τ).loc main_arg12)
/-- Argument 13 of the launch memory on core `c`. -/
def A.arg13 (m : (ℓ : Loc nD τ sig) → Buf (Elt Ideal) ℓ) (c : Dev nD) : T S128 := m ((c : Thread nD τ).loc main_arg13)
/-- Argument 14 of the launch memory on core `c`. -/
def A.arg14 (m : (ℓ : Loc nD τ sig) → Buf (Elt Ideal) ℓ) (c : Dev nD) : T S128x1 := m ((c : Thread nD τ).loc main_arg14)
/-- Argument 15 of the launch memory on core `c`. -/
def A.arg15 (m : (ℓ : Loc nD τ sig) → Buf (Elt Ideal) ℓ) (c : Dev nD) : T S1 := m ((c : Thread nD τ).loc main_arg15)

/-- A bias of 128 entries as one row. -/
def rs (b : T S128) : T S1x128 := fun i => shapeCast S1x128 b Cert.KernelIdeal.Facts₀.shapeCasts_S128_S1x128 i
/-- The head's last bias as a 1×1 array. -/
def rs1 (b : T S1) : T S1x1 := fun i => shapeCast S1x1 b Cert.KernelIdeal.Facts₀.shapeCasts_S1_S1x1 i

/-- Reading a row back gives the entries it was made of. -/
theorem unrow_rs (b : T S128) : unrow (rs b) = b := by
  funext i
  show shapeCast S1x128 b Cert.KernelIdeal.Facts₀.shapeCasts_S128_S1x128 (ValueIdx.ix2 (0 : Fin 1) (i 0)) = b i
  refine (shapeCast_addUnit_apply (n := 1) ![128] b Cert.KernelIdeal.Facts₀.shapeCasts_S128_S1x128 _).trans (congrArg b ?_)
  funext a
  match a with
  | ⟨0, _⟩ => rfl
theorem unrow1_rs1 (b : T S1) : unrow1 (rs1 b) = b := by
  funext i
  show shapeCast S1x1 b Cert.KernelIdeal.Facts₀.shapeCasts_S1_S1x1 (ValueIdx.ix2 (0 : Fin 1) (0 : Fin 1)) = b i
  refine (shapeCast_addUnit_apply (n := 1) ![1] b Cert.KernelIdeal.Facts₀.shapeCasts_S1_S1x1 _).trans (congrArg b ?_)
  funext a
  match a with
  | ⟨0, _⟩ => exact Subsingleton.elim (α := Fin 1) _ _

/-! ## What each host stretch writes -/

abbrev hostOps0_W : List (Ref sig .tc) := [main_v0, main_v1, main_v2, main_v3, main_c, main_v4, main_v5, main_c_0, main_v6, main_v7, main_v8, main_v9, main_v10, main_cst, main_v11, main_v12, main_v13, main_v14, main_v15]
theorem hostOps0_writes : (hostOps0 : List (HloOp τ sig (Elt Ideal))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the stretch does not write keeps its contents. -/
theorem pass0 (W : Valuation τ sig (Elt Ideal)) (r : Ref sig .tc) (h : r ∉ hostOps0_W) :
    StableHlo.after hostOps0 W (Proc.devRef .tc r) = W (Proc.devRef .tc r) :=
  StableHlo.after_of_writes_sub hostOps0 W hostOps0_writes h

abbrev hostOps1_W : List (Ref sig .tc) := [main_c_1, main_v17, main_v18, main_c_2, main_v19, main_v20, main_v21, main_v22, main_v23, main_cst_3, main_v24, main_v25, main_v26, main_v27, main_v28, main_v29, main_v30, main_v31, main_v32, main_v33, main_v34, main_v35, main_v36]
theorem hostOps1_writes : (hostOps1 : List (HloOp τ sig (Elt Ideal))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the stretch does not write keeps its contents. -/
theorem pass1 (W : Valuation τ sig (Elt Ideal)) (r : Ref sig .tc) (h : r ∉ hostOps1_W) :
    StableHlo.after hostOps1 W (Proc.devRef .tc r) = W (Proc.devRef .tc r) :=
  StableHlo.after_of_writes_sub hostOps1 W hostOps1_writes h

abbrev hostOps2_W : List (Ref sig .tc) := [main_c_4, main_v38, main_v39, main_c_5, main_v40, main_v41, main_v42, main_v43, main_v44, main_cst_6, main_v45, main_v46, main_v47, main_v48, main_v49, main_v50, main_v51, main_v52, main_v53, main_v54, main_v55, main_v56, main_v57]
theorem hostOps2_writes : (hostOps2 : List (HloOp τ sig (Elt Ideal))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the stretch does not write keeps its contents. -/
theorem pass2 (W : Valuation τ sig (Elt Ideal)) (r : Ref sig .tc) (h : r ∉ hostOps2_W) :
    StableHlo.after hostOps2 W (Proc.devRef .tc r) = W (Proc.devRef .tc r) :=
  StableHlo.after_of_writes_sub hostOps2 W hostOps2_writes h

abbrev hostOps3_W : List (Ref sig .tc) := [main_c_7, main_v59, main_v60, main_c_8, main_v61, main_v62, main_v63, main_v64, main_v65, main_cst_9, main_v66, main_v67, main_v68, main_v69, main_v70, main_v71, main_v72, main_v73, main_v74, main_v75, main_v76, main_v77, main_v78]
theorem hostOps3_writes : (hostOps3 : List (HloOp τ sig (Elt Ideal))).Forall fun op => op.writes ⊆ (hostOps3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the stretch does not write keeps its contents. -/
theorem pass3 (W : Valuation τ sig (Elt Ideal)) (r : Ref sig .tc) (h : r ∉ hostOps3_W) :
    StableHlo.after hostOps3 W (Proc.devRef .tc r) = W (Proc.devRef .tc r) :=
  StableHlo.after_of_writes_sub hostOps3 W hostOps3_writes h

abbrev hostOps4_W : List (Ref sig .tc) := [main_cst_10, main_v80, main_v81, main_v82, main_cst_11, main_v83, main_cst_12, main_v84, main_v85, main_v86, main_cst_13, main_v87, main_v88, main_v89, main_v90, main_v91, main_v92, main_v93]
theorem hostOps4_writes : (hostOps4 : List (HloOp τ sig (Elt Ideal))).Forall fun op => op.writes ⊆ (hostOps4_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the stretch does not write keeps its contents. -/
theorem pass4 (W : Valuation τ sig (Elt Ideal)) (r : Ref sig .tc) (h : r ∉ hostOps4_W) :
    StableHlo.after hostOps4 W (Proc.devRef .tc r) = W (Proc.devRef .tc r) :=
  StableHlo.after_of_writes_sub hostOps4 W hostOps4_writes h

section Fold

variable (m : (ℓ : Loc nD τ sig) → Buf (Elt Ideal) ℓ) (ρ : Dev nD → PrngReg) (c : Dev nD)

/-- A buffer that is none of region 0's arrays keeps its contents through the region. -/
theorem regpass0 (r : Ref sig .tc) (h : ∀ w, Pipeline.arrRef spec0 w ≠ r) :
    W2 m ρ c (Proc.devRef .tc r) = W1 m ρ c (Proc.devRef .tc r) := W2_of_ne m ρ c r h
/-- A buffer that is none of region 1's arrays keeps its contents through the region. -/
theorem regpass1 (r : Ref sig .tc) (h : ∀ w, Pipeline.arrRef spec1 w ≠ r) :
    W4 m ρ c (Proc.devRef .tc r) = W3 m ρ c (Proc.devRef .tc r) := W4_of_ne m ρ c r h
/-- A buffer that is none of region 2's arrays keeps its contents through the region. -/
theorem regpass2 (r : Ref sig .tc) (h : ∀ w, Pipeline.arrRef spec2 w ≠ r) :
    W6 m ρ c (Proc.devRef .tc r) = W5 m ρ c (Proc.devRef .tc r) := W6_of_ne m ρ c r h
/-- A buffer that is none of region 3's arrays keeps its contents through the region. -/
theorem regpass3 (r : Ref sig .tc) (h : ∀ w, Pipeline.arrRef spec3 w ≠ r) :
    W8 m ρ c (Proc.devRef .tc r) = W7 m ρ c (Proc.devRef .tc r) := W8_of_ne m ρ c r h
/-- A buffer that is none of region 4's arrays keeps its contents through the region. -/
theorem regpass4 (r : Ref sig .tc) (h : ∀ w, Pipeline.arrRef spec4 w ≠ r) :
    W10 m ρ c (Proc.devRef .tc r) = W9 m ρ c (Proc.devRef .tc r) := W10_of_ne m ρ c r h

/-! ## The arguments and the edge indices carried along the fold -/

attribute [local irreducible] Host.gather Host.scatterAdd

theorem W1_v1 : W1 m ρ c (Proc.devRef .tc main_v1) = srcRaw (A.arg1 m c) := by
  show StableHlo.after hostOps0 (W0 m ρ c) (Proc.devRef .tc main_v1) = _
  after_results; rfl
theorem W1_v3 : W1 m ρ c (Proc.devRef .tc main_v3) = dstRaw (A.arg1 m c) := by
  show StableHlo.after hostOps0 (W0 m ρ c) (Proc.devRef .tc main_v3) = _
  after_results; rfl
theorem W1_arg8 : W1 m ρ c (Proc.devRef .tc main_arg8) = A.arg8 m c := (pass0 (W0 m ρ c) main_arg8 (by decide)).trans rfl
theorem W2_arg8 : W2 m ρ c (Proc.devRef .tc main_arg8) = A.arg8 m c := (regpass0 m ρ c main_arg8 (by decide)).trans (W1_arg8 m ρ c)
theorem W3_arg8 : W3 m ρ c (Proc.devRef .tc main_arg8) = A.arg8 m c := (pass1 (W2 m ρ c) main_arg8 (by decide)).trans (W2_arg8 m ρ c)
theorem W4_arg8 : W4 m ρ c (Proc.devRef .tc main_arg8) = A.arg8 m c := (regpass1 m ρ c main_arg8 (by decide)).trans (W3_arg8 m ρ c)
theorem W5_arg8 : W5 m ρ c (Proc.devRef .tc main_arg8) = A.arg8 m c := (pass2 (W4 m ρ c) main_arg8 (by decide)).trans (W4_arg8 m ρ c)
theorem W6_arg8 : W6 m ρ c (Proc.devRef .tc main_arg8) = A.arg8 m c := (regpass2 m ρ c main_arg8 (by decide)).trans (W5_arg8 m ρ c)
theorem W1_arg9 : W1 m ρ c (Proc.devRef .tc main_arg9) = A.arg9 m c := (pass0 (W0 m ρ c) main_arg9 (by decide)).trans rfl
theorem W2_arg9 : W2 m ρ c (Proc.devRef .tc main_arg9) = A.arg9 m c := (regpass0 m ρ c main_arg9 (by decide)).trans (W1_arg9 m ρ c)
theorem W3_arg9 : W3 m ρ c (Proc.devRef .tc main_arg9) = A.arg9 m c := (pass1 (W2 m ρ c) main_arg9 (by decide)).trans (W2_arg9 m ρ c)
theorem W4_arg9 : W4 m ρ c (Proc.devRef .tc main_arg9) = A.arg9 m c := (regpass1 m ρ c main_arg9 (by decide)).trans (W3_arg9 m ρ c)
theorem W5_arg9 : W5 m ρ c (Proc.devRef .tc main_arg9) = A.arg9 m c := (pass2 (W4 m ρ c) main_arg9 (by decide)).trans (W4_arg9 m ρ c)
theorem W6_arg9 : W6 m ρ c (Proc.devRef .tc main_arg9) = A.arg9 m c := (regpass2 m ρ c main_arg9 (by decide)).trans (W5_arg9 m ρ c)
theorem W1_arg10 : W1 m ρ c (Proc.devRef .tc main_arg10) = A.arg10 m c := (pass0 (W0 m ρ c) main_arg10 (by decide)).trans rfl
theorem W2_arg10 : W2 m ρ c (Proc.devRef .tc main_arg10) = A.arg10 m c := (regpass0 m ρ c main_arg10 (by decide)).trans (W1_arg10 m ρ c)
theorem W3_arg10 : W3 m ρ c (Proc.devRef .tc main_arg10) = A.arg10 m c := (pass1 (W2 m ρ c) main_arg10 (by decide)).trans (W2_arg10 m ρ c)
theorem W4_arg10 : W4 m ρ c (Proc.devRef .tc main_arg10) = A.arg10 m c := (regpass1 m ρ c main_arg10 (by decide)).trans (W3_arg10 m ρ c)
theorem W5_arg10 : W5 m ρ c (Proc.devRef .tc main_arg10) = A.arg10 m c := (pass2 (W4 m ρ c) main_arg10 (by decide)).trans (W4_arg10 m ρ c)
theorem W6_arg10 : W6 m ρ c (Proc.devRef .tc main_arg10) = A.arg10 m c := (regpass2 m ρ c main_arg10 (by decide)).trans (W5_arg10 m ρ c)
theorem W1_arg11 : W1 m ρ c (Proc.devRef .tc main_arg11) = A.arg11 m c := (pass0 (W0 m ρ c) main_arg11 (by decide)).trans rfl
theorem W2_arg11 : W2 m ρ c (Proc.devRef .tc main_arg11) = A.arg11 m c := (regpass0 m ρ c main_arg11 (by decide)).trans (W1_arg11 m ρ c)
theorem W3_arg11 : W3 m ρ c (Proc.devRef .tc main_arg11) = A.arg11 m c := (pass1 (W2 m ρ c) main_arg11 (by decide)).trans (W2_arg11 m ρ c)
theorem W4_arg11 : W4 m ρ c (Proc.devRef .tc main_arg11) = A.arg11 m c := (regpass1 m ρ c main_arg11 (by decide)).trans (W3_arg11 m ρ c)
theorem W5_arg11 : W5 m ρ c (Proc.devRef .tc main_arg11) = A.arg11 m c := (pass2 (W4 m ρ c) main_arg11 (by decide)).trans (W4_arg11 m ρ c)
theorem W6_arg11 : W6 m ρ c (Proc.devRef .tc main_arg11) = A.arg11 m c := (regpass2 m ρ c main_arg11 (by decide)).trans (W5_arg11 m ρ c)
theorem W1_arg2 : W1 m ρ c (Proc.devRef .tc main_arg2) = A.arg2 m c := (pass0 (W0 m ρ c) main_arg2 (by decide)).trans rfl
theorem W2_arg2 : W2 m ρ c (Proc.devRef .tc main_arg2) = A.arg2 m c := (regpass0 m ρ c main_arg2 (by decide)).trans (W1_arg2 m ρ c)
theorem W3_arg2 : W3 m ρ c (Proc.devRef .tc main_arg2) = A.arg2 m c := (pass1 (W2 m ρ c) main_arg2 (by decide)).trans (W2_arg2 m ρ c)
theorem W4_arg2 : W4 m ρ c (Proc.devRef .tc main_arg2) = A.arg2 m c := (regpass1 m ρ c main_arg2 (by decide)).trans (W3_arg2 m ρ c)
theorem W5_arg2 : W5 m ρ c (Proc.devRef .tc main_arg2) = A.arg2 m c := (pass2 (W4 m ρ c) main_arg2 (by decide)).trans (W4_arg2 m ρ c)
theorem W6_arg2 : W6 m ρ c (Proc.devRef .tc main_arg2) = A.arg2 m c := (regpass2 m ρ c main_arg2 (by decide)).trans (W5_arg2 m ρ c)
theorem W7_arg2 : W7 m ρ c (Proc.devRef .tc main_arg2) = A.arg2 m c := (pass3 (W6 m ρ c) main_arg2 (by decide)).trans (W6_arg2 m ρ c)
theorem W8_arg2 : W8 m ρ c (Proc.devRef .tc main_arg2) = A.arg2 m c := (regpass3 m ρ c main_arg2 (by decide)).trans (W7_arg2 m ρ c)
theorem W1_arg13 : W1 m ρ c (Proc.devRef .tc main_arg13) = A.arg13 m c := (pass0 (W0 m ρ c) main_arg13 (by decide)).trans rfl
theorem W2_arg13 : W2 m ρ c (Proc.devRef .tc main_arg13) = A.arg13 m c := (regpass0 m ρ c main_arg13 (by decide)).trans (W1_arg13 m ρ c)
theorem W3_arg13 : W3 m ρ c (Proc.devRef .tc main_arg13) = A.arg13 m c := (pass1 (W2 m ρ c) main_arg13 (by decide)).trans (W2_arg13 m ρ c)
theorem W4_arg13 : W4 m ρ c (Proc.devRef .tc main_arg13) = A.arg13 m c := (regpass1 m ρ c main_arg13 (by decide)).trans (W3_arg13 m ρ c)
theorem W5_arg13 : W5 m ρ c (Proc.devRef .tc main_arg13) = A.arg13 m c := (pass2 (W4 m ρ c) main_arg13 (by decide)).trans (W4_arg13 m ρ c)
theorem W6_arg13 : W6 m ρ c (Proc.devRef .tc main_arg13) = A.arg13 m c := (regpass2 m ρ c main_arg13 (by decide)).trans (W5_arg13 m ρ c)
theorem W7_arg13 : W7 m ρ c (Proc.devRef .tc main_arg13) = A.arg13 m c := (pass3 (W6 m ρ c) main_arg13 (by decide)).trans (W6_arg13 m ρ c)
theorem W8_arg13 : W8 m ρ c (Proc.devRef .tc main_arg13) = A.arg13 m c := (regpass3 m ρ c main_arg13 (by decide)).trans (W7_arg13 m ρ c)
theorem W1_arg15 : W1 m ρ c (Proc.devRef .tc main_arg15) = A.arg15 m c := (pass0 (W0 m ρ c) main_arg15 (by decide)).trans rfl
theorem W2_arg15 : W2 m ρ c (Proc.devRef .tc main_arg15) = A.arg15 m c := (regpass0 m ρ c main_arg15 (by decide)).trans (W1_arg15 m ρ c)
theorem W3_arg15 : W3 m ρ c (Proc.devRef .tc main_arg15) = A.arg15 m c := (pass1 (W2 m ρ c) main_arg15 (by decide)).trans (W2_arg15 m ρ c)
theorem W4_arg15 : W4 m ρ c (Proc.devRef .tc main_arg15) = A.arg15 m c := (regpass1 m ρ c main_arg15 (by decide)).trans (W3_arg15 m ρ c)
theorem W5_arg15 : W5 m ρ c (Proc.devRef .tc main_arg15) = A.arg15 m c := (pass2 (W4 m ρ c) main_arg15 (by decide)).trans (W4_arg15 m ρ c)
theorem W6_arg15 : W6 m ρ c (Proc.devRef .tc main_arg15) = A.arg15 m c := (regpass2 m ρ c main_arg15 (by decide)).trans (W5_arg15 m ρ c)
theorem W7_arg15 : W7 m ρ c (Proc.devRef .tc main_arg15) = A.arg15 m c := (pass3 (W6 m ρ c) main_arg15 (by decide)).trans (W6_arg15 m ρ c)
theorem W8_arg15 : W8 m ρ c (Proc.devRef .tc main_arg15) = A.arg15 m c := (regpass3 m ρ c main_arg15 (by decide)).trans (W7_arg15 m ρ c)
theorem W1_arg12 : W1 m ρ c (Proc.devRef .tc main_arg12) = A.arg12 m c := (pass0 (W0 m ρ c) main_arg12 (by decide)).trans rfl
theorem W2_arg12 : W2 m ρ c (Proc.devRef .tc main_arg12) = A.arg12 m c := (regpass0 m ρ c main_arg12 (by decide)).trans (W1_arg12 m ρ c)
theorem W3_arg12 : W3 m ρ c (Proc.devRef .tc main_arg12) = A.arg12 m c := (pass1 (W2 m ρ c) main_arg12 (by decide)).trans (W2_arg12 m ρ c)
theorem W4_arg12 : W4 m ρ c (Proc.devRef .tc main_arg12) = A.arg12 m c := (regpass1 m ρ c main_arg12 (by decide)).trans (W3_arg12 m ρ c)
theorem W5_arg12 : W5 m ρ c (Proc.devRef .tc main_arg12) = A.arg12 m c := (pass2 (W4 m ρ c) main_arg12 (by decide)).trans (W4_arg12 m ρ c)
theorem W6_arg12 : W6 m ρ c (Proc.devRef .tc main_arg12) = A.arg12 m c := (regpass2 m ρ c main_arg12 (by decide)).trans (W5_arg12 m ρ c)
theorem W7_arg12 : W7 m ρ c (Proc.devRef .tc main_arg12) = A.arg12 m c := (pass3 (W6 m ρ c) main_arg12 (by decide)).trans (W6_arg12 m ρ c)
theorem W8_arg12 : W8 m ρ c (Proc.devRef .tc main_arg12) = A.arg12 m c := (regpass3 m ρ c main_arg12 (by decide)).trans (W7_arg12 m ρ c)
theorem W9_arg12 : W9 m ρ c (Proc.devRef .tc main_arg12) = A.arg12 m c := (pass4 (W8 m ρ c) main_arg12 (by decide)).trans (W8_arg12 m ρ c)
theorem W1_arg14 : W1 m ρ c (Proc.devRef .tc main_arg14) = A.arg14 m c := (pass0 (W0 m ρ c) main_arg14 (by decide)).trans rfl
theorem W2_arg14 : W2 m ρ c (Proc.devRef .tc main_arg14) = A.arg14 m c := (regpass0 m ρ c main_arg14 (by decide)).trans (W1_arg14 m ρ c)
theorem W3_arg14 : W3 m ρ c (Proc.devRef .tc main_arg14) = A.arg14 m c := (pass1 (W2 m ρ c) main_arg14 (by decide)).trans (W2_arg14 m ρ c)
theorem W4_arg14 : W4 m ρ c (Proc.devRef .tc main_arg14) = A.arg14 m c := (regpass1 m ρ c main_arg14 (by decide)).trans (W3_arg14 m ρ c)
theorem W5_arg14 : W5 m ρ c (Proc.devRef .tc main_arg14) = A.arg14 m c := (pass2 (W4 m ρ c) main_arg14 (by decide)).trans (W4_arg14 m ρ c)
theorem W6_arg14 : W6 m ρ c (Proc.devRef .tc main_arg14) = A.arg14 m c := (regpass2 m ρ c main_arg14 (by decide)).trans (W5_arg14 m ρ c)
theorem W7_arg14 : W7 m ρ c (Proc.devRef .tc main_arg14) = A.arg14 m c := (pass3 (W6 m ρ c) main_arg14 (by decide)).trans (W6_arg14 m ρ c)
theorem W8_arg14 : W8 m ρ c (Proc.devRef .tc main_arg14) = A.arg14 m c := (regpass3 m ρ c main_arg14 (by decide)).trans (W7_arg14 m ρ c)
theorem W9_arg14 : W9 m ρ c (Proc.devRef .tc main_arg14) = A.arg14 m c := (pass4 (W8 m ρ c) main_arg14 (by decide)).trans (W8_arg14 m ρ c)
theorem W1_arg0 : W1 m ρ c (Proc.devRef .tc main_arg0) = A.arg0 m c := (pass0 (W0 m ρ c) main_arg0 (by decide)).trans rfl
theorem W1_arg3 : W1 m ρ c (Proc.devRef .tc main_arg3) = A.arg3 m c := (pass0 (W0 m ρ c) main_arg3 (by decide)).trans rfl
theorem W1_arg5 : W1 m ρ c (Proc.devRef .tc main_arg5) = A.arg5 m c := (pass0 (W0 m ρ c) main_arg5 (by decide)).trans rfl
theorem W1_arg7 : W1 m ρ c (Proc.devRef .tc main_arg7) = A.arg7 m c := (pass0 (W0 m ρ c) main_arg7 (by decide)).trans rfl
theorem W2_v1 : W2 m ρ c (Proc.devRef .tc main_v1) = srcRaw (A.arg1 m c) := (regpass0 m ρ c main_v1 (by decide)).trans (W1_v1 m ρ c)
theorem W3_v1 : W3 m ρ c (Proc.devRef .tc main_v1) = srcRaw (A.arg1 m c) := (pass1 (W2 m ρ c) main_v1 (by decide)).trans (W2_v1 m ρ c)
theorem W4_v1 : W4 m ρ c (Proc.devRef .tc main_v1) = srcRaw (A.arg1 m c) := (regpass1 m ρ c main_v1 (by decide)).trans (W3_v1 m ρ c)
theorem W5_v1 : W5 m ρ c (Proc.devRef .tc main_v1) = srcRaw (A.arg1 m c) := (pass2 (W4 m ρ c) main_v1 (by decide)).trans (W4_v1 m ρ c)
theorem W6_v1 : W6 m ρ c (Proc.devRef .tc main_v1) = srcRaw (A.arg1 m c) := (regpass2 m ρ c main_v1 (by decide)).trans (W5_v1 m ρ c)
theorem W2_v3 : W2 m ρ c (Proc.devRef .tc main_v3) = dstRaw (A.arg1 m c) := (regpass0 m ρ c main_v3 (by decide)).trans (W1_v3 m ρ c)
theorem W3_v3 : W3 m ρ c (Proc.devRef .tc main_v3) = dstRaw (A.arg1 m c) := (pass1 (W2 m ρ c) main_v3 (by decide)).trans (W2_v3 m ρ c)
theorem W4_v3 : W4 m ρ c (Proc.devRef .tc main_v3) = dstRaw (A.arg1 m c) := (regpass1 m ρ c main_v3 (by decide)).trans (W3_v3 m ρ c)
theorem W5_v3 : W5 m ρ c (Proc.devRef .tc main_v3) = dstRaw (A.arg1 m c) := (pass2 (W4 m ρ c) main_v3 (by decide)).trans (W4_v3 m ρ c)
theorem W6_v3 : W6 m ρ c (Proc.devRef .tc main_v3) = dstRaw (A.arg1 m c) := (regpass2 m ρ c main_v3 (by decide)).trans (W5_v3 m ρ c)

end Fold

/-! ## The values the fold leaves at each boundary -/

section Values

variable (m : (ℓ : Loc nD τ sig) → Buf (Elt Ideal) ℓ) (ρ : Dev nD → PrngReg) (c : Dev nD)

/-- The node features after each of the four layers, as functions of the launch memory's arguments. -/
def H1 : T S50000x128 := h1 (A.arg0 m c) (A.arg1 m c) (A.arg3 m c) (A.arg4 m c) (A.arg5 m c) (A.arg6 m c) (A.arg7 m c)
def H2 : T S50000x128 := step (H1 m c) (A.arg1 m c) (wsl0 (A.arg8 m c)) (bsl0 (A.arg9 m c)) (wsl0 (A.arg10 m c)) (bsl0 (A.arg11 m c))
def H3 : T S50000x128 := step (H2 m c) (A.arg1 m c) (wsl1 (A.arg8 m c)) (bsl1 (A.arg9 m c)) (wsl1 (A.arg10 m c)) (bsl1 (A.arg11 m c))
def H4 : T S50000x128 := step (H3 m c) (A.arg1 m c) (wsl2 (A.arg8 m c)) (bsl2 (A.arg9 m c)) (wsl2 (A.arg10 m c)) (bsl2 (A.arg11 m c))

attribute [local irreducible] Host.gather Host.scatterAdd

variable
  (hR0 : ∀ (V : (c : Dev nD) → (b : Ref sig .tc) → Buf (Elt Ideal) ((c : Thread nD τ).loc b)) (c : Dev nD), (dat0 (F := Ideal) V c).arrAt 7 cfg0.N = dense0 (V c main_arg0) (V c main_v13) (V c main_arg3) (unrow (V c main_v14)) (V c main_arg5) (unrow (V c main_v15)) (V c main_arg7))
  (hR1 : ∀ (V : (c : Dev nD) → (b : Ref sig .tc) → Buf (Elt Ideal) ((c : Thread nD τ).loc b)) (c : Dev nD), (dat1 (F := Ideal) V c).arrAt 6 cfg1.N = dense (V c main_v16) (V c main_v26) (V c main_v28) (unrow (V c main_v35)) (V c main_v32) (unrow (V c main_v36)))
  (hR2 : ∀ (V : (c : Dev nD) → (b : Ref sig .tc) → Buf (Elt Ideal) ((c : Thread nD τ).loc b)) (c : Dev nD), (dat2 (F := Ideal) V c).arrAt 6 cfg2.N = dense (V c main_v37) (V c main_v47) (V c main_v49) (unrow (V c main_v56)) (V c main_v53) (unrow (V c main_v57)))
  (hR3 : ∀ (V : (c : Dev nD) → (b : Ref sig .tc) → Buf (Elt Ideal) ((c : Thread nD τ).loc b)) (c : Dev nD), (dat3 (F := Ideal) V c).arrAt 6 cfg3.N = dense (V c main_v58) (V c main_v68) (V c main_v70) (unrow (V c main_v77)) (V c main_v74) (unrow (V c main_v78)))
  (hR4 : ∀ (V : (c : Dev nD) → (b : Ref sig .tc) → Buf (Elt Ideal) ((c : Thread nD τ).loc b)) (c : Dev nD), (dat4 (F := Ideal) V c).arrAt 5 cfg4.N = head (V c main_v91) (V c main_arg12) (unrow (V c main_v92)) (V c main_arg14) (unrow1 (V c main_v93)))
include hR0 hR1 hR2 hR3 hR4

theorem W1_v13 : W1 m ρ c (Proc.devRef .tc main_v13) = agg64 (A.arg0 m c) (A.arg1 m c) := by
  show StableHlo.after hostOps0 (W0 m ρ c) (Proc.devRef .tc main_v13) = _
  after_results
  rfl
theorem W1_v14 : W1 m ρ c (Proc.devRef .tc main_v14) = rs (A.arg4 m c) := by
  show StableHlo.after hostOps0 (W0 m ρ c) (Proc.devRef .tc main_v14) = _
  after_results
  rfl
theorem W1_v15 : W1 m ρ c (Proc.devRef .tc main_v15) = rs (A.arg6 m c) := by
  show StableHlo.after hostOps0 (W0 m ρ c) (Proc.devRef .tc main_v15) = _
  after_results
  rfl

/-- Region 0 leaves the first layer's features. -/
theorem W2_v16 : W2 m ρ c (Proc.devRef .tc main_v16) = H1 m c := by
  refine (W2_arr m ρ c 7).trans ((hR0 (V1 m ρ) c).trans ?_)
  show dense0 (W1 m ρ c (Proc.devRef .tc main_arg0)) (W1 m ρ c (Proc.devRef .tc main_v13)) (W1 m ρ c (Proc.devRef .tc main_arg3)) (unrow (W1 m ρ c (Proc.devRef .tc main_v14)))
    (W1 m ρ c (Proc.devRef .tc main_arg5)) (unrow (W1 m ρ c (Proc.devRef .tc main_v15))) (W1 m ρ c (Proc.devRef .tc main_arg7)) = _
  rw [W1_arg0, W1_v13 m ρ c hR0 hR1 hR2 hR3 hR4, W1_arg3, W1_v14 m ρ c hR0 hR1 hR2 hR3 hR4, W1_arg5, W1_v15 m ρ c hR0 hR1 hR2 hR3 hR4, W1_arg7, unrow_rs, unrow_rs]
  rfl

/-! ### Stretch 1 and region 1 -/

theorem W3_v16 : W3 m ρ c (Proc.devRef .tc main_v16) = H1 m c :=
  (pass1 (W2 m ρ c) main_v16 (by decide)).trans (W2_v16 m ρ c hR0 hR1 hR2 hR3 hR4)
theorem W3_v26 : W3 m ρ c (Proc.devRef .tc main_v26) = agg128 (H1 m c) (A.arg1 m c) := by
  show StableHlo.after hostOps1 (W2 m ρ c) (Proc.devRef .tc main_v26) = _
  after_results
  rw [W2_v16 m ρ c hR0 hR1 hR2 hR3 hR4, W2_v1, W2_v3]
  rfl
theorem W3_v28 : W3 m ρ c (Proc.devRef .tc main_v28) = wsl0 (A.arg8 m c) := by
  show StableHlo.after hostOps1 (W2 m ρ c) (Proc.devRef .tc main_v28) = _
  after_results
  rw [W2_arg8]
  rfl
theorem W3_v35 : W3 m ρ c (Proc.devRef .tc main_v35) = rs (bsl0 (A.arg9 m c)) := by
  show StableHlo.after hostOps1 (W2 m ρ c) (Proc.devRef .tc main_v35) = _
  after_results
  rw [W2_arg9]
  rfl
theorem W3_v32 : W3 m ρ c (Proc.devRef .tc main_v32) = wsl0 (A.arg10 m c) := by
  show StableHlo.after hostOps1 (W2 m ρ c) (Proc.devRef .tc main_v32) = _
  after_results
  rw [W2_arg10]
  rfl
theorem W3_v36 : W3 m ρ c (Proc.devRef .tc main_v36) = rs (bsl0 (A.arg11 m c)) := by
  show StableHlo.after hostOps1 (W2 m ρ c) (Proc.devRef .tc main_v36) = _
  after_results
  rw [W2_arg11]
  rfl

/-- Region 1 leaves the next layer's features. -/
theorem W4_v37 : W4 m ρ c (Proc.devRef .tc main_v37) = H2 m c := by
  refine (W4_arr m ρ c 6).trans ((hR1 (V3 m ρ) c).trans ?_)
  show dense (W3 m ρ c (Proc.devRef .tc main_v16)) (W3 m ρ c (Proc.devRef .tc main_v26)) (W3 m ρ c (Proc.devRef .tc main_v28)) (unrow (W3 m ρ c (Proc.devRef .tc main_v35)))
    (W3 m ρ c (Proc.devRef .tc main_v32)) (unrow (W3 m ρ c (Proc.devRef .tc main_v36))) = _
  rw [W3_v16 m ρ c hR0 hR1 hR2 hR3 hR4, W3_v26 m ρ c hR0 hR1 hR2 hR3 hR4, W3_v28 m ρ c hR0 hR1 hR2 hR3 hR4, W3_v35 m ρ c hR0 hR1 hR2 hR3 hR4, W3_v32 m ρ c hR0 hR1 hR2 hR3 hR4, W3_v36 m ρ c hR0 hR1 hR2 hR3 hR4, unrow_rs, unrow_rs]
  rfl

/-! ### Stretch 2 and region 2 -/

theorem W5_v37 : W5 m ρ c (Proc.devRef .tc main_v37) = H2 m c :=
  (pass2 (W4 m ρ c) main_v37 (by decide)).trans (W4_v37 m ρ c hR0 hR1 hR2 hR3 hR4)
theorem W5_v47 : W5 m ρ c (Proc.devRef .tc main_v47) = agg128 (H2 m c) (A.arg1 m c) := by
  show StableHlo.after hostOps2 (W4 m ρ c) (Proc.devRef .tc main_v47) = _
  after_results
  rw [W4_v37 m ρ c hR0 hR1 hR2 hR3 hR4, W4_v1, W4_v3]
  rfl
theorem W5_v49 : W5 m ρ c (Proc.devRef .tc main_v49) = wsl1 (A.arg8 m c) := by
  show StableHlo.after hostOps2 (W4 m ρ c) (Proc.devRef .tc main_v49) = _
  after_results
  rw [W4_arg8]
  rfl
theorem W5_v56 : W5 m ρ c (Proc.devRef .tc main_v56) = rs (bsl1 (A.arg9 m c)) := by
  show StableHlo.after hostOps2 (W4 m ρ c) (Proc.devRef .tc main_v56) = _
  after_results
  rw [W4_arg9]
  rfl
theorem W5_v53 : W5 m ρ c (Proc.devRef .tc main_v53) = wsl1 (A.arg10 m c) := by
  show StableHlo.after hostOps2 (W4 m ρ c) (Proc.devRef .tc main_v53) = _
  after_results
  rw [W4_arg10]
  rfl
theorem W5_v57 : W5 m ρ c (Proc.devRef .tc main_v57) = rs (bsl1 (A.arg11 m c)) := by
  show StableHlo.after hostOps2 (W4 m ρ c) (Proc.devRef .tc main_v57) = _
  after_results
  rw [W4_arg11]
  rfl

/-- Region 2 leaves the next layer's features. -/
theorem W6_v58 : W6 m ρ c (Proc.devRef .tc main_v58) = H3 m c := by
  refine (W6_arr m ρ c 6).trans ((hR2 (V5 m ρ) c).trans ?_)
  show dense (W5 m ρ c (Proc.devRef .tc main_v37)) (W5 m ρ c (Proc.devRef .tc main_v47)) (W5 m ρ c (Proc.devRef .tc main_v49)) (unrow (W5 m ρ c (Proc.devRef .tc main_v56)))
    (W5 m ρ c (Proc.devRef .tc main_v53)) (unrow (W5 m ρ c (Proc.devRef .tc main_v57))) = _
  rw [W5_v37 m ρ c hR0 hR1 hR2 hR3 hR4, W5_v47 m ρ c hR0 hR1 hR2 hR3 hR4, W5_v49 m ρ c hR0 hR1 hR2 hR3 hR4, W5_v56 m ρ c hR0 hR1 hR2 hR3 hR4, W5_v53 m ρ c hR0 hR1 hR2 hR3 hR4, W5_v57 m ρ c hR0 hR1 hR2 hR3 hR4, unrow_rs, unrow_rs]
  rfl

/-! ### Stretch 3 and region 3 -/

theorem W7_v58 : W7 m ρ c (Proc.devRef .tc main_v58) = H3 m c :=
  (pass3 (W6 m ρ c) main_v58 (by decide)).trans (W6_v58 m ρ c hR0 hR1 hR2 hR3 hR4)
theorem W7_v68 : W7 m ρ c (Proc.devRef .tc main_v68) = agg128 (H3 m c) (A.arg1 m c) := by
  show StableHlo.after hostOps3 (W6 m ρ c) (Proc.devRef .tc main_v68) = _
  after_results
  rw [W6_v58 m ρ c hR0 hR1 hR2 hR3 hR4, W6_v1, W6_v3]
  rfl
theorem W7_v70 : W7 m ρ c (Proc.devRef .tc main_v70) = wsl2 (A.arg8 m c) := by
  show StableHlo.after hostOps3 (W6 m ρ c) (Proc.devRef .tc main_v70) = _
  after_results
  rw [W6_arg8]
  rfl
theorem W7_v77 : W7 m ρ c (Proc.devRef .tc main_v77) = rs (bsl2 (A.arg9 m c)) := by
  show StableHlo.after hostOps3 (W6 m ρ c) (Proc.devRef .tc main_v77) = _
  after_results
  rw [W6_arg9]
  rfl
theorem W7_v74 : W7 m ρ c (Proc.devRef .tc main_v74) = wsl2 (A.arg10 m c) := by
  show StableHlo.after hostOps3 (W6 m ρ c) (Proc.devRef .tc main_v74) = _
  after_results
  rw [W6_arg10]
  rfl
theorem W7_v78 : W7 m ρ c (Proc.devRef .tc main_v78) = rs (bsl2 (A.arg11 m c)) := by
  show StableHlo.after hostOps3 (W6 m ρ c) (Proc.devRef .tc main_v78) = _
  after_results
  rw [W6_arg11]
  rfl

/-- Region 3 leaves the next layer's features. -/
theorem W8_v79 : W8 m ρ c (Proc.devRef .tc main_v79) = H4 m c := by
  refine (W8_arr m ρ c 6).trans ((hR3 (V7 m ρ) c).trans ?_)
  show dense (W7 m ρ c (Proc.devRef .tc main_v58)) (W7 m ρ c (Proc.devRef .tc main_v68)) (W7 m ρ c (Proc.devRef .tc main_v70)) (unrow (W7 m ρ c (Proc.devRef .tc main_v77)))
    (W7 m ρ c (Proc.devRef .tc main_v74)) (unrow (W7 m ρ c (Proc.devRef .tc main_v78))) = _
  rw [W7_v58 m ρ c hR0 hR1 hR2 hR3 hR4, W7_v68 m ρ c hR0 hR1 hR2 hR3 hR4, W7_v70 m ρ c hR0 hR1 hR2 hR3 hR4, W7_v77 m ρ c hR0 hR1 hR2 hR3 hR4, W7_v74 m ρ c hR0 hR1 hR2 hR3 hR4, W7_v78 m ρ c hR0 hR1 hR2 hR3 hR4, unrow_rs, unrow_rs]
  rfl

/-! ### The pool and the head -/

attribute [local irreducible] Host.divf in
theorem W9_v91 : W9 m ρ c (Proc.devRef .tc main_v91) = pool (H4 m c) (A.arg2 m c) := by
  show StableHlo.after hostOps4 (W8 m ρ c) (Proc.devRef .tc main_v91) = _
  after_results
  rw [W8_v79 m ρ c hR0 hR1 hR2 hR3 hR4, W8_arg2]
  rfl
theorem W9_v92 : W9 m ρ c (Proc.devRef .tc main_v92) = rs (A.arg13 m c) := by
  show StableHlo.after hostOps4 (W8 m ρ c) (Proc.devRef .tc main_v92) = _
  after_results
  rw [W8_arg13]
  rfl
theorem W9_v93 : W9 m ρ c (Proc.devRef .tc main_v93) = rs1 (A.arg15 m c) := by
  show StableHlo.after hostOps4 (W8 m ρ c) (Proc.devRef .tc main_v93) = _
  after_results
  rw [W8_arg15]
  rfl

/-- The program's result buffer ends at the network's value of the launch memory's arguments. -/
theorem W10_v94 : W10 m ρ c (Proc.devRef .tc main_v94) = net (A.arg0 m c) (A.arg1 m c) (A.arg2 m c) (A.arg3 m c) (A.arg4 m c) (A.arg5 m c) (A.arg6 m c) (A.arg7 m c) (A.arg8 m c) (A.arg9 m c) (A.arg10 m c) (A.arg11 m c) (A.arg12 m c) (A.arg13 m c) (A.arg14 m c) (A.arg15 m c) := by
  refine (W10_arr m ρ c 5).trans ((hR4 (V9 m ρ) c).trans ?_)
  show head (W9 m ρ c (Proc.devRef .tc main_v91)) (W9 m ρ c (Proc.devRef .tc main_arg12)) (unrow (W9 m ρ c (Proc.devRef .tc main_v92))) (W9 m ρ c (Proc.devRef .tc main_arg14))
    (unrow1 (W9 m ρ c (Proc.devRef .tc main_v93))) = _
  rw [W9_v91 m ρ c hR0 hR1 hR2 hR3 hR4, W9_arg12, W9_v92 m ρ c hR0 hR1 hR2 hR3 hR4, W9_arg14, W9_v93 m ρ c hR0 hR1 hR2 hR3 hR4, unrow_rs, unrow1_rs1]
  rfl

end Values

end Cert.Gin.KVal

end
-- ==== Proof.RefOps.lean ====
/-
  The reference program as one straight line of host operations.

  The reference computes the four-layer network with 177 host operations: the 146 of its main function and, at each of its
  nine calls, the callee's own operations over that call's buffers (three for each of the eight rectifiers: the scalar zero,
  its broadcast, the maximum; seven for the leaky rectifier: the zero, its broadcast, the comparison, the slope's conversion,
  its broadcast, the product, and the select of the inner call). Written in order they form one list, which is cut here in
  five consecutive stretches — the first layer, the three later layers, the pool with the head — so that the contents after
  the whole line can be read one stretch at a time. The main function is the sequence of the whole list; every operation
  touches TensorCore buffers only; hence every execution ends with each buffer at the fold of the operations over the launch
  contents.
-/
import proofs.«132390_j82068235092697_1_alg».proof.ReferenceIdeal
import Idealize.ShloMosaic.Lib.StableHlo.Run

noncomputable section

namespace Cert.Gin.Ref

open Idealize.ShloMosaic Idealize.ShloMosaic.StableHlo Idealize.SL.Sem
open Cert.ReferenceIdeal Cert.ReferenceIdeal.Facts₀

variable [Cert.ReferenceIdeal.Facts]
variable {F : FTy → Type} [FloatOps F]

/-- The first layer: the two rows of the edge list, the residual projection, the wrapped source column, the gather and the
    scatter-add, the two affine maps with the rectifier between them, the residual sum and the final rectifier. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg7 main_v4 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.nullary main_c (constantI S_ 32 0#32),
    StableHlo.unary main_c main_v5 (broadcastInDim S800000 ![] bcast_S_S800000 : (⟨S_, .i32⟩ : BufTy).Contents (Elt F) → (⟨S800000, .i32⟩ : BufTy).Contents (Elt F)),
    StableHlo.binary main_v1 main_v5 main_v6 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v7 (broadcastInDim S800000 ![] bcast_S_S800000 : (⟨S_, .i32⟩ : BufTy).Contents (Elt F) → (⟨S800000, .i32⟩ : BufTy).Contents (Elt F)),
    StableHlo.binary main_v1 main_v7 main_v8 (addi : (⟨S800000, .i32⟩ : BufTy).Contents (Elt F) → (⟨S800000, .i32⟩ : BufTy).Contents (Elt F) → (⟨S800000, .i32⟩ : BufTy).Contents (Elt F)),
    StableHlo.ternary main_v6 main_v8 main_v1 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v9 main_v10 (broadcastInDim S800000x1 ![0] bcast_S800000_S800000x1_0 : (⟨S800000, .i32⟩ : BufTy).Contents (Elt F) → (⟨S800000x1, .i32⟩ : BufTy).Contents (Elt F)),
    StableHlo.binary main_arg0 main_v10 main_v11 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v12 (broadcastInDim S50000x64 ![] bcast_S_S50000x64 : (⟨S_, .f32⟩ : BufTy).Contents (Elt F) → (⟨S50000x64, .f32⟩ : BufTy).Contents (Elt F)),
    StableHlo.unary main_v3 main_v13 (broadcastInDim S800000x1 ![0] bcast_S800000_S800000x1_0 : (⟨S800000, .i32⟩ : BufTy).Contents (Elt F) → (⟨S800000x1, .i32⟩ : BufTy).Contents (Elt F)),
    StableHlo.ternary main_v12 main_v13 main_v11 main_v14 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_arg0 main_v14 main_v15 (addf : (⟨S50000x64, .f32⟩ : BufTy).Contents (Elt F) → (⟨S50000x64, .f32⟩ : BufTy).Contents (Elt F) → (⟨S50000x64, .f32⟩ : BufTy).Contents (Elt F)),
    StableHlo.binary main_v15 main_arg3 main_v16 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg4 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v18 main_v19 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v19) main_call0.v0 main_call0.v1 maximumf,
    StableHlo.binary main_v20 main_arg5 main_v21 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v23 main_v24 (addf : (⟨S50000x128, .f32⟩ : BufTy).Contents (Elt F) → (⟨S50000x128, .f32⟩ : BufTy).Contents (Elt F) → (⟨S50000x128, .f32⟩ : BufTy).Contents (Elt F)),
    StableHlo.binary main_v24 main_v4 main_v25 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v25) main_call1.v0 main_call1.v1 maximumf ]

/-- The second layer: the first slices of the two weight stacks and the two bias stacks, then the aggregation and the dense part over the first layer's features. -/
abbrev ops1 : List (HloOp τ sig (Elt F)) :=
  [ StableHlo.unary main_arg8 main_v27 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v27 main_v28 rfl shapeCasts_S1x128x128_S128x128,
    StableHlo.unary main_arg9 main_v29 ((extractStridedSlice S1x128 ![0, 0] · slices_S3x128_S1x128_0_0) : (⟨S3x128, .f32⟩ : BufTy).Contents (Elt F) → (⟨S1x128, .f32⟩ : BufTy).Contents (Elt F)),
    StableHlo.reshape main_v29 main_v30 rfl shapeCasts_S1x128_S128,
    StableHlo.unary main_arg10 main_v31 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v31 main_v32 rfl shapeCasts_S1x128x128_S128x128,
    StableHlo.unary main_arg11 main_v33 ((extractStridedSlice S1x128 ![0, 0] · slices_S3x128_S1x128_0_0) : (⟨S3x128, .f32⟩ : BufTy).Contents (Elt F) → (⟨S1x128, .f32⟩ : BufTy).Contents (Elt F)),
    StableHlo.reshape main_v33 main_v34 rfl shapeCasts_S1x128_S128,
    StableHlo.nullary main_c_1 (constantI S_ 32 0#32),
    StableHlo.unary main_c_1 main_v35 (broadcastInDim S800000 ![] bcast_S_S800000 : (⟨S_, .i32⟩ : BufTy).Contents (Elt F) → (⟨S800000, .i32⟩ : BufTy).Contents (Elt F)),
    StableHlo.binary main_v1 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v37 (broadcastInDim S800000 ![] bcast_S_S800000 : (⟨S_, .i32⟩ : BufTy).Contents (Elt F) → (⟨S800000, .i32⟩ : BufTy).Contents (Elt F)),
    StableHlo.binary main_v1 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_v1 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_v26 main_v40 main_v41 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_3 (constant S_ .f32 0x00000000#32),
    StableHlo.unary main_cst_3 main_v42 (broadcastInDim S50000x128 ![] bcast_S_S50000x128 : (⟨S_, .f32⟩ : BufTy).Contents (Elt F) → (⟨S50000x128, .f32⟩ : BufTy).Contents (Elt F)),
    StableHlo.unary main_v3 main_v43 (broadcastInDim S800000x1 ![0] bcast_S800000_S800000x1_0 : (⟨S800000, .i32⟩ : BufTy).Contents (Elt F) → (⟨S800000x1, .i32⟩ : BufTy).Contents (Elt F)),
    StableHlo.ternary main_v42 main_v43 main_v41 main_v44 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v26 main_v44 main_v45 (addf : (⟨S50000x128, .f32⟩ : BufTy).Contents (Elt F) → (⟨S50000x128, .f32⟩ : BufTy).Contents (Elt F) → (⟨S50000x128, .f32⟩ : BufTy).Contents (Elt F)),
    StableHlo.binary main_v45 main_v28 main_v46 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v30 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v49) main_call2.v0 main_call2.v1 maximumf,
    StableHlo.binary main_v50 main_v32 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v34 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (addf : (⟨S50000x128, .f32⟩ : BufTy).Contents (Elt F) → (⟨S50000x128, .f32⟩ : BufTy).Contents (Elt F) → (⟨S50000x128, .f32⟩ : BufTy).Contents (Elt F)),
    StableHlo.binary main_v54 main_v26 main_v55 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v55) main_call3.v0 main_call3.v1 maximumf ]

/-- The third layer: the second slices of the stacks, then the aggregation and the dense part over the second layer's features. -/
abbrev ops2 : List (HloOp τ sig (Elt F)) :=
  [ StableHlo.unary main_arg8 main_v57 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v57 main_v58 rfl shapeCasts_S1x128x128_S128x128,
    StableHlo.unary main_arg9 main_v59 ((extractStridedSlice S1x128 ![1, 0] · slices_S3x128_S1x128_1_0) : (⟨S3x128, .f32⟩ : BufTy).Contents (Elt F) → (⟨S1x128, .f32⟩ : BufTy).Contents (Elt F)),
    StableHlo.reshape main_v59 main_v60 rfl shapeCasts_S1x128_S128,
    StableHlo.unary main_arg10 main_v61 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v61 main_v62 rfl shapeCasts_S1x128x128_S128x128,
    StableHlo.unary main_arg11 main_v63 ((extractStridedSlice S1x128 ![1, 0] · slices_S3x128_S1x128_1_0) : (⟨S3x128, .f32⟩ : BufTy).Contents (Elt F) → (⟨S1x128, .f32⟩ : BufTy).Contents (Elt F)),
    StableHlo.reshape main_v63 main_v64 rfl shapeCasts_S1x128_S128,
    StableHlo.nullary main_c_4 (constantI S_ 32 0#32),
    StableHlo.unary main_c_4 main_v65 (broadcastInDim S800000 ![] bcast_S_S800000 : (⟨S_, .i32⟩ : BufTy).Contents (Elt F) → (⟨S800000, .i32⟩ : BufTy).Contents (Elt F)),
    StableHlo.binary main_v1 main_v65 main_v66 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v67 (broadcastInDim S800000 ![] bcast_S_S800000 : (⟨S_, .i32⟩ : BufTy).Contents (Elt F) → (⟨S800000, .i32⟩ : BufTy).Contents (Elt F)),
    StableHlo.binary main_v1 main_v67 main_v68 (addi : (⟨S800000, .i32⟩ : BufTy).Contents (Elt F) → (⟨S800000, .i32⟩ : BufTy).Contents (Elt F) → (⟨S800000, .i32⟩ : BufTy).Contents (Elt F)),
    StableHlo.ternary main_v66 main_v68 main_v1 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v69 main_v70 (broadcastInDim S800000x1 ![0] bcast_S800000_S800000x1_0 : (⟨S800000, .i32⟩ : BufTy).Contents (Elt F) → (⟨S800000x1, .i32⟩ : BufTy).Contents (Elt F)),
    StableHlo.binary main_v56 main_v70 main_v71 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_6 (constant S_ .f32 0x00000000#32),
    StableHlo.unary main_cst_6 main_v72 (broadcastInDim S50000x128 ![] bcast_S_S50000x128 : (⟨S_, .f32⟩ : BufTy).Contents (Elt F) → (⟨S50000x128, .f32⟩ : BufTy).Contents (Elt F)),
    StableHlo.unary main_v3 main_v73 (broadcastInDim S800000x1 ![0] bcast_S800000_S800000x1_0 : (⟨S800000, .i32⟩ : BufTy).Contents (Elt F) → (⟨S800000x1, .i32⟩ : BufTy).Contents (Elt F)),
    StableHlo.ternary main_v72 main_v73 main_v71 main_v74 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v56 main_v74 main_v75 (addf : (⟨S50000x128, .f32⟩ : BufTy).Contents (Elt F) → (⟨S50000x128, .f32⟩ : BufTy).Contents (Elt F) → (⟨S50000x128, .f32⟩ : BufTy).Contents (Elt F)),
    StableHlo.binary main_v75 main_v58 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v60 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v79) main_call4.v0 main_call4.v1 maximumf,
    StableHlo.binary main_v80 main_v62 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v64 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v83 main_v84 (addf : (⟨S50000x128, .f32⟩ : BufTy).Contents (Elt F) → (⟨S50000x128, .f32⟩ : BufTy).Contents (Elt F) → (⟨S50000x128, .f32⟩ : BufTy).Contents (Elt F)),
    StableHlo.binary main_v84 main_v56 main_v85 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v85) main_call5.v0 main_call5.v1 maximumf ]

/-- The fourth layer: the third slices of the stacks, then the aggregation and the dense part over the third layer's features. -/
abbrev ops3 : List (HloOp τ sig (Elt F)) :=
  [ StableHlo.unary main_arg8 main_v87 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v87 main_v88 rfl shapeCasts_S1x128x128_S128x128,
    StableHlo.unary main_arg9 main_v89 ((extractStridedSlice S1x128 ![2, 0] · slices_S3x128_S1x128_2_0) : (⟨S3x128, .f32⟩ : BufTy).Contents (Elt F) → (⟨S1x128, .f32⟩ : BufTy).Contents (Elt F)),
    StableHlo.reshape main_v89 main_v90 rfl shapeCasts_S1x128_S128,
    StableHlo.unary main_arg10 main_v91 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v91 main_v92 rfl shapeCasts_S1x128x128_S128x128,
    StableHlo.unary main_arg11 main_v93 ((extractStridedSlice S1x128 ![2, 0] · slices_S3x128_S1x128_2_0) : (⟨S3x128, .f32⟩ : BufTy).Contents (Elt F) → (⟨S1x128, .f32⟩ : BufTy).Contents (Elt F)),
    StableHlo.reshape main_v93 main_v94 rfl shapeCasts_S1x128_S128,
    StableHlo.nullary main_c_7 (constantI S_ 32 0#32),
    StableHlo.unary main_c_7 main_v95 (broadcastInDim S800000 ![] bcast_S_S800000 : (⟨S_, .i32⟩ : BufTy).Contents (Elt F) → (⟨S800000, .i32⟩ : BufTy).Contents (Elt F)),
    StableHlo.binary main_v1 main_v95 main_v96 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v97 (broadcastInDim S800000 ![] bcast_S_S800000 : (⟨S_, .i32⟩ : BufTy).Contents (Elt F) → (⟨S800000, .i32⟩ : BufTy).Contents (Elt F)),
    StableHlo.binary main_v1 main_v97 main_v98 (addi : (⟨S800000, .i32⟩ : BufTy).Contents (Elt F) → (⟨S800000, .i32⟩ : BufTy).Contents (Elt F) → (⟨S800000, .i32⟩ : BufTy).Contents (Elt F)),
    StableHlo.ternary main_v96 main_v98 main_v1 main_v99 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v99 main_v100 (broadcastInDim S800000x1 ![0] bcast_S800000_S800000x1_0 : (⟨S800000, .i32⟩ : BufTy).Contents (Elt F) → (⟨S800000x1, .i32⟩ : BufTy).Contents (Elt F)),
    StableHlo.binary main_v86 main_v100 main_v101 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_9 (constant S_ .f32 0x00000000#32),
    StableHlo.unary main_cst_9 main_v102 (broadcastInDim S50000x128 ![] bcast_S_S50000x128 : (⟨S_, .f32⟩ : BufTy).Contents (Elt F) → (⟨S50000x128, .f32⟩ : BufTy).Contents (Elt F)),
    StableHlo.unary main_v3 main_v103 (broadcastInDim S800000x1 ![0] bcast_S800000_S800000x1_0 : (⟨S800000, .i32⟩ : BufTy).Contents (Elt F) → (⟨S800000x1, .i32⟩ : BufTy).Contents (Elt F)),
    StableHlo.ternary main_v102 main_v103 main_v101 main_v104 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v86 main_v104 main_v105 (addf : (⟨S50000x128, .f32⟩ : BufTy).Contents (Elt F) → (⟨S50000x128, .f32⟩ : BufTy).Contents (Elt F) → (⟨S50000x128, .f32⟩ : BufTy).Contents (Elt F)),
    StableHlo.binary main_v105 main_v88 main_v106 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v90 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v108 main_v109 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v109) main_call6.v0 main_call6.v1 maximumf,
    StableHlo.binary main_v110 main_v92 main_v111 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v94 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v113 main_v114 (addf : (⟨S50000x128, .f32⟩ : BufTy).Contents (Elt F) → (⟨S50000x128, .f32⟩ : BufTy).Contents (Elt F) → (⟨S50000x128, .f32⟩ : BufTy).Contents (Elt F)),
    StableHlo.binary main_v114 main_v86 main_v115 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v115) main_call7.v0 main_call7.v1 maximumf ]

/-- The mean pool (the segment sums of the features and of ones, the count floored at one, the quotient) and the two-layer head with its leaky rectifier. -/
abbrev ops4 : List (HloOp τ sig (Elt F)) :=
  [ StableHlo.nullary main_cst_10 (constant S_ .f32 0x00000000#32),
    StableHlo.unary main_cst_10 main_v117 (broadcastInDim S1024x128 ![] bcast_S_S1024x128 : (⟨S_, .f32⟩ : BufTy).Contents (Elt F) → (⟨S1024x128, .f32⟩ : BufTy).Contents (Elt F)),
    StableHlo.unary main_arg2 main_v118 (broadcastInDim S50000x1 ![0] bcast_S50000_S50000x1_0 : (⟨S50000, .i32⟩ : BufTy).Contents (Elt F) → (⟨S50000x1, .i32⟩ : BufTy).Contents (Elt F)),
    StableHlo.ternary main_v117 main_v118 main_v116 main_v119 ((fun x i u => Host.scatterAdd scatter_S1024x128_S50000x1_S50000x128_1_0_0_1 x i u) : (⟨S1024x128, .f32⟩ : BufTy).Contents (Elt F) → (⟨S50000x1, .i32⟩ : BufTy).Contents (Elt F) → (⟨S50000x128, .f32⟩ : BufTy).Contents (Elt F) → (⟨S1024x128, .f32⟩ : BufTy).Contents (Elt F)),
    StableHlo.nullary main_cst_11 (constant S_ .f32 0x3F800000#32),
    StableHlo.unary main_cst_11 main_v120 (broadcastInDim S50000 ![] bcast_S_S50000 : (⟨S_, .f32⟩ : BufTy).Contents (Elt F) → (⟨S50000, .f32⟩ : BufTy).Contents (Elt F)),
    StableHlo.nullary main_cst_12 (constant S_ .f32 0x00000000#32),
    StableHlo.unary main_cst_12 main_v121 (broadcastInDim S1024 ![] bcast_S_S1024 : (⟨S_, .f32⟩ : BufTy).Contents (Elt F) → (⟨S1024, .f32⟩ : BufTy).Contents (Elt F)),
    StableHlo.unary main_arg2 main_v122 (broadcastInDim S50000x1 ![0] bcast_S50000_S50000x1_0 : (⟨S50000, .i32⟩ : BufTy).Contents (Elt F) → (⟨S50000x1, .i32⟩ : BufTy).Contents (Elt F)),
    StableHlo.ternary main_v121 main_v122 main_v120 main_v123 ((fun x i u => Host.scatterAdd scatter_S1024_S50000x1_S50000_n_0_0_1 x i u) : (⟨S1024, .f32⟩ : BufTy).Contents (Elt F) → (⟨S50000x1, .i32⟩ : BufTy).Contents (Elt F) → (⟨S50000, .f32⟩ : BufTy).Contents (Elt F) → (⟨S1024, .f32⟩ : BufTy).Contents (Elt F)),
    StableHlo.nullary main_cst_13 (constant S_ .f32 0x3F800000#32),
    StableHlo.unary main_cst_13 main_v124 (broadcastInDim S1024 ![] bcast_S_S1024 : (⟨S_, .f32⟩ : BufTy).Contents (Elt F) → (⟨S1024, .f32⟩ : BufTy).Contents (Elt F)),
    StableHlo.binary main_v123 main_v124 main_v125 (maximumf : (⟨S1024, .f32⟩ : BufTy).Contents (Elt F) → (⟨S1024, .f32⟩ : BufTy).Contents (Elt F) → (⟨S1024, .f32⟩ : BufTy).Contents (Elt F)),
    StableHlo.unary main_v125 main_v126 (broadcastInDim S1024x1 ![0] bcast_S1024_S1024x1_0 : (⟨S1024, .f32⟩ : BufTy).Contents (Elt F) → (⟨S1024x1, .f32⟩ : BufTy).Contents (Elt F)),
    StableHlo.unary main_v126 main_v127 (broadcastInDim S1024x128 ![0, 1] bcast_S1024x1_S1024x128_0_1 : (⟨S1024x1, .f32⟩ : BufTy).Contents (Elt F) → (⟨S1024x128, .f32⟩ : BufTy).Contents (Elt F)),
    StableHlo.binary main_v119 main_v127 main_v128 (Host.divf : (⟨S1024x128, .f32⟩ : BufTy).Contents (Elt F) → (⟨S1024x128, .f32⟩ : BufTy).Contents (Elt F) → (⟨S1024x128, .f32⟩ : BufTy).Contents (Elt F)),
    StableHlo.binary main_v128 main_arg12 main_v129 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_arg13 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S1024x128 ![0, 1] bcast_S1x128_S1024x128_0_1 : (⟨S1x128, .f32⟩ : BufTy).Contents (Elt F) → (⟨S1024x128, .f32⟩ : BufTy).Contents (Elt F)),
    StableHlo.binary main_v129 main_v131 main_v132 (addf : (⟨S1024x128, .f32⟩ : BufTy).Contents (Elt F) → (⟨S1024x128, .f32⟩ : BufTy).Contents (Elt F) → (⟨S1024x128, .f32⟩ : BufTy).Contents (Elt F)),
    StableHlo.nullary main_cst_14 (constant S_ .f32 0x3C23D70A#32),
    StableHlo.TRef.nullary main_call8.cst (constant S_ .f32 0x00000000#32),
    StableHlo.TRef.unary main_call8.cst main_call8.v0 (broadcastInDim S1024x128 ![] bcast_S_S1024x128),
    StableHlo.TRef.binary (.of main_v132) main_call8.v0 main_call8.v1 (cmpf .oge),
    StableHlo.TRef.unary (.of main_cst_14) main_call8.v2 id,
    StableHlo.TRef.unary main_call8.v2 main_call8.v3 (broadcastInDim S1024x128 ![] bcast_S_S1024x128),
    StableHlo.TRef.binary main_call8.v3 (.of main_v132) main_call8.v4 mulf,
    StableHlo.TRef.ternary main_call8.v1 (.of main_v132) main_call8.v4 main_call8.call0.v0 select,
    StableHlo.binary main_v133 main_arg14 main_v134 ((fun l r => Host.dotGeneral dot_S1024x128_S128x1_S1024x1_1_0_0_1_n_n none l r) : (⟨S1024x128, .f32⟩ : BufTy).Contents (Elt F) → (⟨S128x1, .f32⟩ : BufTy).Contents (Elt F) → (⟨S1024x1, .f32⟩ : BufTy).Contents (Elt F)),
    StableHlo.unary main_arg15 main_v135 (broadcastInDim S1x1 ![1] bcast_S1_S1x1_1 : (⟨S1, .f32⟩ : BufTy).Contents (Elt F) → (⟨S1x1, .f32⟩ : BufTy).Contents (Elt F)),
    StableHlo.unary main_v135 main_v136 (broadcastInDim S1024x1 ![0, 1] bcast_S1x1_S1024x1_0_1 : (⟨S1x1, .f32⟩ : BufTy).Contents (Elt F) → (⟨S1024x1, .f32⟩ : BufTy).Contents (Elt F)),
    StableHlo.binary main_v134 main_v136 main_v137 (addf : (⟨S1024x1, .f32⟩ : BufTy).Contents (Elt F) → (⟨S1024x1, .f32⟩ : BufTy).Contents (Elt F) → (⟨S1024x1, .f32⟩ : BufTy).Contents (Elt F)) ]

/-- The whole line: the 177 operations in order. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg7 main_v4 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.nullary main_c (constantI S_ 32 0#32),
    StableHlo.unary main_c main_v5 (broadcastInDim S800000 ![] bcast_S_S800000 : (⟨S_, .i32⟩ : BufTy).Contents (Elt F) → (⟨S800000, .i32⟩ : BufTy).Contents (Elt F)),
    StableHlo.binary main_v1 main_v5 main_v6 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v7 (broadcastInDim S800000 ![] bcast_S_S800000 : (⟨S_, .i32⟩ : BufTy).Contents (Elt F) → (⟨S800000, .i32⟩ : BufTy).Contents (Elt F)),
    StableHlo.binary main_v1 main_v7 main_v8 (addi : (⟨S800000, .i32⟩ : BufTy).Contents (Elt F) → (⟨S800000, .i32⟩ : BufTy).Contents (Elt F) → (⟨S800000, .i32⟩ : BufTy).Contents (Elt F)),
    StableHlo.ternary main_v6 main_v8 main_v1 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v9 main_v10 (broadcastInDim S800000x1 ![0] bcast_S800000_S800000x1_0 : (⟨S800000, .i32⟩ : BufTy).Contents (Elt F) → (⟨S800000x1, .i32⟩ : BufTy).Contents (Elt F)),
    StableHlo.binary main_arg0 main_v10 main_v11 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v12 (broadcastInDim S50000x64 ![] bcast_S_S50000x64 : (⟨S_, .f32⟩ : BufTy).Contents (Elt F) → (⟨S50000x64, .f32⟩ : BufTy).Contents (Elt F)),
    StableHlo.unary main_v3 main_v13 (broadcastInDim S800000x1 ![0] bcast_S800000_S800000x1_0 : (⟨S800000, .i32⟩ : BufTy).Contents (Elt F) → (⟨S800000x1, .i32⟩ : BufTy).Contents (Elt F)),
    StableHlo.ternary main_v12 main_v13 main_v11 main_v14 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_arg0 main_v14 main_v15 (addf : (⟨S50000x64, .f32⟩ : BufTy).Contents (Elt F) → (⟨S50000x64, .f32⟩ : BufTy).Contents (Elt F) → (⟨S50000x64, .f32⟩ : BufTy).Contents (Elt F)),
    StableHlo.binary main_v15 main_arg3 main_v16 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg4 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v18 main_v19 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v19) main_call0.v0 main_call0.v1 maximumf,
    StableHlo.binary main_v20 main_arg5 main_v21 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v23 main_v24 (addf : (⟨S50000x128, .f32⟩ : BufTy).Contents (Elt F) → (⟨S50000x128, .f32⟩ : BufTy).Contents (Elt F) → (⟨S50000x128, .f32⟩ : BufTy).Contents (Elt F)),
    StableHlo.binary main_v24 main_v4 main_v25 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v25) main_call1.v0 main_call1.v1 maximumf,
    StableHlo.unary main_arg8 main_v27 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v27 main_v28 rfl shapeCasts_S1x128x128_S128x128,
    StableHlo.unary main_arg9 main_v29 ((extractStridedSlice S1x128 ![0, 0] · slices_S3x128_S1x128_0_0) : (⟨S3x128, .f32⟩ : BufTy).Contents (Elt F) → (⟨S1x128, .f32⟩ : BufTy).Contents (Elt F)),
    StableHlo.reshape main_v29 main_v30 rfl shapeCasts_S1x128_S128,
    StableHlo.unary main_arg10 main_v31 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v31 main_v32 rfl shapeCasts_S1x128x128_S128x128,
    StableHlo.unary main_arg11 main_v33 ((extractStridedSlice S1x128 ![0, 0] · slices_S3x128_S1x128_0_0) : (⟨S3x128, .f32⟩ : BufTy).Contents (Elt F) → (⟨S1x128, .f32⟩ : BufTy).Contents (Elt F)),
    StableHlo.reshape main_v33 main_v34 rfl shapeCasts_S1x128_S128,
    StableHlo.nullary main_c_1 (constantI S_ 32 0#32),
    StableHlo.unary main_c_1 main_v35 (broadcastInDim S800000 ![] bcast_S_S800000 : (⟨S_, .i32⟩ : BufTy).Contents (Elt F) → (⟨S800000, .i32⟩ : BufTy).Contents (Elt F)),
    StableHlo.binary main_v1 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v37 (broadcastInDim S800000 ![] bcast_S_S800000 : (⟨S_, .i32⟩ : BufTy).Contents (Elt F) → (⟨S800000, .i32⟩ : BufTy).Contents (Elt F)),
    StableHlo.binary main_v1 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_v1 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_v26 main_v40 main_v41 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_3 (constant S_ .f32 0x00000000#32),
    StableHlo.unary main_cst_3 main_v42 (broadcastInDim S50000x128 ![] bcast_S_S50000x128 : (⟨S_, .f32⟩ : BufTy).Contents (Elt F) → (⟨S50000x128, .f32⟩ : BufTy).Contents (Elt F)),
    StableHlo.unary main_v3 main_v43 (broadcastInDim S800000x1 ![0] bcast_S800000_S800000x1_0 : (⟨S800000, .i32⟩ : BufTy).Contents (Elt F) → (⟨S800000x1, .i32⟩ : BufTy).Contents (Elt F)),
    StableHlo.ternary main_v42 main_v43 main_v41 main_v44 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v26 main_v44 main_v45 (addf : (⟨S50000x128, .f32⟩ : BufTy).Contents (Elt F) → (⟨S50000x128, .f32⟩ : BufTy).Contents (Elt F) → (⟨S50000x128, .f32⟩ : BufTy).Contents (Elt F)),
    StableHlo.binary main_v45 main_v28 main_v46 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v30 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v49) main_call2.v0 main_call2.v1 maximumf,
    StableHlo.binary main_v50 main_v32 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v34 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (addf : (⟨S50000x128, .f32⟩ : BufTy).Contents (Elt F) → (⟨S50000x128, .f32⟩ : BufTy).Contents (Elt F) → (⟨S50000x128, .f32⟩ : BufTy).Contents (Elt F)),
    StableHlo.binary main_v54 main_v26 main_v55 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v55) main_call3.v0 main_call3.v1 maximumf,
    StableHlo.unary main_arg8 main_v57 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v57 main_v58 rfl shapeCasts_S1x128x128_S128x128,
    StableHlo.unary main_arg9 main_v59 ((extractStridedSlice S1x128 ![1, 0] · slices_S3x128_S1x128_1_0) : (⟨S3x128, .f32⟩ : BufTy).Contents (Elt F) → (⟨S1x128, .f32⟩ : BufTy).Contents (Elt F)),
    StableHlo.reshape main_v59 main_v60 rfl shapeCasts_S1x128_S128,
    StableHlo.unary main_arg10 main_v61 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v61 main_v62 rfl shapeCasts_S1x128x128_S128x128,
    StableHlo.unary main_arg11 main_v63 ((extractStridedSlice S1x128 ![1, 0] · slices_S3x128_S1x128_1_0) : (⟨S3x128, .f32⟩ : BufTy).Contents (Elt F) → (⟨S1x128, .f32⟩ : BufTy).Contents (Elt F)),
    StableHlo.reshape main_v63 main_v64 rfl shapeCasts_S1x128_S128,
    StableHlo.nullary main_c_4 (constantI S_ 32 0#32),
    StableHlo.unary main_c_4 main_v65 (broadcastInDim S800000 ![] bcast_S_S800000 : (⟨S_, .i32⟩ : BufTy).Contents (Elt F) → (⟨S800000, .i32⟩ : BufTy).Contents (Elt F)),
    StableHlo.binary main_v1 main_v65 main_v66 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v67 (broadcastInDim S800000 ![] bcast_S_S800000 : (⟨S_, .i32⟩ : BufTy).Contents (Elt F) → (⟨S800000, .i32⟩ : BufTy).Contents (Elt F)),
    StableHlo.binary main_v1 main_v67 main_v68 (addi : (⟨S800000, .i32⟩ : BufTy).Contents (Elt F) → (⟨S800000, .i32⟩ : BufTy).Contents (Elt F) → (⟨S800000, .i32⟩ : BufTy).Contents (Elt F)),
    StableHlo.ternary main_v66 main_v68 main_v1 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v69 main_v70 (broadcastInDim S800000x1 ![0] bcast_S800000_S800000x1_0 : (⟨S800000, .i32⟩ : BufTy).Contents (Elt F) → (⟨S800000x1, .i32⟩ : BufTy).Contents (Elt F)),
    StableHlo.binary main_v56 main_v70 main_v71 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_6 (constant S_ .f32 0x00000000#32),
    StableHlo.unary main_cst_6 main_v72 (broadcastInDim S50000x128 ![] bcast_S_S50000x128 : (⟨S_, .f32⟩ : BufTy).Contents (Elt F) → (⟨S50000x128, .f32⟩ : BufTy).Contents (Elt F)),
    StableHlo.unary main_v3 main_v73 (broadcastInDim S800000x1 ![0] bcast_S800000_S800000x1_0 : (⟨S800000, .i32⟩ : BufTy).Contents (Elt F) → (⟨S800000x1, .i32⟩ : BufTy).Contents (Elt F)),
    StableHlo.ternary main_v72 main_v73 main_v71 main_v74 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v56 main_v74 main_v75 (addf : (⟨S50000x128, .f32⟩ : BufTy).Contents (Elt F) → (⟨S50000x128, .f32⟩ : BufTy).Contents (Elt F) → (⟨S50000x128, .f32⟩ : BufTy).Contents (Elt F)),
    StableHlo.binary main_v75 main_v58 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v60 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v79) main_call4.v0 main_call4.v1 maximumf,
    StableHlo.binary main_v80 main_v62 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v64 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v83 main_v84 (addf : (⟨S50000x128, .f32⟩ : BufTy).Contents (Elt F) → (⟨S50000x128, .f32⟩ : BufTy).Contents (Elt F) → (⟨S50000x128, .f32⟩ : BufTy).Contents (Elt F)),
    StableHlo.binary main_v84 main_v56 main_v85 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v85) main_call5.v0 main_call5.v1 maximumf,
    StableHlo.unary main_arg8 main_v87 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v87 main_v88 rfl shapeCasts_S1x128x128_S128x128,
    StableHlo.unary main_arg9 main_v89 ((extractStridedSlice S1x128 ![2, 0] · slices_S3x128_S1x128_2_0) : (⟨S3x128, .f32⟩ : BufTy).Contents (Elt F) → (⟨S1x128, .f32⟩ : BufTy).Contents (Elt F)),
    StableHlo.reshape main_v89 main_v90 rfl shapeCasts_S1x128_S128,
    StableHlo.unary main_arg10 main_v91 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v91 main_v92 rfl shapeCasts_S1x128x128_S128x128,
    StableHlo.unary main_arg11 main_v93 ((extractStridedSlice S1x128 ![2, 0] · slices_S3x128_S1x128_2_0) : (⟨S3x128, .f32⟩ : BufTy).Contents (Elt F) → (⟨S1x128, .f32⟩ : BufTy).Contents (Elt F)),
    StableHlo.reshape main_v93 main_v94 rfl shapeCasts_S1x128_S128,
    StableHlo.nullary main_c_7 (constantI S_ 32 0#32),
    StableHlo.unary main_c_7 main_v95 (broadcastInDim S800000 ![] bcast_S_S800000 : (⟨S_, .i32⟩ : BufTy).Contents (Elt F) → (⟨S800000, .i32⟩ : BufTy).Contents (Elt F)),
    StableHlo.binary main_v1 main_v95 main_v96 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v97 (broadcastInDim S800000 ![] bcast_S_S800000 : (⟨S_, .i32⟩ : BufTy).Contents (Elt F) → (⟨S800000, .i32⟩ : BufTy).Contents (Elt F)),
    StableHlo.binary main_v1 main_v97 main_v98 (addi : (⟨S800000, .i32⟩ : BufTy).Contents (Elt F) → (⟨S800000, .i32⟩ : BufTy).Contents (Elt F) → (⟨S800000, .i32⟩ : BufTy).Contents (Elt F)),
    StableHlo.ternary main_v96 main_v98 main_v1 main_v99 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v99 main_v100 (broadcastInDim S800000x1 ![0] bcast_S800000_S800000x1_0 : (⟨S800000, .i32⟩ : BufTy).Contents (Elt F) → (⟨S800000x1, .i32⟩ : BufTy).Contents (Elt F)),
    StableHlo.binary main_v86 main_v100 main_v101 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_9 (constant S_ .f32 0x00000000#32),
    StableHlo.unary main_cst_9 main_v102 (broadcastInDim S50000x128 ![] bcast_S_S50000x128 : (⟨S_, .f32⟩ : BufTy).Contents (Elt F) → (⟨S50000x128, .f32⟩ : BufTy).Contents (Elt F)),
    StableHlo.unary main_v3 main_v103 (broadcastInDim S800000x1 ![0] bcast_S800000_S800000x1_0 : (⟨S800000, .i32⟩ : BufTy).Contents (Elt F) → (⟨S800000x1, .i32⟩ : BufTy).Contents (Elt F)),
    StableHlo.ternary main_v102 main_v103 main_v101 main_v104 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v86 main_v104 main_v105 (addf : (⟨S50000x128, .f32⟩ : BufTy).Contents (Elt F) → (⟨S50000x128, .f32⟩ : BufTy).Contents (Elt F) → (⟨S50000x128, .f32⟩ : BufTy).Contents (Elt F)),
    StableHlo.binary main_v105 main_v88 main_v106 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v90 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v108 main_v109 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v109) main_call6.v0 main_call6.v1 maximumf,
    StableHlo.binary main_v110 main_v92 main_v111 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v94 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v113 main_v114 (addf : (⟨S50000x128, .f32⟩ : BufTy).Contents (Elt F) → (⟨S50000x128, .f32⟩ : BufTy).Contents (Elt F) → (⟨S50000x128, .f32⟩ : BufTy).Contents (Elt F)),
    StableHlo.binary main_v114 main_v86 main_v115 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v115) main_call7.v0 main_call7.v1 maximumf,
    StableHlo.nullary main_cst_10 (constant S_ .f32 0x00000000#32),
    StableHlo.unary main_cst_10 main_v117 (broadcastInDim S1024x128 ![] bcast_S_S1024x128 : (⟨S_, .f32⟩ : BufTy).Contents (Elt F) → (⟨S1024x128, .f32⟩ : BufTy).Contents (Elt F)),
    StableHlo.unary main_arg2 main_v118 (broadcastInDim S50000x1 ![0] bcast_S50000_S50000x1_0 : (⟨S50000, .i32⟩ : BufTy).Contents (Elt F) → (⟨S50000x1, .i32⟩ : BufTy).Contents (Elt F)),
    StableHlo.ternary main_v117 main_v118 main_v116 main_v119 ((fun x i u => Host.scatterAdd scatter_S1024x128_S50000x1_S50000x128_1_0_0_1 x i u) : (⟨S1024x128, .f32⟩ : BufTy).Contents (Elt F) → (⟨S50000x1, .i32⟩ : BufTy).Contents (Elt F) → (⟨S50000x128, .f32⟩ : BufTy).Contents (Elt F) → (⟨S1024x128, .f32⟩ : BufTy).Contents (Elt F)),
    StableHlo.nullary main_cst_11 (constant S_ .f32 0x3F800000#32),
    StableHlo.unary main_cst_11 main_v120 (broadcastInDim S50000 ![] bcast_S_S50000 : (⟨S_, .f32⟩ : BufTy).Contents (Elt F) → (⟨S50000, .f32⟩ : BufTy).Contents (Elt F)),
    StableHlo.nullary main_cst_12 (constant S_ .f32 0x00000000#32),
    StableHlo.unary main_cst_12 main_v121 (broadcastInDim S1024 ![] bcast_S_S1024 : (⟨S_, .f32⟩ : BufTy).Contents (Elt F) → (⟨S1024, .f32⟩ : BufTy).Contents (Elt F)),
    StableHlo.unary main_arg2 main_v122 (broadcastInDim S50000x1 ![0] bcast_S50000_S50000x1_0 : (⟨S50000, .i32⟩ : BufTy).Contents (Elt F) → (⟨S50000x1, .i32⟩ : BufTy).Contents (Elt F)),
    StableHlo.ternary main_v121 main_v122 main_v120 main_v123 ((fun x i u => Host.scatterAdd scatter_S1024_S50000x1_S50000_n_0_0_1 x i u) : (⟨S1024, .f32⟩ : BufTy).Contents (Elt F) → (⟨S50000x1, .i32⟩ : BufTy).Contents (Elt F) → (⟨S50000, .f32⟩ : BufTy).Contents (Elt F) → (⟨S1024, .f32⟩ : BufTy).Contents (Elt F)),
    StableHlo.nullary main_cst_13 (constant S_ .f32 0x3F800000#32),
    StableHlo.unary main_cst_13 main_v124 (broadcastInDim S1024 ![] bcast_S_S1024 : (⟨S_, .f32⟩ : BufTy).Contents (Elt F) → (⟨S1024, .f32⟩ : BufTy).Contents (Elt F)),
    StableHlo.binary main_v123 main_v124 main_v125 (maximumf : (⟨S1024, .f32⟩ : BufTy).Contents (Elt F) → (⟨S1024, .f32⟩ : BufTy).Contents (Elt F) → (⟨S1024, .f32⟩ : BufTy).Contents (Elt F)),
    StableHlo.unary main_v125 main_v126 (broadcastInDim S1024x1 ![0] bcast_S1024_S1024x1_0 : (⟨S1024, .f32⟩ : BufTy).Contents (Elt F) → (⟨S1024x1, .f32⟩ : BufTy).Contents (Elt F)),
    StableHlo.unary main_v126 main_v127 (broadcastInDim S1024x128 ![0, 1] bcast_S1024x1_S1024x128_0_1 : (⟨S1024x1, .f32⟩ : BufTy).Contents (Elt F) → (⟨S1024x128, .f32⟩ : BufTy).Contents (Elt F)),
    StableHlo.binary main_v119 main_v127 main_v128 (Host.divf : (⟨S1024x128, .f32⟩ : BufTy).Contents (Elt F) → (⟨S1024x128, .f32⟩ : BufTy).Contents (Elt F) → (⟨S1024x128, .f32⟩ : BufTy).Contents (Elt F)),
    StableHlo.binary main_v128 main_arg12 main_v129 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_arg13 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S1024x128 ![0, 1] bcast_S1x128_S1024x128_0_1 : (⟨S1x128, .f32⟩ : BufTy).Contents (Elt F) → (⟨S1024x128, .f32⟩ : BufTy).Contents (Elt F)),
    StableHlo.binary main_v129 main_v131 main_v132 (addf : (⟨S1024x128, .f32⟩ : BufTy).Contents (Elt F) → (⟨S1024x128, .f32⟩ : BufTy).Contents (Elt F) → (⟨S1024x128, .f32⟩ : BufTy).Contents (Elt F)),
    StableHlo.nullary main_cst_14 (constant S_ .f32 0x3C23D70A#32),
    StableHlo.TRef.nullary main_call8.cst (constant S_ .f32 0x00000000#32),
    StableHlo.TRef.unary main_call8.cst main_call8.v0 (broadcastInDim S1024x128 ![] bcast_S_S1024x128),
    StableHlo.TRef.binary (.of main_v132) main_call8.v0 main_call8.v1 (cmpf .oge),
    StableHlo.TRef.unary (.of main_cst_14) main_call8.v2 id,
    StableHlo.TRef.unary main_call8.v2 main_call8.v3 (broadcastInDim S1024x128 ![] bcast_S_S1024x128),
    StableHlo.TRef.binary main_call8.v3 (.of main_v132) main_call8.v4 mulf,
    StableHlo.TRef.ternary main_call8.v1 (.of main_v132) main_call8.v4 main_call8.call0.v0 select,
    StableHlo.binary main_v133 main_arg14 main_v134 ((fun l r => Host.dotGeneral dot_S1024x128_S128x1_S1024x1_1_0_0_1_n_n none l r) : (⟨S1024x128, .f32⟩ : BufTy).Contents (Elt F) → (⟨S128x1, .f32⟩ : BufTy).Contents (Elt F) → (⟨S1024x1, .f32⟩ : BufTy).Contents (Elt F)),
    StableHlo.unary main_arg15 main_v135 (broadcastInDim S1x1 ![1] bcast_S1_S1x1_1 : (⟨S1, .f32⟩ : BufTy).Contents (Elt F) → (⟨S1x1, .f32⟩ : BufTy).Contents (Elt F)),
    StableHlo.unary main_v135 main_v136 (broadcastInDim S1024x1 ![0, 1] bcast_S1x1_S1024x1_0_1 : (⟨S1x1, .f32⟩ : BufTy).Contents (Elt F) → (⟨S1024x1, .f32⟩ : BufTy).Contents (Elt F)),
    StableHlo.binary main_v134 main_v136 main_v137 (addf : (⟨S1024x1, .f32⟩ : BufTy).Contents (Elt F) → (⟨S1024x1, .f32⟩ : BufTy).Contents (Elt F) → (⟨S1024x1, .f32⟩ : BufTy).Contents (Elt F)) ]

/-- The whole line is the five stretches one after the other. -/
theorem ops_split : (ops : List (HloOp τ sig (Elt F))) = ops0 ++ (ops1 ++ (ops2 ++ (ops3 ++ ops4))) := rfl

set_option maxRecDepth 8192 in
set_option maxHeartbeats 4000000 in
/-- The main function is that line: its three windows in order, each callee's body in place of its call and each call's
    record at its fields, the sequencing reassociated to one chain. -/
theorem main_eq (c : Dev nD) : main (F := F) c = seq ops := by
  simp only [main, main_part0, main_part1, main_part2, fn_relu.body, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    binary_bufs_sub .., nullary_bufs_sub .., unary_bufs_sub .., binary_bufs_sub .., unary_bufs_sub .., reshape_bufs_sub ..,
    unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., binary_bufs_sub .., nullary_bufs_sub .., unary_bufs_sub .., binary_bufs_sub .., unary_bufs_sub ..,
    reshape_bufs_sub .., unary_bufs_sub .., reshape_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., binary_bufs_sub .., nullary_bufs_sub .., unary_bufs_sub .., binary_bufs_sub ..,
    unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    unary_bufs_sub .., unary_bufs_sub .., binary_bufs_sub ..⟩

/-- From any memory with zero counters every weakly fair execution of the main function on the TensorCores terminates,
    and every final state has each TensorCore buffer at the fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.Gin.Ref

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.RefValue.lean ====
/-
  The value of the reference program's run.

  The line of 177 host operations is read in its five stretches. For any contents of the buffers before a stretch, the
  contents after it are, at the stretch's result buffer, the corresponding function of the network (the first layer's
  features; a later layer's step from the previous features; the head of the pool) applied to the contents of the buffers the
  stretch reads, and, at every buffer the stretch does not write, what was there before. The first stretch also leaves the
  two rows of the edge list in their own buffers, which the three later layers read in place of the edge list itself.
  Chaining the five: after the whole line the result buffer holds the network of the sixteen arguments' launch contents, and
  every argument buffer holds its launch contents. The run theorem is then the straight line's run read at those buffers.
-/
import proofs.«132390_j82068235092697_1_alg».proof.Proof.RefOps
import proofs.«132390_j82068235092697_1_alg».proof.Proof.Spec
import proofs.«132390_j82068235092697_1_alg».proof.Proof.LibAfterAppend

noncomputable section

namespace Cert.Gin.Ref

open Idealize.ShloMosaic Idealize.ShloMosaic.StableHlo Idealize.SL.Sem
open Cert.ReferenceIdeal Cert.ReferenceIdeal.Facts₀
open Cert.Lib.AfterAppend

variable [Cert.ReferenceIdeal.Facts]

/-- The buffers' contents at the ideal instance. -/
abbrev Vl : Type := Valuation τ sig (Elt Ideal)

/-! ## What each stretch writes, and that it leaves the rest -/

/-- The buffers stretch 0 writes. -/
abbrev W0 : List (Ref sig .tc) := [main_v0, main_v1, main_v2, main_v3, main_v4, main_c, main_v5, main_v6, main_c_0, main_v7, main_v8, main_v9, main_v10, main_v11, main_cst, main_v12, main_v13, main_v14, main_v15, main_v16, main_v17, main_v18, main_v19, main_call0_cst, main_call0_v0, main_v20, main_v21, main_v22, main_v23, main_v24, main_v25, main_call1_cst, main_call1_v0, main_v26]

theorem ops0_writes : (ops0 (F := Ideal)).Forall fun op => op.writes ⊆ (W0.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch 0 does not write keeps its contents through it. -/
theorem keep0 (V : Vl) (r : Ref sig .tc) (h : r ∉ W0) : after ops0 V (Proc.devRef .tc r) = V (Proc.devRef .tc r) :=
  after_of_writes_sub ops0 V ops0_writes h

/-- The buffers stretch 1 writes. -/
abbrev W1 : List (Ref sig .tc) := [main_v27, main_v28, main_v29, main_v30, main_v31, main_v32, main_v33, main_v34, main_c_1, main_v35, main_v36, main_c_2, main_v37, main_v38, main_v39, main_v40, main_v41, main_cst_3, main_v42, main_v43, main_v44, main_v45, main_v46, main_v47, main_v48, main_v49, main_call2_cst, main_call2_v0, main_v50, main_v51, main_v52, main_v53, main_v54, main_v55, main_call3_cst, main_call3_v0, main_v56]

theorem ops1_writes : (ops1 (F := Ideal)).Forall fun op => op.writes ⊆ (W1.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch 1 does not write keeps its contents through it. -/
theorem keep1 (V : Vl) (r : Ref sig .tc) (h : r ∉ W1) : after ops1 V (Proc.devRef .tc r) = V (Proc.devRef .tc r) :=
  after_of_writes_sub ops1 V ops1_writes h

/-- The buffers stretch 2 writes. -/
abbrev W2 : List (Ref sig .tc) := [main_v57, main_v58, main_v59, main_v60, main_v61, main_v62, main_v63, main_v64, main_c_4, main_v65, main_v66, main_c_5, main_v67, main_v68, main_v69, main_v70, main_v71, main_cst_6, main_v72, main_v73, main_v74, main_v75, main_v76, main_v77, main_v78, main_v79, main_call4_cst, main_call4_v0, main_v80, main_v81, main_v82, main_v83, main_v84, main_v85, main_call5_cst, main_call5_v0, main_v86]

theorem ops2_writes : (ops2 (F := Ideal)).Forall fun op => op.writes ⊆ (W2.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch 2 does not write keeps its contents through it. -/
theorem keep2 (V : Vl) (r : Ref sig .tc) (h : r ∉ W2) : after ops2 V (Proc.devRef .tc r) = V (Proc.devRef .tc r) :=
  after_of_writes_sub ops2 V ops2_writes h

/-- The buffers stretch 3 writes. -/
abbrev W3 : List (Ref sig .tc) := [main_v87, main_v88, main_v89, main_v90, main_v91, main_v92, main_v93, main_v94, main_c_7, main_v95, main_v96, main_c_8, main_v97, main_v98, main_v99, main_v100, main_v101, main_cst_9, main_v102, main_v103, main_v104, main_v105, main_v106, main_v107, main_v108, main_v109, main_call6_cst, main_call6_v0, main_v110, main_v111, main_v112, main_v113, main_v114, main_v115, main_call7_cst, main_call7_v0, main_v116]

theorem ops3_writes : (ops3 (F := Ideal)).Forall fun op => op.writes ⊆ (W3.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch 3 does not write keeps its contents through it. -/
theorem keep3 (V : Vl) (r : Ref sig .tc) (h : r ∉ W3) : after ops3 V (Proc.devRef .tc r) = V (Proc.devRef .tc r) :=
  after_of_writes_sub ops3 V ops3_writes h

/-- The buffers stretch 4 writes. -/
abbrev W4 : List (Ref sig .tc) := [main_cst_10, main_v117, main_v118, main_v119, main_cst_11, main_v120, main_cst_12, main_v121, main_v122, main_v123, main_cst_13, main_v124, main_v125, main_v126, main_v127, main_v128, main_v129, main_v130, main_v131, main_v132, main_cst_14, main_call8_cst, main_call8_v0, main_call8_v1, main_call8_v2, main_call8_v3, main_call8_v4, main_v133, main_v134, main_v135, main_v136, main_v137]

theorem ops4_writes : (ops4 (F := Ideal)).Forall fun op => op.writes ⊆ (W4.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer stretch 4 does not write keeps its contents through it. -/
theorem keep4 (V : Vl) (r : Ref sig .tc) (h : r ∉ W4) : after ops4 V (Proc.devRef .tc r) = V (Proc.devRef .tc r) :=
  after_of_writes_sub ops4 V ops4_writes h

/-! ## The stretches' results

The gather and the scatter-add stay folded: the equations below never look inside them. -/

attribute [local irreducible] Host.gather Host.scatterAdd

set_option maxRecDepth 8192 in
set_option maxHeartbeats 4000000 in
/-- After the first stretch its result buffer holds the first layer's features of the arguments it reads. -/
theorem s0_res (V : Vl) :
    after ops0 V (Proc.devRef .tc main_v26)
      = h1 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  after_results_simp
  rfl

set_option maxRecDepth 8192 in
/-- … and the edges' source row, -/
theorem s0_src (V : Vl) : after ops0 V (Proc.devRef .tc main_v1) = srcRaw (V (Proc.devRef .tc main_arg1)) := by
  after_results_simp
  rfl

set_option maxRecDepth 8192 in
/-- … and the edges' target row, each in its own buffer. -/
theorem s0_dst (V : Vl) : after ops0 V (Proc.devRef .tc main_v3) = dstRaw (V (Proc.devRef .tc main_arg1)) := by
  after_results_simp
  rfl

set_option maxRecDepth 8192 in
set_option maxHeartbeats 4000000 in
/-- After stretch 1, from contents whose two row buffers hold the rows of an edge list `ei`: its result buffer holds the
    step from the previous features over `ei` with slice 0 of each stack. -/
theorem s1_res (V : Vl) (ei : TI S2x800000) (hs : V (Proc.devRef .tc main_v1) = srcRaw ei) (hd : V (Proc.devRef .tc main_v3) = dstRaw ei) :
    after ops1 V (Proc.devRef .tc main_v56)
      = step (V (Proc.devRef .tc main_v26)) ei (wsl0 (V (Proc.devRef .tc main_arg8))) (bsl0 (V (Proc.devRef .tc main_arg9))) (wsl0 (V (Proc.devRef .tc main_arg10))) (bsl0 (V (Proc.devRef .tc main_arg11))) := by
  after_results_simp
  rw [hs, hd]
  rfl

set_option maxRecDepth 8192 in
set_option maxHeartbeats 4000000 in
/-- After stretch 2, from contents whose two row buffers hold the rows of an edge list `ei`: its result buffer holds the
    step from the previous features over `ei` with slice 1 of each stack. -/
theorem s2_res (V : Vl) (ei : TI S2x800000) (hs : V (Proc.devRef .tc main_v1) = srcRaw ei) (hd : V (Proc.devRef .tc main_v3) = dstRaw ei) :
    after ops2 V (Proc.devRef .tc main_v86)
      = step (V (Proc.devRef .tc main_v56)) ei (wsl1 (V (Proc.devRef .tc main_arg8))) (bsl1 (V (Proc.devRef .tc main_arg9))) (wsl1 (V (Proc.devRef .tc main_arg10))) (bsl1 (V (Proc.devRef .tc main_arg11))) := by
  after_results_simp
  rw [hs, hd]
  rfl

set_option maxRecDepth 8192 in
set_option maxHeartbeats 4000000 in
/-- After stretch 3, from contents whose two row buffers hold the rows of an edge list `ei`: its result buffer holds the
    step from the previous features over `ei` with slice 2 of each stack. -/
theorem s3_res (V : Vl) (ei : TI S2x800000) (hs : V (Proc.devRef .tc main_v1) = srcRaw ei) (hd : V (Proc.devRef .tc main_v3) = dstRaw ei) :
    after ops3 V (Proc.devRef .tc main_v116)
      = step (V (Proc.devRef .tc main_v86)) ei (wsl2 (V (Proc.devRef .tc main_arg8))) (bsl2 (V (Proc.devRef .tc main_arg9))) (wsl2 (V (Proc.devRef .tc main_arg10))) (bsl2 (V (Proc.devRef .tc main_arg11))) := by
  after_results_simp
  rw [hs, hd]
  rfl

set_option maxRecDepth 8192 in
set_option maxHeartbeats 4000000 in
/-- After the last stretch its result buffer holds the head of the pool of the last features. -/
theorem s4_res (V : Vl) :
    after ops4 V (Proc.devRef .tc main_v137)
      = head (pool (V (Proc.devRef .tc main_v116)) (V (Proc.devRef .tc main_arg2))) (V (Proc.devRef .tc main_arg12)) (V (Proc.devRef .tc main_arg13)) (V (Proc.devRef .tc main_arg14)) (V (Proc.devRef .tc main_arg15)) := by
  after_results_simp
  rfl

/-! ## The five stretches chained -/

/-- The contents after the first stretch, -/
def V1 (V : Vl) : Vl := after ops0 V
/-- after the second, -/
def V2 (V : Vl) : Vl := after ops1 (V1 V)
/-- the third, -/
def V3 (V : Vl) : Vl := after ops2 (V2 V)
/-- the fourth, -/
def V4 (V : Vl) : Vl := after ops3 (V3 V)
/-- and the last: the contents after the whole line. -/
def V5 (V : Vl) : Vl := after ops4 (V4 V)

theorem after_ops (V : Vl) : after ops V = V5 V := by
  rw [ops_split, after_append, after_append, after_append, after_append]
  rfl

/-- A buffer no stretch so far writes holds what it held at the start. -/
theorem V1_keep (V : Vl) (r : Ref sig .tc) (h0 : r ∉ W0) : V1 V (Proc.devRef .tc r) = V (Proc.devRef .tc r) := keep0 V r h0
theorem V2_keep (V : Vl) (r : Ref sig .tc) (h0 : r ∉ W0) (h1 : r ∉ W1) : V2 V (Proc.devRef .tc r) = V (Proc.devRef .tc r) :=
  (keep1 (V1 V) r h1).trans (V1_keep V r h0)
theorem V3_keep (V : Vl) (r : Ref sig .tc) (h0 : r ∉ W0) (h1 : r ∉ W1) (h2 : r ∉ W2) : V3 V (Proc.devRef .tc r) = V (Proc.devRef .tc r) :=
  (keep2 (V2 V) r h2).trans (V2_keep V r h0 h1)
theorem V4_keep (V : Vl) (r : Ref sig .tc) (h0 : r ∉ W0) (h1 : r ∉ W1) (h2 : r ∉ W2) (h3 : r ∉ W3) : V4 V (Proc.devRef .tc r) = V (Proc.devRef .tc r) :=
  (keep3 (V3 V) r h3).trans (V3_keep V r h0 h1 h2)
theorem V5_keep (V : Vl) (r : Ref sig .tc) (h0 : r ∉ W0) (h1 : r ∉ W1) (h2 : r ∉ W2) (h3 : r ∉ W3) (h4 : r ∉ W4) : V5 V (Proc.devRef .tc r) = V (Proc.devRef .tc r) :=
  (keep4 (V4 V) r h4).trans (V4_keep V r h0 h1 h2 h3)

/-- The two row buffers hold the rows of the edge list through the three later layers. -/
theorem V1_src (V : Vl) : V1 V (Proc.devRef .tc main_v1) = srcRaw (V (Proc.devRef .tc main_arg1)) := s0_src V
theorem V1_dst (V : Vl) : V1 V (Proc.devRef .tc main_v3) = dstRaw (V (Proc.devRef .tc main_arg1)) := s0_dst V
theorem V2_src (V : Vl) : V2 V (Proc.devRef .tc main_v1) = srcRaw (V (Proc.devRef .tc main_arg1)) := (keep1 (V1 V) main_v1 (by decide)).trans (V1_src V)
theorem V2_dst (V : Vl) : V2 V (Proc.devRef .tc main_v3) = dstRaw (V (Proc.devRef .tc main_arg1)) := (keep1 (V1 V) main_v3 (by decide)).trans (V1_dst V)
theorem V3_src (V : Vl) : V3 V (Proc.devRef .tc main_v1) = srcRaw (V (Proc.devRef .tc main_arg1)) := (keep2 (V2 V) main_v1 (by decide)).trans (V2_src V)
theorem V3_dst (V : Vl) : V3 V (Proc.devRef .tc main_v3) = dstRaw (V (Proc.devRef .tc main_arg1)) := (keep2 (V2 V) main_v3 (by decide)).trans (V2_dst V)

/-- The features after each layer, as functions of the arguments' contents at the start. -/
theorem V1_res (V : Vl) : V1 V (Proc.devRef .tc main_v26) = h1 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := s0_res V

theorem V2_res (V : Vl) : V2 V (Proc.devRef .tc main_v56) = step (h1 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7))) (V (Proc.devRef .tc main_arg1)) (wsl0 (V (Proc.devRef .tc main_arg8))) (bsl0 (V (Proc.devRef .tc main_arg9))) (wsl0 (V (Proc.devRef .tc main_arg10))) (bsl0 (V (Proc.devRef .tc main_arg11))) := by
  have h := s1_res (V1 V) (V (Proc.devRef .tc main_arg1)) (V1_src V) (V1_dst V)
  rw [V1_res, V1_keep V main_arg8 (by decide), V1_keep V main_arg9 (by decide), V1_keep V main_arg10 (by decide), V1_keep V main_arg11 (by decide)] at h
  exact h

theorem V3_res (V : Vl) : V3 V (Proc.devRef .tc main_v86) = step (step (h1 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7))) (V (Proc.devRef .tc main_arg1)) (wsl0 (V (Proc.devRef .tc main_arg8))) (bsl0 (V (Proc.devRef .tc main_arg9))) (wsl0 (V (Proc.devRef .tc main_arg10))) (bsl0 (V (Proc.devRef .tc main_arg11)))) (V (Proc.devRef .tc main_arg1)) (wsl1 (V (Proc.devRef .tc main_arg8))) (bsl1 (V (Proc.devRef .tc main_arg9))) (wsl1 (V (Proc.devRef .tc main_arg10))) (bsl1 (V (Proc.devRef .tc main_arg11))) := by
  have h := s2_res (V2 V) (V (Proc.devRef .tc main_arg1)) (V2_src V) (V2_dst V)
  rw [V2_res, V2_keep V main_arg8 (by decide) (by decide), V2_keep V main_arg9 (by decide) (by decide), V2_keep V main_arg10 (by decide) (by decide), V2_keep V main_arg11 (by decide) (by decide)] at h
  exact h

theorem V4_res (V : Vl) : V4 V (Proc.devRef .tc main_v116) = step (step (step (h1 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7))) (V (Proc.devRef .tc main_arg1)) (wsl0 (V (Proc.devRef .tc main_arg8))) (bsl0 (V (Proc.devRef .tc main_arg9))) (wsl0 (V (Proc.devRef .tc main_arg10))) (bsl0 (V (Proc.devRef .tc main_arg11)))) (V (Proc.devRef .tc main_arg1)) (wsl1 (V (Proc.devRef .tc main_arg8))) (bsl1 (V (Proc.devRef .tc main_arg9))) (wsl1 (V (Proc.devRef .tc main_arg10))) (bsl1 (V (Proc.devRef .tc main_arg11)))) (V (Proc.devRef .tc main_arg1)) (wsl2 (V (Proc.devRef .tc main_arg8))) (bsl2 (V (Proc.devRef .tc main_arg9))) (wsl2 (V (Proc.devRef .tc main_arg10))) (bsl2 (V (Proc.devRef .tc main_arg11))) := by
  have h := s3_res (V3 V) (V (Proc.devRef .tc main_arg1)) (V3_src V) (V3_dst V)
  rw [V3_res, V3_keep V main_arg8 (by decide) (by decide) (by decide), V3_keep V main_arg9 (by decide) (by decide) (by decide), V3_keep V main_arg10 (by decide) (by decide) (by decide), V3_keep V main_arg11 (by decide) (by decide) (by decide)] at h
  exact h

/-- After the whole line the result buffer holds the network of the sixteen arguments' contents at the start. -/
theorem value (V : Vl) : after ops V (Proc.devRef .tc main_v137) = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  have h := s4_res (V4 V)
  rw [V4_res, V4_keep V main_arg2 (by decide) (by decide) (by decide) (by decide), V4_keep V main_arg12 (by decide) (by decide) (by decide) (by decide), V4_keep V main_arg13 (by decide) (by decide) (by decide) (by decide), V4_keep V main_arg14 (by decide) (by decide) (by decide) (by decide), V4_keep V main_arg15 (by decide) (by decide) (by decide) (by decide)] at h
  rw [after_ops]
  exact h

/-- After the whole line a buffer no stretch writes holds what it held at the start. -/
theorem kept (V : Vl) (r : Ref sig .tc) (h0 : r ∉ W0) (h1 : r ∉ W1) (h2 : r ∉ W2) (h3 : r ∉ W3) (h4 : r ∉ W4) : after ops V (Proc.devRef .tc r) = V (Proc.devRef .tc r) := by
  rw [after_ops]
  exact V5_keep V r h0 h1 h2 h3 h4

/-! ## The run -/

/-- From any memory with zero counters every weakly fair execution of the reference terminates, and every final state has
    the result buffer at the network of the arguments' launch contents and every argument buffer at its launch contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v137) = Cert.Gin.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run (defs (F := Ideal)) _ _).mono
    (fun _ h c => ⟨(h c main_v137).trans (value _),
      (h c main_arg0).trans (kept _ main_arg0 (by decide) (by decide) (by decide) (by decide) (by decide)),
      (h c main_arg1).trans (kept _ main_arg1 (by decide) (by decide) (by decide) (by decide) (by decide)),
      (h c main_arg2).trans (kept _ main_arg2 (by decide) (by decide) (by decide) (by decide) (by decide)),
      (h c main_arg3).trans (kept _ main_arg3 (by decide) (by decide) (by decide) (by decide) (by decide)),
      (h c main_arg4).trans (kept _ main_arg4 (by decide) (by decide) (by decide) (by decide) (by decide)),
      (h c main_arg5).trans (kept _ main_arg5 (by decide) (by decide) (by decide) (by decide) (by decide)),
      (h c main_arg6).trans (kept _ main_arg6 (by decide) (by decide) (by decide) (by decide) (by decide)),
      (h c main_arg7).trans (kept _ main_arg7 (by decide) (by decide) (by decide) (by decide) (by decide)),
      (h c main_arg8).trans (kept _ main_arg8 (by decide) (by decide) (by decide) (by decide) (by decide)),
      (h c main_arg9).trans (kept _ main_arg9 (by decide) (by decide) (by decide) (by decide) (by decide)),
      (h c main_arg10).trans (kept _ main_arg10 (by decide) (by decide) (by decide) (by decide) (by decide)),
      (h c main_arg11).trans (kept _ main_arg11 (by decide) (by decide) (by decide) (by decide) (by decide)),
      (h c main_arg12).trans (kept _ main_arg12 (by decide) (by decide) (by decide) (by decide) (by decide)),
      (h c main_arg13).trans (kept _ main_arg13 (by decide) (by decide) (by decide) (by decide) (by decide)),
      (h c main_arg14).trans (kept _ main_arg14 (by decide) (by decide) (by decide) (by decide) (by decide)),
      (h c main_arg15).trans (kept _ main_arg15 (by decide) (by decide) (by decide) (by decide) (by decide))⟩)
    (run_main (F := Ideal) m ρ)

end Cert.Gin.Ref

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Region0.lean ====
/-
  Region 0 of the kernel program: the first layer's dense part, block by block.

  The region's grid has ten points. At point t the body reads rows 5000 t … 5000 t + 4999 of the node features and of
  the neighbour sums, the two weight matrices, the residual projection and the two bias rows whole, and writes the
  same rows of the output. Every entry of the output's row p depends on row p of the two row-blocked inputs only:
  at the exact values the body's narrowings are the identity, its three products into zero accumulators are plain
  sums over the contracted axis, and a bias row broadcast down the rows reads the row. The whole-array dense part
  read at (p, q) is the same expression in row p. So each point writes back its block of the whole-array function,
  the ten blocks cover the 50000 rows, and the output array ends holding the whole-array function of the input arrays.
  No algebraic law is used.
-/
import proofs.«132390_j82068235092697_1_alg».proof.Proof.Gen.KernelIdeal.Frame
import proofs.«132390_j82068235092697_1_alg».proof.Proof.Spec
import proofs.«132390_j82068235092697_1_alg».proof.Proof.LibPlainDot
import proofs.«132390_j82068235092697_1_alg».proof.Proof.LibRowBroadcasts
import Idealize.ShloMosaic.Lib.Pipeline.Value
import Idealize.ShloMosaic.Lib.ValueIdx
import Idealize.ShloMosaic.Lib.IdealHost

noncomputable section

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

namespace Cert.Gin.K0

/-- One row of the first layer's dense part: from a node's 64 features `xr` and its 64 neighbour sums `ar`,
    `relu(relu((xr + ar)·W1 + b1)·W2 + b2 + xr·Wres)` at output feature `q`, the biases kept as rows. -/
def row0 (xr ar : Fin 64 → EReal) (W1 : FVec Ideal ⟨2, ![64, 128]⟩ .f32) (b1 : FVec Ideal ⟨2, ![1, 128]⟩ .f32)
    (W2 : FVec Ideal ⟨2, ![128, 128]⟩ .f32) (b2 : FVec Ideal ⟨2, ![1, 128]⟩ .f32) (Wres : FVec Ideal ⟨2, ![64, 128]⟩ .f32) (q : Fin 128) : EReal :=
  max (((∑ k : Fin 128, max ((∑ j : Fin 64, (xr j + ar j) * W1 (ix2 j k)) + b1 (ix2 (0 : Fin 1) k)) (Ideal.ofBits .f32 0x00000000#32) * W2 (ix2 k q))
      + b2 (ix2 (0 : Fin 1) q)) + ∑ j : Fin 64, xr j * Wres (ix2 j q)) (Ideal.ofBits .f32 0x00000000#32)

/-- A length-`b` vector broadcast along dimension 1 into a `1 × b` row reads, at `(·, q)`, the vector at `q`. -/
theorem unitRow_apply {b : Nat} {α : Type} (v : (⟨1, ![b]⟩ : Shape).Idx → α)
    (hb : (⟨1, ![b]⟩ : Shape).BroadcastsInDim ⟨2, ![1, b]⟩ ![1]) (u : Fin 1) (q : Fin b) :
    broadcastInDim ⟨2, ![1, b]⟩ ![1] hb v (ix2 u q) = v (ix1 q) :=
  broadcastInDim_apply _ hb v (ix2 u q) (ix1 q) fun ax => by
    match ax with
    | ⟨0, _⟩ =>
      show q.val = if b = 1 then 0 else q.val
      split
      · have := q.isLt; omega
      · rfl

section Body

/-- The body's payload at row `r` of its block: `row0` of row `r` of the two row blocks, at the whole weights.
    At the exact values a narrowing is the identity, a product into the zero accumulator is the plain sum, and a
    bias row broadcast down the rows reads the row. -/
theorem pay_apply (x0 x1 : Vec Ideal S5000x64 .f32) (w1 : Vec Ideal S64x128 .f32) (w2 : Vec Ideal S128x128 .f32)
    (wr : Vec Ideal S64x128 .f32) (b1 b2 : Vec Ideal S1x128 .f32) (r : Fin 5000) (q : Fin 128) :
    k0_pay1 (F := Ideal) x0 x1 w1 w2 wr b1 b2 (ix2 r q)
      = row0 (fun j => x0 (ix2 r j)) (fun j => x1 (ix2 r j)) w1 b1 w2 b2 wr q := by
  unfold k0_pay1 row0
  rw [shapeCast_self, shapeCast_self, shapeCast_self]
  refine congrArg₂ max (congrArg₂ (· + ·) (congrArg₂ (· + ·) ?_ ?_) ?_) rfl
  · refine (Cert.Lib.PlainDot.matmul_zero_apply dot_S5000x128_S128x128_S5000x128_1_0_0_1_n_n_wf none _ _ r q).trans ?_
    refine Finset.sum_congr rfl fun k _ => congrArg₂ (· * ·) ?_ rfl
    refine congrArg₂ max (congrArg₂ (· + ·) ?_ ?_) rfl
    · exact Cert.Lib.PlainDot.matmul_zero_apply dot_S5000x64_S64x128_S5000x128_1_0_0_1_n_n_wf none _ _ r k
    · exact Cert.Lib.Rows.bcastRow_apply b1 _ r k
  · exact Cert.Lib.Rows.bcastRow_apply b2 _ r q
  · exact Cert.Lib.PlainDot.matmul_zero_apply dot_S5000x64_S64x128_S5000x128_1_0_0_1_n_n_wf none _ _ r q

end Body

section Whole
variable [Cert.ReferenceIdeal.Facts]

/-- The whole-array dense part at node `p`: `row0` of row `p` of the features and of the neighbour sums. -/
theorem dense0_apply (x a : Cert.Gin.T Cert.ReferenceIdeal.S50000x64) (W1 : Cert.Gin.T Cert.ReferenceIdeal.S64x128)
    (b1 : Cert.Gin.T Cert.ReferenceIdeal.S1x128) (W2 : Cert.Gin.T Cert.ReferenceIdeal.S128x128)
    (b2 : Cert.Gin.T Cert.ReferenceIdeal.S1x128) (Wres : Cert.Gin.T Cert.ReferenceIdeal.S64x128) (p : Fin 50000) (q : Fin 128) :
    Cert.Gin.dense0 x a W1 (Cert.Gin.unrow b1) W2 (Cert.Gin.unrow b2) Wres (ix2 p q)
      = row0 (fun j => x (ix2 p j)) (fun j => a (ix2 p j)) W1 b1 W2 b2 Wres q := by
  unfold Cert.Gin.dense0 Cert.Gin.relu Cert.Gin.bias row0
  refine congrArg₂ max (congrArg₂ (· + ·) (congrArg₂ (· + ·) ?_ ?_) ?_) ?_
  · refine (Cert.Lib.PlainDot.dotGeneral_apply Cert.ReferenceIdeal.Facts₀.dot_S50000x128_S128x128_S50000x128_1_0_0_1_n_n_wf none _ _ p q).trans ?_
    refine Finset.sum_congr rfl fun k _ => congrArg₂ (· * ·) ?_ rfl
    refine congrArg₂ max (congrArg₂ (· + ·) ?_ ?_) ?_
    · exact Cert.Lib.PlainDot.dotGeneral_apply Cert.ReferenceIdeal.Facts₀.dot_S50000x64_S64x128_S50000x128_1_0_0_1_n_n_wf none _ _ p k
    · exact (Cert.Lib.Rows.dimRow_apply _ _ p k).trans (unitRow_apply _ _ 0 k)
    · exact broadcastInDim_scalar_apply _ _ _
  · exact (Cert.Lib.Rows.dimRow_apply _ _ p q).trans (unitRow_apply _ _ 0 q)
  · exact Cert.Lib.PlainDot.dotGeneral_apply Cert.ReferenceIdeal.Facts₀.dot_S50000x64_S64x128_S50000x128_1_0_0_1_n_n_wf none _ _ p q
  · exact broadcastInDim_scalar_apply _ _ _

end Whole

section Blocks
variable [Cert.ReferenceIdeal.Facts]
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the grid: at point `t` the two row-blocked inputs and the output sit at
    row block `t`; the weights and bias rows at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Input block 0 at point `t` is rows `5000 t … 5000 t + 4999` of the features. -/
theorem iblk_rows0 (t : Fin cfg0.N) (y : S5000x64.Idx) (k : S50000x64.Idx)
    (hk0 : (k 0).val = 5000 * t.val + (y 0).val) (hk1 : (k 1).val = (y 1).val) :
    (iblk0 (F := Ideal) V c 0 t : Vec Ideal S5000x64 .f32) y = (V c main_arg0 : S50000x64.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e0, hk0]; omega
  | ⟨1, _⟩ => show win0_0.index t 1 * 64 + 1 * (y 1).val = (k 1).val; rw [e1, hk1]; omega

/-- Input block 1 at point `t` is the same rows of the neighbour sums. -/
theorem iblk_rows1 (t : Fin cfg0.N) (y : S5000x64.Idx) (k : S50000x64.Idx)
    (hk0 : (k 0).val = 5000 * t.val + (y 0).val) (hk1 : (k 1).val = (y 1).val) :
    (iblk0 (F := Ideal) V c 1 t : Vec Ideal S5000x64 .f32) y = (V c main_v13 : S50000x64.Idx → EReal) k := by
  obtain ⟨-, -, e0, e1, -⟩ := idx_facts t
  unfold iblk0
  rw [View.read_apply]
  show V c main_v13 _ = V c main_v13 _
  congr 1
  funext a
  apply Fin.ext
  match a with
  | ⟨0, _⟩ => show win0_1.index t 0 * 5000 + 1 * (y 0).val = (k 0).val; rw [e0, hk0]; omega
  | ⟨1, _⟩ => show win0_1.index t 1 * 64 + 1 * (y 1).val = (k 1).val; rw [e1, hk1]; omega

/-- The weight and bias windows' blocks are the whole arrays at every point. -/
theorem iblk_whole2 (t : Fin cfg0.N) : (iblk0 (F := Ideal) V c 2 t : Vec Ideal S64x128 .f32) = (V c main_arg3 : S64x128.Idx → EReal) := by
  obtain ⟨-, -, -, -, e0, e1, -⟩ := idx_facts t
  funext y
  unfold iblk0
  rw [View.read_apply]
  show V c main_arg3 _ = V c main_arg3 y
  congr 1
  funext a
  apply Fin.ext
  match a with
  | ⟨0, _⟩ => show win0_2.index t 0 * 64 + 1 * (y 0).val = (y 0).val; rw [e0]; omega
  | ⟨1, _⟩ => show win0_2.index t 1 * 128 + 1 * (y 1).val = (y 1).val; rw [e1]; omega

theorem iblk_whole3 (t : Fin cfg0.N) : (iblk0 (F := Ideal) V c 3 t : Vec Ideal S1x128 .f32) = (V c main_v14 : S1x128.Idx → EReal) := by
  obtain ⟨-, -, -, -, -, -, e0, e1, -⟩ := idx_facts t
  funext y
  unfold iblk0
  rw [View.read_apply]
  show V c main_v14 _ = V c main_v14 y
  congr 1
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega

theorem iblk_whole4 (t : Fin cfg0.N) : (iblk0 (F := Ideal) V c 4 t : Vec Ideal S128x128 .f32) = (V c main_arg5 : S128x128.Idx → EReal) := by
  obtain ⟨-, -, -, -, -, -, -, -, e0, e1, -⟩ := idx_facts t
  funext y
  unfold iblk0
  rw [View.read_apply]
  show V c main_arg5 _ = V c main_arg5 y
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

theorem iblk_whole5 (t : Fin cfg0.N) : (iblk0 (F := Ideal) V c 5 t : Vec Ideal S1x128 .f32) = (V c main_v15 : S1x128.Idx → EReal) := by
  obtain ⟨-, -, -, -, -, -, -, -, -, -, e0, e1, -⟩ := idx_facts t
  funext y
  unfold iblk0
  rw [View.read_apply]
  show V c main_v15 _ = V c main_v15 y
  congr 1
  funext a
  apply Fin.ext
  match a with
  | ⟨0, _⟩ => show win0_5.index t 0 * 1 + 1 * (y 0).val = (y 0).val; rw [e0]; omega
  | ⟨1, _⟩ => show win0_5.index t 1 * 128 + 1 * (y 1).val = (y 1).val; rw [e1]; omega

theorem iblk_whole6 (t : Fin cfg0.N) : (iblk0 (F := Ideal) V c 6 t : Vec Ideal S64x128 .f32) = (V c main_arg7 : S64x128.Idx → EReal) := by
  obtain ⟨-, -, -, -, -, -, -, -, -, -, -, -, e0, e1, -⟩ := idx_facts t
  funext y
  unfold iblk0
  rw [View.read_apply]
  show V c main_arg7 _ = V c main_arg7 y
  congr 1
  funext a
  apply Fin.ext
  match a with
  | ⟨0, _⟩ => show win0_6.index t 0 * 64 + 1 * (y 0).val = (y 0).val; rw [e0]; omega
  | ⟨1, _⟩ => show win0_6.index t 1 * 128 + 1 * (y 1).val = (y 1).val; rw [e1]; omega

/-- A block of 5000 rows of a row-wise function is the function of the block's rows: the body's payload on row
    blocks `tv` of the features and of the neighbour sums, at the whole weights, is the whole-array dense part
    read at the same rows. -/
theorem point (x0 x1 : Vec Ideal S5000x64 .f32) (w1 : Vec Ideal S64x128 .f32) (b1 : Vec Ideal S1x128 .f32)
    (w2 : Vec Ideal S128x128 .f32) (b2 : Vec Ideal S1x128 .f32) (wr : Vec Ideal S64x128 .f32)
    (X A : S50000x64.Idx → EReal) (tv : Nat)
    (h0 : ∀ (y : S5000x64.Idx) (k : S50000x64.Idx), (k 0).val = 5000 * tv + (y 0).val → (k 1).val = (y 1).val → x0 y = X k)
    (h1 : ∀ (y : S5000x64.Idx) (k : S50000x64.Idx), (k 0).val = 5000 * tv + (y 0).val → (k 1).val = (y 1).val → x1 y = A k)
    (j : S5000x128.Idx) (i : S50000x128.Idx) (hi0 : (i 0).val = 5000 * tv + (j 0).val) (hi1 : (i 1).val = (j 1).val) :
    k0_pay1 (F := Ideal) x0 x1 w1 w2 wr b1 b2 j
      = Cert.Gin.dense0 X A w1 (Cert.Gin.unrow b1) w2 (Cert.Gin.unrow b2) wr i := by
  obtain ⟨r, q, rfl⟩ : ∃ (r : Fin 5000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext hi1
  rw [pay_apply, dense0_apply]
  have ex : (fun a => x0 (ix2 r a)) = fun a => X (ix2 p a) := funext fun a => h0 _ _ hi0 rfl
  have ea : (fun a => x1 (ix2 r a)) = fun a => A (ix2 p a) := funext fun a => h1 _ _ hi0 rfl
  rw [ex, ea]

/-- WHAT POINT `t` WRITES BACK is block `t` of the whole-array dense part of the region's input arrays. -/
theorem flushed_eq (t : Fin cfg0.N) :
    (dat0 (F := Ideal) V c).flushed 7 t = ((cfg0.win 7).blk t).view.read (Elt Ideal)
      (Cert.Gin.dense0 (V c main_arg0) (V c main_v13) (V c main_arg3) (Cert.Gin.unrow (V c main_v14)) (V c main_arg5) (Cert.Gin.unrow (V c main_v15)) (V c main_arg7)) := by
  show (cfg0.win 7).cut (grid0.coords t) ((dat0 V c).after 7 t) = _
  rw [after0_7]
  unfold out0_7
  rw [View.canon_unit_zero hz]
  simp only [View.ld_unit_zero (S := S5000x64) hz, View.ld_unit_zero (S := S64x128) hz, View.ld_unit_zero (S := S128x128) hz, View.ld_unit_zero (S := S1x128) hz]
  obtain ⟨-, -, -, -, -, -, -, -, -, -, -, -, -, -, e0, e1⟩ := idx_facts t
  funext j
  show k0_pay1 (F := Ideal) (iblk0 V c 0 t) (iblk0 V c 1 t) (iblk0 V c 2 t) (iblk0 V c 4 t) (iblk0 V c 6 t) (iblk0 V c 3 t) (iblk0 V c 5 t) j
    = Cert.Gin.dense0 (V c main_arg0) (V c main_v13) (V c main_arg3) (Cert.Gin.unrow (V c main_v14)) (V c main_arg5) (Cert.Gin.unrow (V c main_v15)) (V c main_arg7) (((cfg0.win 7).blk t).view.emb j)
  rw [iblk_whole2 V c t, iblk_whole3 V c t, iblk_whole4 V c t, iblk_whole5 V c t, iblk_whole6 V c t]
  exact point (iblk0 V c 0 t) (iblk0 V c 1 t) (V c main_arg3) (V c main_v14) (V c main_arg5) (V c main_v15) (V c main_arg7)
    (V c main_arg0) (V c main_v13) t.val (iblk_rows0 V c t) (iblk_rows1 V c t) j (((cfg0.win 7).blk t).view.emb j)
    (by show win0_7.index t 0 * 5000 + 1 * (j 0).val = 5000 * t.val + (j 0).val; rw [e0]; omega)
    (by show win0_7.index t 1 * 128 + 1 * (j 1).val = (j 1).val; rw [e1]; omega)

/-- An index of the output array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v16).slice (win0_7.rect t)).set ↔ _
  rw [View.set_slice_whole, Rect.mem_set_unit]
  exact Iff.rfl

/-- Every node's row is in some written-back block: row `p` is covered by point `p / 5000`. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < 10; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ => show win0_7.index t 0 * 5000 ≤ (i 0).val ∧ (i 0).val < win0_7.index t 0 * 5000 + 5000; rw [e0, ht]; omega
  | ⟨1, _⟩ => show win0_7.index t 1 * 128 ≤ (i 1).val ∧ (i 1).val < win0_7.index t 1 * 128 + 128; rw [e1]; omega

end Blocks

end Cert.Gin.K0

namespace Cert.Gin.K

variable [Cert.ReferenceIdeal.Facts]
variable (V : (c : Dev nD) → (b : Ref sig .tc) → Buf (Elt Ideal) ((c : Thread nD τ).loc b)) (c : Dev nD)

/-- REGION 0: after the first layer's kernel its output array holds the whole-array dense part of the region's input
    arrays, whatever the buffers held when the region was entered: each of the ten points writes back its block of
    5000 rows of that array, and the ten blocks cover the 50000 rows. -/
theorem region0_value : (dat0 (F := Ideal) V c).arrAt 7 cfg0.N
    = Cert.Gin.dense0 (V c main_arg0) (V c main_v13) (V c main_arg3) (Cert.Gin.unrow (V c main_v14)) (V c main_arg5)
        (Cert.Gin.unrow (V c main_v15)) (V c main_arg7) :=
  (dat0 (F := Ideal) V c).arrAt_eq_of_cover 7 _ (fun t _ => Cert.Gin.K0.flushed_eq V c t) Cert.Gin.K0.cover

end Cert.Gin.K
end
-- ==== Proof.RegionLemmas1.lean ====
/-
  One row of a later layer's dense part, read on both sides.

  A later GIN layer sends the node features h and the neighbour sums a to
  relu(relu((h + a)·W1 + b1)·W2 + b2 + h). Every operation in it acts row by row: entry (p, q) of the result depends on
  row p of h and of a only, through

    denseRow hp ap W1 b1 W2 b2 q = max (Σ_k max (Σ_j (hp j + ap j)·W1[j,k] + b1[k]) 0 · W2[k,q] + b2[q] + hp q) 0.

  Two readings are proved here. The whole-array form over 50000 rows (the host's two matrix products, the biases
  broadcast from a length-128 vector read off a 1 × 128 row, the rectifier against a broadcast zero) read at (p, q) is
  denseRow of row p. The block form over 5000 rows (two products into a zero accumulator whose operands pass through a
  narrowing that is the identity on extended reals, the biases as 1 × 128 rows broadcast down the rows, the rectifier
  against a splat zero) read at (r, q) is denseRow of row r of the block. No algebraic law is used: the two sides are
  the same expression.
-/
import proofs.«132390_j82068235092697_1_alg».proof.Proof.Spec
import proofs.«132390_j82068235092697_1_alg».proof.Proof.LibPlainDot
import proofs.«132390_j82068235092697_1_alg».proof.Proof.LibRowBroadcasts
import proofs.«132390_j82068235092697_1_alg».proof.KernelIdeal
import Idealize.ShloMosaic.Lib.Pipeline.Value
import Idealize.ShloMosaic.Lib.ValueIdx
import Idealize.ShloMosaic.PureOps.Ideal.Laws

noncomputable section

namespace Cert.Gin.L1

open Idealize.ShloMosaic Idealize.ShloMosaic.ValueIdx Idealize.SL.Sem
open scoped BigOperators

/-- Entry q of one row of a later layer's dense part, from that row of the features (hp) and of the neighbour
    sums (ap), the two weight matrices and the two biases kept as 1 × 128 rows. -/
def denseRow (hp ap : Fin 128 → EReal) (W1 : FVec Ideal ⟨2, ![128, 128]⟩ .f32) (b1 : FVec Ideal ⟨2, ![1, 128]⟩ .f32)
    (W2 : FVec Ideal ⟨2, ![128, 128]⟩ .f32) (b2 : FVec Ideal ⟨2, ![1, 128]⟩ .f32) (q : Fin 128) : EReal :=
  max (((∑ k : Fin 128, max ((∑ j : Fin 128, (hp j + ap j) * W1 (ix2 j k)) + b1 (ix2 (0 : Fin 1) k)) 0 * W2 (ix2 k q))
    + b2 (ix2 (0 : Fin 1) q)) + hp q) 0

/-! ## The whole-array form -/

section Whole

open Cert.ReferenceIdeal Cert.ReferenceIdeal.Facts₀

variable [Cert.ReferenceIdeal.Facts]

/-- The host's product of a 50000 × 128 array with a 128 × 128 matrix at (p, q): the sum over k. -/
theorem hostDot_apply (lhs : T S50000x128) (rhs : T S128x128) (p : Fin 50000) (q : Fin 128) :
    Host.dotGeneral (F := Ideal) dot_S50000x128_S128x128_S50000x128_1_0_0_1_n_n none lhs rhs (ix2 p q)
      = ∑ k : Fin 128, lhs (ix2 p k) * rhs (ix2 k q) :=
  Cert.Lib.PlainDot.dotGeneral_apply dot_S50000x128_S128x128_S50000x128_1_0_0_1_n_n_wf none lhs rhs p q

/-- The scalar zero broadcast to every entry is 0. -/
theorem zeros_apply (i : S50000x128.Idx) :
    broadcastInDim S50000x128 ![] bcast_S_S50000x128 Cert.Gin.zero0 i = 0 := by
  rw [broadcastInDim_apply _ bcast_S_S50000x128 Cert.Gin.zero0 i ix0 (fun a => a.elim0)]
  unfold Cert.Gin.zero0
  rw [constant_apply, Ideal.ofBits_zero_f32]

/-- The rectifier at an index. -/
theorem relu_apply (t : T S50000x128) (i : S50000x128.Idx) : Cert.Gin.relu t i = max (t i) 0 := by
  unfold Cert.Gin.relu
  rw [maximumf_apply, zeros_apply]

/-- A bias read off a 1 × 128 row and added to every row, at (p, q): the row at q. -/
theorem bias_unrow_apply (b : T S1x128) (p : Fin 50000) (q : Fin 128) :
    Cert.Gin.bias (Cert.Gin.unrow b) (ix2 p q) = b (ix2 (0 : Fin 1) q) := by
  unfold Cert.Gin.bias
  rw [Cert.Lib.Rows.dimRow_apply _ bcast_S1x128_S50000x128_0_1 p q]
  refine (broadcastInDim_apply _ bcast_S128_S1x128_1 (Cert.Gin.unrow b) (ix2 (0 : Fin 1) q) (ix1 q) fun a => ?_).trans rfl
  match a with
  | ⟨0, _⟩ =>
    show q.val = if (128 : Nat) = 1 then 0 else q.val
    rw [if_neg (by decide)]

/-- The later layers' dense part over the whole array, at (p, q): denseRow of row p. -/
theorem dense_apply (h a : T S50000x128) (W1 : T S128x128) (b1 : T S1x128) (W2 : T S128x128) (b2 : T S1x128)
    (p : Fin 50000) (q : Fin 128) :
    Cert.Gin.dense h a W1 (Cert.Gin.unrow b1) W2 (Cert.Gin.unrow b2) (ix2 p q)
      = denseRow (fun j => h (ix2 p j)) (fun j => a (ix2 p j)) W1 b1 W2 b2 q := by
  unfold Cert.Gin.dense denseRow
  rw [relu_apply, addf_apply, addf_apply, hostDot_apply, bias_unrow_apply]
  simp only [relu_apply, addf_apply, hostDot_apply, bias_unrow_apply]

end Whole

/-! ## The block form -/

section Block

open Cert.KernelIdeal Cert.KernelIdeal.Facts₀

variable [Cert.KernelIdeal.Facts]

/-- A block's product of 5000 × 128 with 128 × 128 into the zero splat at (r, q): the sum over k. -/
theorem blockDot_apply (lhs : FVec Ideal S5000x128 .bf16) (rhs : FVec Ideal S128x128 .bf16) (r : Fin 5000) (q : Fin 128) :
    matmul dot_S5000x128_S128x128_S5000x128_1_0_0_1_n_n none lhs rhs (constant (F := Ideal) S5000x128 .f32 0x00000000#32) (ix2 r q)
      = ∑ k : Fin 128, lhs (ix2 r k) * rhs (ix2 k q) :=
  Cert.Lib.PlainDot.matmul_zero_apply dot_S5000x128_S128x128_S5000x128_1_0_0_1_n_n_wf none lhs rhs r q

/-- The block body's stored value as one expression of the six loaded blocks: the features and neighbour sums of
    5000 rows, the two weight matrices, the two bias rows. -/
def pay (v0 v2 : FVec Ideal S5000x128 .f32) (v5 v8 : FVec Ideal S128x128 .f32) (v13 v21 : FVec Ideal S1x128 .f32) :
    FVec Ideal S5000x128 .f32 :=
  maximumf
    (addf
      (addf
        (matmul dot_S5000x128_S128x128_S5000x128_1_0_0_1_n_n none
          (truncf .bf16
            (maximumf
              (addf
                (matmul dot_S5000x128_S128x128_S5000x128_1_0_0_1_n_n none
                  (truncf .bf16 (addf (shapeCast S5000x128 v0 shapeCasts_S5000x128_S5000x128) (shapeCast S5000x128 v2 shapeCasts_S5000x128_S5000x128)) bitsLt_bf16_f32)
                  (truncf .bf16 (shapeCast S128x128 v5 shapeCasts_S128x128_S128x128) bitsLt_bf16_f32)
                  (constant S5000x128 .f32 0x00000000#32))
                (broadcastTo S5000x128 (shapeCast S1x128 v13 shapeCasts_S1x128_S1x128) broadcasts_S1x128_S5000x128))
              (broadcast S5000x128 (Scalar.ofBits .f32 0x00000000#32)))
            bitsLt_bf16_f32)
          (truncf .bf16 (shapeCast S128x128 v8 shapeCasts_S128x128_S128x128) bitsLt_bf16_f32)
          (constant S5000x128 .f32 0x00000000#32))
        (broadcastTo S5000x128 (shapeCast S1x128 v21 shapeCasts_S1x128_S1x128) broadcasts_S1x128_S5000x128))
      (shapeCast S5000x128 v0 shapeCasts_S5000x128_S5000x128))
    (broadcast S5000x128 (Scalar.ofBits .f32 0x00000000#32))

/-- The splat zero of the body is 0. -/
theorem scalarZero : (Scalar.ofBits (F := Ideal) .f32 0x00000000#32 : Ideal .f32) = 0 := Ideal.ofBits_zero_f32

/-- The block body's stored value at (r, q): denseRow of row r of the block. -/
theorem pay_apply (v0 v2 : FVec Ideal S5000x128 .f32) (v5 v8 : FVec Ideal S128x128 .f32) (v13 v21 : FVec Ideal S1x128 .f32)
    (r : Fin 5000) (q : Fin 128) :
    pay v0 v2 v5 v8 v13 v21 (ix2 r q)
      = denseRow (fun j => v0 (ix2 r j)) (fun j => v2 (ix2 r j)) v5 v13 v8 v21 q := by
  unfold pay denseRow
  simp only [shapeCast_self]
  rw [maximumf_apply, addf_apply, addf_apply, blockDot_apply, Cert.Lib.Rows.bcastRow_apply, broadcast_apply, scalarZero]
  simp only [truncf_apply, maximumf_apply, addf_apply, blockDot_apply, Cert.Lib.Rows.bcastRow_apply, broadcast_apply, scalarZero]

end Block

/-! ## A block of rows against the whole array -/

section Rows

variable [Cert.KernelIdeal.Facts] [Cert.ReferenceIdeal.Facts]

/-- Block t of 5000 rows of a row-wise function is the function of the block's rows: when the two row blocks x0, x1
    hold rows 5000·t … 5000·t + 4999 of the arrays h, a, the block body's stored value at j is the whole-array dense
    part at the index i that sits at row 5000·t + (row of j), same column. -/
theorem pay_eq_dense (x0 x1 : FVec Ideal ⟨2, ![5000, 128]⟩ .f32) (h a : FVec Ideal ⟨2, ![50000, 128]⟩ .f32)
    (W1 : FVec Ideal ⟨2, ![128, 128]⟩ .f32) (b1 : FVec Ideal ⟨2, ![1, 128]⟩ .f32)
    (W2 : FVec Ideal ⟨2, ![128, 128]⟩ .f32) (b2 : FVec Ideal ⟨2, ![1, 128]⟩ .f32) (t : Nat)
    (hx0 : ∀ (r : Fin 5000) (q : Fin 128) (p : Fin 50000), p.val = 5000 * t + r.val → x0 (ix2 r q) = h (ix2 p q))
    (hx1 : ∀ (r : Fin 5000) (q : Fin 128) (p : Fin 50000), p.val = 5000 * t + r.val → x1 (ix2 r q) = a (ix2 p q))
    (j : (⟨2, ![5000, 128]⟩ : Shape).Idx) (i : (⟨2, ![50000, 128]⟩ : Shape).Idx)
    (hi0 : (i 0).val = 5000 * t + (j 0).val) (hi1 : (i 1).val = (j 1).val) :
    pay x0 x1 W1 W2 b1 b2 j = Cert.Gin.dense h a W1 (Cert.Gin.unrow b1) W2 (Cert.Gin.unrow b2) i := by
  obtain ⟨r, q, rfl⟩ : ∃ (r : Fin 5000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext hi1
  rw [pay_apply, dense_apply]
  have e0 : (fun k => x0 (ix2 r k)) = fun k => h (ix2 p k) := funext fun k => hx0 r k p hi0
  have e1 : (fun k => x1 (ix2 r k)) = fun k => a (ix2 p k) := funext fun k => hx1 r k p hi0
  rw [e0, e1]

end Rows

end Cert.Gin.L1

end
-- ==== Proof.Region1.lean ====
/-
  Region 1: the array a later GIN layer's block kernel leaves is the dense part of the layer over the whole array.

  The region tiles the 50000 rows in 10 blocks of 5000 rows: at point t the features and the neighbour sums are read
  at rows 5000·t … 5000·t + 4999, the two weight matrices and the two bias rows whole, and the block of the output at
  the same rows is written. The dense part acts row by row, so the block written at point t is block t of the
  whole-array dense part of the region's input arrays; the ten blocks cover the array (row p lies in block p / 5000),
  hence the array after the region is that function, whatever the buffers held when the region was entered.
-/
import proofs.«132390_j82068235092697_1_alg».proof.Proof.RegionLemmas1
import proofs.«132390_j82068235092697_1_alg».proof.Proof.Gen.KernelIdeal.Frame
import Idealize.ShloMosaic.Lib.Pipeline.Value

set_option maxRecDepth 16384

noncomputable section

namespace Cert.Gin.K1

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access. -/
theorem hz : (![0, 0] : Fin 2 → Nat) = fun _ => 0 := funext fun a => by fin_cases a <;> rfl

/-- The printed index maps over the grid: the three row-blocked windows sit at block (t, 0), the four whole windows
    at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable [Cert.KernelIdeal.Facts] [Cert.ReferenceIdeal.Facts]
variable (V : (c : Dev nD) → (b : Ref sig .tc) → Buf (Elt Ideal) ((c : Thread nD τ).loc b))

/-- The body's stored value is the block form of the dense part. -/
theorem pay_eq (v0 v2 : Vec Ideal S5000x128 .f32) (v5 v8 : Vec Ideal S128x128 .f32) (v13 v21 : Vec Ideal S1x128 .f32) :
    k1_pay1 (F := Ideal) v0 v2 v5 v8 v13 v21 = Cert.Gin.L1.pay v0 v2 v5 v8 v13 v21 := rfl

/-- The features' block at point t holds rows 5000·t … of the features' array. -/
theorem rows0 (c : Dev nD) (t : Fin cfg1.N) (r : Fin 5000) (q : Fin 128) (p : Fin 50000) (hp : p.val = 5000 * t.val + r.val) :
    (iblk1 V c 0 t : Vec Ideal S5000x128 .f32) (ix2 r q) = (V c main_v16 : S50000x128.Idx → EReal) (ix2 p q) := by
  obtain ⟨e0, e1, -⟩ := idx_facts t
  unfold iblk1
  rw [View.read_apply]
  show V c main_v16 _ = V c main_v16 _
  refine congrArg _ (funext fun a => Fin.ext ?_)
  match a with
  | ⟨0, _⟩ => show win1_0.index t (0 : Fin 2) * 5000 + 1 * r.val = p.val; rw [e0, hp]; omega
  | ⟨1, _⟩ => show win1_0.index t (1 : Fin 2) * 128 + 1 * q.val = q.val; rw [e1]; omega

/-- The neighbour sums' block at point t holds rows 5000·t … of their array. -/
theorem rows1 (c : Dev nD) (t : Fin cfg1.N) (r : Fin 5000) (q : Fin 128) (p : Fin 50000) (hp : p.val = 5000 * t.val + r.val) :
    (iblk1 V c 1 t : Vec Ideal S5000x128 .f32) (ix2 r q) = (V c main_v26 : S50000x128.Idx → EReal) (ix2 p q) := by
  obtain ⟨-, -, e0, e1, -⟩ := idx_facts t
  unfold iblk1
  rw [View.read_apply]
  show V c main_v26 _ = V c main_v26 _
  refine congrArg _ (funext fun a => Fin.ext ?_)
  match a with
  | ⟨0, _⟩ => show win1_1.index t (0 : Fin 2) * 5000 + 1 * r.val = p.val; rw [e0, hp]; omega
  | ⟨1, _⟩ => show win1_1.index t (1 : Fin 2) * 128 + 1 * q.val = q.val; rw [e1]; omega

/-- The first weight matrix's block is the whole matrix at every point. -/
theorem whole2 (c : Dev nD) (t : Fin cfg1.N) :
    (iblk1 V c 2 t : Vec Ideal S128x128 .f32) = (V c main_v28 : S128x128.Idx → EReal) := by
  obtain ⟨-, -, -, -, e0, e1, -⟩ := idx_facts t
  funext y
  unfold iblk1
  rw [View.read_apply]
  show V c main_v28 _ = V c main_v28 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first bias row's block is the whole row at every point. -/
theorem whole3 (c : Dev nD) (t : Fin cfg1.N) :
    (iblk1 V c 3 t : Vec Ideal S1x128 .f32) = (V c main_v35 : S1x128.Idx → EReal) := by
  obtain ⟨-, -, -, -, -, -, e0, e1, -⟩ := idx_facts t
  funext y
  unfold iblk1
  rw [View.read_apply]
  show V c main_v35 _ = V c main_v35 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The second weight matrix's block is the whole matrix at every point. -/
theorem whole4 (c : Dev nD) (t : Fin cfg1.N) :
    (iblk1 V c 4 t : Vec Ideal S128x128 .f32) = (V c main_v32 : S128x128.Idx → EReal) := by
  obtain ⟨-, -, -, -, -, -, -, -, e0, e1, -⟩ := idx_facts t
  funext y
  unfold iblk1
  rw [View.read_apply]
  show V c main_v32 _ = V c main_v32 y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second bias row's block is the whole row at every point. -/
theorem whole5 (c : Dev nD) (t : Fin cfg1.N) :
    (iblk1 V c 5 t : Vec Ideal S1x128 .f32) = (V c main_v36 : S1x128.Idx → EReal) := by
  obtain ⟨-, -, -, -, -, -, -, -, -, -, e0, e1, -⟩ := idx_facts t
  funext y
  unfold iblk1
  rw [View.read_apply]
  show V c main_v36 _ = V c main_v36 y
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- The dense part of the layer over the region's input arrays as the region finds them. -/
abbrev G (c : Dev nD) : S50000x128.Idx → EReal :=
  Cert.Gin.dense (V c main_v16) (V c main_v26) (V c main_v28) (Cert.Gin.unrow (V c main_v35)) (V c main_v32) (Cert.Gin.unrow (V c main_v36))

/-- What point t writes back is block t of the whole-array dense part. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S128x128) hz, View.ld_unit_zero (S := S1x128) hz]
  rw [pay_eq, whole2, whole3, whole4, whole5]
  obtain ⟨-, -, -, -, -, -, -, -, -, -, -, -, e0, e1⟩ := idx_facts t
  refine funext fun (j : S5000x128.Idx) => ?_
  show Cert.Gin.L1.pay (iblk1 V c 0 t) (iblk1 V c 1 t) (V c main_v28) (V c main_v32) (V c main_v35) (V c main_v36) j
      = G V c (((cfg1.win 6).blk t).view.emb j)
  refine Cert.Gin.L1.pay_eq_dense (iblk1 V c 0 t) (iblk1 V c 1 t) (V c main_v16) (V c main_v26) (V c main_v28) (V c main_v35) (V c main_v32) (V c main_v36) t.val
    (fun r q p hp => rows0 V c t r q p hp) (fun r q p hp => rows1 V c t r q p hp) j _ ?_ ?_
  · show win1_6.index t (0 : Fin 2) * 5000 + 1 * (j 0).val = 5000 * t.val + (j 0).val
    rw [e0]; omega
  · show win1_6.index t (1 : Fin 2) * 128 + 1 * (j 1).val = (j 1).val
    rw [e1]; omega

/-- An index of the array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v37).slice (win1_6.rect t)).set ↔ _
  rw [View.set_slice_whole, Rect.mem_set_unit]
  exact Iff.rfl

/-- Row p lies in the block of point p / 5000: the ten blocks cover the array. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; rw [hN]; omega⟩
  have ht : t.val = (i 0).val / 5000 := rfl
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

end Cert.Gin.K1

namespace Cert.Gin.K

open Cert.KernelIdeal Cert.KernelIdeal.Gen Idealize.ShloMosaic Idealize.ShloMosaic.TcCoe Idealize.SL.Sem

variable [Cert.KernelIdeal.Facts] [Cert.ReferenceIdeal.Facts]

/-- The array region 1 leaves: the later layers' dense part of the region's input arrays, for every contents at
    the region's entry. -/
theorem region1_value (V : (c : Dev nD) → (b : Ref sig .tc) → Buf (Elt Ideal) ((c : Thread nD τ).loc b)) (c : Dev nD) :
    (dat1 (F := Ideal) V c).arrAt 6 cfg1.N
      = Cert.Gin.dense (V c main_v16) (V c main_v26) (V c main_v28) (Cert.Gin.unrow (V c main_v35)) (V c main_v32) (Cert.Gin.unrow (V c main_v36)) :=
  (dat1 (F := Ideal) V c).arrAt_eq_of_cover 6 (Cert.Gin.K1.G V c) (fun t _ => Cert.Gin.K1.flushed_eq V c t) (Cert.Gin.K1.cover)

end Cert.Gin.K

end
-- ==== Proof.Region2.lean ====
/-
  Region 2: the array a later GIN layer's block kernel leaves is the dense part of the layer over the whole array.

  The region tiles the 50000 rows in 10 blocks of 5000 rows: at point t the features and the neighbour sums are read
  at rows 5000·t … 5000·t + 4999, the two weight matrices and the two bias rows whole, and the block of the output at
  the same rows is written. The dense part acts row by row, so the block written at point t is block t of the
  whole-array dense part of the region's input arrays; the ten blocks cover the array (row p lies in block p / 5000),
  hence the array after the region is that function, whatever the buffers held when the region was entered.
-/
import proofs.«132390_j82068235092697_1_alg».proof.Proof.RegionLemmas1
import proofs.«132390_j82068235092697_1_alg».proof.Proof.Gen.KernelIdeal.Frame
import Idealize.ShloMosaic.Lib.Pipeline.Value

set_option maxRecDepth 16384

noncomputable section

namespace Cert.Gin.K2

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access. -/
theorem hz : (![0, 0] : Fin 2 → Nat) = fun _ => 0 := funext fun a => by fin_cases a <;> rfl

/-- The printed index maps over the grid: the three row-blocked windows sit at block (t, 0), the four whole windows
    at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable [Cert.KernelIdeal.Facts] [Cert.ReferenceIdeal.Facts]
variable (V : (c : Dev nD) → (b : Ref sig .tc) → Buf (Elt Ideal) ((c : Thread nD τ).loc b))

/-- The body's stored value is the block form of the dense part. -/
theorem pay_eq (v0 v2 : Vec Ideal S5000x128 .f32) (v5 v8 : Vec Ideal S128x128 .f32) (v13 v21 : Vec Ideal S1x128 .f32) :
    k2_pay1 (F := Ideal) v0 v2 v5 v8 v13 v21 = Cert.Gin.L1.pay v0 v2 v5 v8 v13 v21 := rfl

/-- The features' block at point t holds rows 5000·t … of the features' array. -/
theorem rows0 (c : Dev nD) (t : Fin cfg2.N) (r : Fin 5000) (q : Fin 128) (p : Fin 50000) (hp : p.val = 5000 * t.val + r.val) :
    (iblk2 V c 0 t : Vec Ideal S5000x128 .f32) (ix2 r q) = (V c main_v37 : S50000x128.Idx → EReal) (ix2 p q) := by
  obtain ⟨e0, e1, -⟩ := idx_facts t
  unfold iblk2
  rw [View.read_apply]
  show V c main_v37 _ = V c main_v37 _
  refine congrArg _ (funext fun a => Fin.ext ?_)
  match a with
  | ⟨0, _⟩ => show win2_0.index t (0 : Fin 2) * 5000 + 1 * r.val = p.val; rw [e0, hp]; omega
  | ⟨1, _⟩ => show win2_0.index t (1 : Fin 2) * 128 + 1 * q.val = q.val; rw [e1]; omega

/-- The neighbour sums' block at point t holds rows 5000·t … of their array. -/
theorem rows1 (c : Dev nD) (t : Fin cfg2.N) (r : Fin 5000) (q : Fin 128) (p : Fin 50000) (hp : p.val = 5000 * t.val + r.val) :
    (iblk2 V c 1 t : Vec Ideal S5000x128 .f32) (ix2 r q) = (V c main_v47 : S50000x128.Idx → EReal) (ix2 p q) := by
  obtain ⟨-, -, e0, e1, -⟩ := idx_facts t
  unfold iblk2
  rw [View.read_apply]
  show V c main_v47 _ = V c main_v47 _
  refine congrArg _ (funext fun a => Fin.ext ?_)
  match a with
  | ⟨0, _⟩ => show win2_1.index t (0 : Fin 2) * 5000 + 1 * r.val = p.val; rw [e0, hp]; omega
  | ⟨1, _⟩ => show win2_1.index t (1 : Fin 2) * 128 + 1 * q.val = q.val; rw [e1]; omega

/-- The first weight matrix's block is the whole matrix at every point. -/
theorem whole2 (c : Dev nD) (t : Fin cfg2.N) :
    (iblk2 V c 2 t : Vec Ideal S128x128 .f32) = (V c main_v49 : S128x128.Idx → EReal) := by
  obtain ⟨-, -, -, -, e0, e1, -⟩ := idx_facts t
  funext y
  unfold iblk2
  rw [View.read_apply]
  show V c main_v49 _ = V c main_v49 y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The first bias row's block is the whole row at every point. -/
theorem whole3 (c : Dev nD) (t : Fin cfg2.N) :
    (iblk2 V c 3 t : Vec Ideal S1x128 .f32) = (V c main_v56 : S1x128.Idx → EReal) := by
  obtain ⟨-, -, -, -, -, -, e0, e1, -⟩ := idx_facts t
  funext y
  unfold iblk2
  rw [View.read_apply]
  show V c main_v56 _ = V c main_v56 y
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The second weight matrix's block is the whole matrix at every point. -/
theorem whole4 (c : Dev nD) (t : Fin cfg2.N) :
    (iblk2 V c 4 t : Vec Ideal S128x128 .f32) = (V c main_v53 : S128x128.Idx → EReal) := by
  obtain ⟨-, -, -, -, -, -, -, -, e0, e1, -⟩ := idx_facts t
  funext y
  unfold iblk2
  rw [View.read_apply]
  show V c main_v53 _ = V c main_v53 y
  refine congrArg _ (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- The second bias row's block is the whole row at every point. -/
theorem whole5 (c : Dev nD) (t : Fin cfg2.N) :
    (iblk2 V c 5 t : Vec Ideal S1x128 .f32) = (V c main_v57 : S1x128.Idx → EReal) := by
  obtain ⟨-, -, -, -, -, -, -, -, -, -, e0, e1, -⟩ := idx_facts t
  funext y
  unfold iblk2
  rw [View.read_apply]
  show V c main_v57 _ = V c main_v57 y
  refine congrArg _ (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- The dense part of the layer over the region's input arrays as the region finds them. -/
abbrev G (c : Dev nD) : S50000x128.Idx → EReal :=
  Cert.Gin.dense (V c main_v37) (V c main_v47) (V c main_v49) (Cert.Gin.unrow (V c main_v56)) (V c main_v53) (Cert.Gin.unrow (V c main_v57))

/-- What point t writes back is block t of the whole-array dense part. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S128x128) hz, View.ld_unit_zero (S := S1x128) hz]
  rw [pay_eq, whole2, whole3, whole4, whole5]
  obtain ⟨-, -, -, -, -, -, -, -, -, -, -, -, e0, e1⟩ := idx_facts t
  refine funext fun (j : S5000x128.Idx) => ?_
  show Cert.Gin.L1.pay (iblk2 V c 0 t) (iblk2 V c 1 t) (V c main_v49) (V c main_v53) (V c main_v56) (V c main_v57) j
      = G V c (((cfg2.win 6).blk t).view.emb j)
  refine Cert.Gin.L1.pay_eq_dense (iblk2 V c 0 t) (iblk2 V c 1 t) (V c main_v37) (V c main_v47) (V c main_v49) (V c main_v56) (V c main_v53) (V c main_v57) t.val
    (fun r q p hp => rows0 V c t r q p hp) (fun r q p hp => rows1 V c t r q p hp) j _ ?_ ?_
  · show win2_6.index t (0 : Fin 2) * 5000 + 1 * (j 0).val = 5000 * t.val + (j 0).val
    rw [e0]; omega
  · show win2_6.index t (1 : Fin 2) * 128 + 1 * (j 1).val = (j 1).val
    rw [e1]; omega

/-- An index of the array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v58).slice (win2_6.rect t)).set ↔ _
  rw [View.set_slice_whole, Rect.mem_set_unit]
  exact Iff.rfl

/-- Row p lies in the block of point p / 5000: the ten blocks cover the array. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; rw [hN]; omega⟩
  have ht : t.val = (i 0).val / 5000 := rfl
  obtain ⟨-, -, -, -, -, -, -, -, -, -, -, -, e0, e1⟩ := idx_facts t
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    rw [e0, ht]; omega
  | ⟨1, _⟩ =>
    show win2_6.index t (1 : Fin 2) * 128 ≤ (i 1).val ∧ (i 1).val < win2_6.index t (1 : Fin 2) * 128 + 128
    rw [e1]; omega

end Cert.Gin.K2

namespace Cert.Gin.K

open Cert.KernelIdeal Cert.KernelIdeal.Gen Idealize.ShloMosaic Idealize.ShloMosaic.TcCoe Idealize.SL.Sem

variable [Cert.KernelIdeal.Facts] [Cert.ReferenceIdeal.Facts]

/-- The array region 2 leaves: the later layers' dense part of the region's input arrays, for every contents at
    the region's entry. -/
theorem region2_value (V : (c : Dev nD) → (b : Ref sig .tc) → Buf (Elt Ideal) ((c : Thread nD τ).loc b)) (c : Dev nD) :
    (dat2 (F := Ideal) V c).arrAt 6 cfg2.N
      = Cert.Gin.dense (V c main_v37) (V c main_v47) (V c main_v49) (Cert.Gin.unrow (V c main_v56)) (V c main_v53) (Cert.Gin.unrow (V c main_v57)) :=
  (dat2 (F := Ideal) V c).arrAt_eq_of_cover 6 (Cert.Gin.K2.G V c) (fun t _ => Cert.Gin.K2.flushed_eq V c t) (Cert.Gin.K2.cover)

end Cert.Gin.K

end
-- ==== Proof.Region3.lean ====
/-
  Region 3: the array a later GIN layer's block kernel leaves is the dense part of the layer over the whole array.

  The region tiles the 50000 rows in 10 blocks of 5000 rows: at point t the features and the neighbour sums are read
  at rows 5000·t … 5000·t + 4999, the two weight matrices and the two bias rows whole, and the block of the output at
  the same rows is written. The dense part acts row by row, so the block written at point t is block t of the
  whole-array dense part of the region's input arrays; the ten blocks cover the array (row p lies in block p / 5000),
  hence the array after the region is that function, whatever the buffers held when the region was entered.
-/
import proofs.«132390_j82068235092697_1_alg».proof.Proof.RegionLemmas1
import proofs.«132390_j82068235092697_1_alg».proof.Proof.Gen.KernelIdeal.Frame
import Idealize.ShloMosaic.Lib.Pipeline.Value

set_option maxRecDepth 16384

noncomputable section

namespace Cert.Gin.K3

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access. -/
theorem hz : (![0, 0] : Fin 2 → Nat) = fun _ => 0 := funext fun a => by fin_cases a <;> rfl

/-- The printed index maps over the grid: the three row-blocked windows sit at block (t, 0), the four whole windows
    at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable [Cert.KernelIdeal.Facts] [Cert.ReferenceIdeal.Facts]
variable (V : (c : Dev nD) → (b : Ref sig .tc) → Buf (Elt Ideal) ((c : Thread nD τ).loc b))

/-- The body's stored value is the block form of the dense part. -/
theorem pay_eq (v0 v2 : Vec Ideal S5000x128 .f32) (v5 v8 : Vec Ideal S128x128 .f32) (v13 v21 : Vec Ideal S1x128 .f32) :
    k3_pay1 (F := Ideal) v0 v2 v5 v8 v13 v21 = Cert.Gin.L1.pay v0 v2 v5 v8 v13 v21 := rfl

/-- The features' block at point t holds rows 5000·t … of the features' array. -/
theorem rows0 (c : Dev nD) (t : Fin cfg3.N) (r : Fin 5000) (q : Fin 128) (p : Fin 50000) (hp : p.val = 5000 * t.val + r.val) :
    (iblk3 V c 0 t : Vec Ideal S5000x128 .f32) (ix2 r q) = (V c main_v58 : S50000x128.Idx → EReal) (ix2 p q) := by
  obtain ⟨e0, e1, -⟩ := idx_facts t
  unfold iblk3
  rw [View.read_apply]
  show V c main_v58 _ = V c main_v58 _
  refine congrArg _ (funext fun a => Fin.ext ?_)
  match a with
  | ⟨0, _⟩ => show win3_0.index t (0 : Fin 2) * 5000 + 1 * r.val = p.val; rw [e0, hp]; omega
  | ⟨1, _⟩ => show win3_0.index t (1 : Fin 2) * 128 + 1 * q.val = q.val; rw [e1]; omega

/-- The neighbour sums' block at point t holds rows 5000·t … of their array. -/
theorem rows1 (c : Dev nD) (t : Fin cfg3.N) (r : Fin 5000) (q : Fin 128) (p : Fin 50000) (hp : p.val = 5000 * t.val + r.val) :
    (iblk3 V c 1 t : Vec Ideal S5000x128 .f32) (ix2 r q) = (V c main_v68 : S50000x128.Idx → EReal) (ix2 p q) := by
  obtain ⟨-, -, e0, e1, -⟩ := idx_facts t
  unfold iblk3
  rw [View.read_apply]
  show V c main_v68 _ = V c main_v68 _
  refine congrArg _ (funext fun a => Fin.ext ?_)
  match a with
  | ⟨0, _⟩ => show win3_1.index t (0 : Fin 2) * 5000 + 1 * r.val = p.val; rw [e0, hp]; omega
  | ⟨1, _⟩ => show win3_1.index t (1 : Fin 2) * 128 + 1 * q.val = q.val; rw [e1]; omega

/-- The first weight matrix's block is the whole matrix at every point. -/
theorem whole2 (c : Dev nD) (t : Fin cfg3.N) :
    (iblk3 V c 2 t : Vec Ideal S128x128 .f32) = (V c main_v70 : S128x128.Idx → EReal) := by
  obtain ⟨-, -, -, -, e0, e1, -⟩ := idx_facts t
  funext y
  unfold iblk3
  rw [View.read_apply]
  show V c main_v70 _ = V c main_v70 y
  refine congrArg _ (funext fun a => Fin.ext ?_)
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

/-- The first bias row's block is the whole row at every point. -/
theorem whole3 (c : Dev nD) (t : Fin cfg3.N) :
    (iblk3 V c 3 t : Vec Ideal S1x128 .f32) = (V c main_v77 : S1x128.Idx → EReal) := by
  obtain ⟨-, -, -, -, -, -, e0, e1, -⟩ := idx_facts t
  funext y
  unfold iblk3
  rw [View.read_apply]
  show V c main_v77 _ = V c main_v77 y
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- The second weight matrix's block is the whole matrix at every point. -/
theorem whole4 (c : Dev nD) (t : Fin cfg3.N) :
    (iblk3 V c 4 t : Vec Ideal S128x128 .f32) = (V c main_v74 : S128x128.Idx → EReal) := by
  obtain ⟨-, -, -, -, -, -, -, -, e0, e1, -⟩ := idx_facts t
  funext y
  unfold iblk3
  rw [View.read_apply]
  show V c main_v74 _ = V c main_v74 y
  refine congrArg _ (funext fun a => Fin.ext ?_)
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

/-- The second bias row's block is the whole row at every point. -/
theorem whole5 (c : Dev nD) (t : Fin cfg3.N) :
    (iblk3 V c 5 t : Vec Ideal S1x128 .f32) = (V c main_v78 : S1x128.Idx → EReal) := by
  obtain ⟨-, -, -, -, -, -, -, -, -, -, e0, e1, -⟩ := idx_facts t
  funext y
  unfold iblk3
  rw [View.read_apply]
  show V c main_v78 _ = V c main_v78 y
  refine congrArg _ (funext fun a => Fin.ext ?_)
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-- The dense part of the layer over the region's input arrays as the region finds them. -/
abbrev G (c : Dev nD) : S50000x128.Idx → EReal :=
  Cert.Gin.dense (V c main_v58) (V c main_v68) (V c main_v70) (Cert.Gin.unrow (V c main_v77)) (V c main_v74) (Cert.Gin.unrow (V c main_v78))

/-- What point t writes back is block t of the whole-array dense part. -/
theorem flushed_eq (c : Dev nD) (t : Fin cfg3.N) :
    (dat3 (F := Ideal) V c).flushed 6 t = ((cfg3.win 6).blk t).view.read (Elt Ideal) (G V c) := by
  show (cfg3.win 6).cut (grid3.coords t) ((dat3 (F := Ideal) V c).after 6 t) = _
  rw [after3_6]
  unfold out3_6
  rw [View.canon_unit_zero hz]
  simp only [View.ld_unit_zero (S := S5000x128) hz, View.ld_unit_zero (S := S128x128) hz, View.ld_unit_zero (S := S1x128) hz]
  rw [pay_eq, whole2, whole3, whole4, whole5]
  obtain ⟨-, -, -, -, -, -, -, -, -, -, -, -, e0, e1⟩ := idx_facts t
  refine funext fun (j : S5000x128.Idx) => ?_
  show Cert.Gin.L1.pay (iblk3 V c 0 t) (iblk3 V c 1 t) (V c main_v70) (V c main_v74) (V c main_v77) (V c main_v78) j
      = G V c (((cfg3.win 6).blk t).view.emb j)
  refine Cert.Gin.L1.pay_eq_dense (iblk3 V c 0 t) (iblk3 V c 1 t) (V c main_v58) (V c main_v68) (V c main_v70) (V c main_v77) (V c main_v74) (V c main_v78) t.val
    (fun r q p hp => rows0 V c t r q p hp) (fun r q p hp => rows1 V c t r q p hp) j _ ?_ ?_
  · show win3_6.index t (0 : Fin 2) * 5000 + 1 * (j 0).val = 5000 * t.val + (j 0).val
    rw [e0]; omega
  · show win3_6.index t (1 : Fin 2) * 128 + 1 * (j 1).val = (j 1).val
    rw [e1]; omega

/-- An index of the array is in point t's block iff each coordinate is in the block's range on its axis. -/
theorem mem_blk (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v79).slice (win3_6.rect t)).set ↔ _
  rw [View.set_slice_whole, Rect.mem_set_unit]
  exact Iff.rfl

/-- Row p lies in the block of point p / 5000: the ten blocks cover the array. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; rw [hN]; omega⟩
  have ht : t.val = (i 0).val / 5000 := rfl
  obtain ⟨-, -, -, -, -, -, -, -, -, -, -, -, e0, e1⟩ := idx_facts t
  refine ⟨t, flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    rw [e0, ht]; omega
  | ⟨1, _⟩ =>
    show win3_6.index t (1 : Fin 2) * 128 ≤ (i 1).val ∧ (i 1).val < win3_6.index t (1 : Fin 2) * 128 + 128
    rw [e1]; omega

end Cert.Gin.K3

namespace Cert.Gin.K

open Cert.KernelIdeal Cert.KernelIdeal.Gen Idealize.ShloMosaic Idealize.ShloMosaic.TcCoe Idealize.SL.Sem

variable [Cert.KernelIdeal.Facts] [Cert.ReferenceIdeal.Facts]

/-- The array region 3 leaves: the later layers' dense part of the region's input arrays, for every contents at
    the region's entry. -/
theorem region3_value (V : (c : Dev nD) → (b : Ref sig .tc) → Buf (Elt Ideal) ((c : Thread nD τ).loc b)) (c : Dev nD) :
    (dat3 (F := Ideal) V c).arrAt 6 cfg3.N
      = Cert.Gin.dense (V c main_v58) (V c main_v68) (V c main_v70) (Cert.Gin.unrow (V c main_v77)) (V c main_v74) (Cert.Gin.unrow (V c main_v78)) :=
  (dat3 (F := Ideal) V c).arrAt_eq_of_cover 6 (Cert.Gin.K3.G V c) (fun t _ => Cert.Gin.K3.flushed_eq V c t) (Cert.Gin.K3.cover)

end Cert.Gin.K

end
-- ==== Proof.Region4.lean ====
/-
  Region 4 of the kernel program: the two-layer head, in one point.

  The region's grid has one point, whose blocks are the whole arrays: the pooled features, the two weight matrices,
  the first bias as a row and the last bias as a 1 × 1 array. Every entry of the output's row p depends on row p of
  the pooled features only: at the exact values the body's narrowings are the identity, its two products into zero
  accumulators are plain sums over the contracted axis, and a bias row broadcast down the rows reads the row; the
  leaky rectifier is pointwise. The whole-array head read at (p, q) is the same expression in row p. So the one
  point writes back the whole-array function, its block covers the array, and the output array ends holding the
  whole-array head of the input arrays. No algebraic law is used.
-/
import proofs.«132390_j82068235092697_1_alg».proof.Proof.Gen.KernelIdeal.Frame
import proofs.«132390_j82068235092697_1_alg».proof.Proof.Spec
import proofs.«132390_j82068235092697_1_alg».proof.Proof.LibPlainDot
import proofs.«132390_j82068235092697_1_alg».proof.Proof.LibRowBroadcasts
import Idealize.ShloMosaic.Lib.Pipeline.Value
import Idealize.ShloMosaic.Lib.ValueIdx
import Idealize.ShloMosaic.Lib.IdealHost

noncomputable section

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

namespace Cert.Gin.K4

/-- The leaky rectifier on one value: the value where it is at least zero, the slope times it elsewhere. -/
def leak (u : EReal) : EReal :=
  Scalar.select (FloatOps.cmpf (F := Ideal) (φ := .f32) .oge u (Ideal.ofBits .f32 0x00000000#32)) u (Ideal.ofBits .f32 0x3C23D70A#32 * u)

/-- One row of the head: from a graph's 128 pooled features `pr`, `leaky(pr·W1 + b1)·W2 + b2` at output column `q`,
    the first bias kept as a row and the last as a 1 × 1 array. -/
def row4 (pr : Fin 128 → EReal) (W1 : FVec Ideal ⟨2, ![128, 128]⟩ .f32) (b1 : FVec Ideal ⟨2, ![1, 128]⟩ .f32)
    (W2 : FVec Ideal ⟨2, ![128, 1]⟩ .f32) (b2 : FVec Ideal ⟨2, ![1, 1]⟩ .f32) (q : Fin 1) : EReal :=
  (∑ k : Fin 128, leak ((∑ j : Fin 128, pr j * W1 (ix2 j k)) + b1 (ix2 (0 : Fin 1) k)) * W2 (ix2 k q)) + b2 (ix2 (0 : Fin 1) q)

/-- A length-`b` vector broadcast along dimension 1 into a `1 × b` row reads, at `(·, q)`, the vector at `q`. -/
theorem unitRow_apply {b : Nat} {α : Type} (v : (⟨1, ![b]⟩ : Shape).Idx → α)
    (hb : (⟨1, ![b]⟩ : Shape).BroadcastsInDim ⟨2, ![1, b]⟩ ![1]) (u : Fin 1) (q : Fin b) :
    broadcastInDim ⟨2, ![1, b]⟩ ![1] hb v (ix2 u q) = v (ix1 q) :=
  broadcastInDim_apply _ hb v (ix2 u q) (ix1 q) fun ax => by
    match ax with
    | ⟨0, _⟩ =>
      show q.val = if b = 1 then 0 else q.val
      split
      · have := q.isLt; omega
      · rfl

section Body

/-- The body's payload at row `p`: `row4` of row `p` of the pooled features, at the whole weights. -/
theorem pay_apply (x0 : Vec Ideal S1024x128 .f32) (w1 : Vec Ideal S128x128 .f32) (w2 : Vec Ideal S128x1 .f32)
    (b1 : Vec Ideal S1x128 .f32) (b2 : Vec Ideal S1x1 .f32) (p : Fin 1024) (q : Fin 1) :
    k4_pay1 (F := Ideal) x0 w1 w2 b1 b2 (ix2 p q) = row4 (fun j => x0 (ix2 p j)) w1 b1 w2 b2 q := by
  unfold k4_pay1 row4
  rw [shapeCast_self, shapeCast_self, shapeCast_self]
  refine congrArg₂ (· + ·) ?_ ?_
  · refine (Cert.Lib.PlainDot.matmul_zero_apply dot_S1024x128_S128x1_S1024x1_1_0_0_1_n_n_wf none _ _ p q).trans ?_
    refine Finset.sum_congr rfl fun k _ => congrArg₂ (· * ·) ?_ rfl
    show leak _ = leak _
    refine congrArg leak (congrArg₂ (· + ·) ?_ ?_)
    · exact Cert.Lib.PlainDot.matmul_zero_apply dot_S1024x128_S128x128_S1024x128_1_0_0_1_n_n_wf none _ _ p k
    · exact Cert.Lib.Rows.bcastRow_apply b1 _ p k
  · exact Cert.Lib.Rows.bcastRow_apply b2 _ p q

end Body

section Whole
variable [Cert.ReferenceIdeal.Facts]

/-- The whole-array head at graph `p`: `row4` of row `p` of the pooled features. -/
theorem head_apply (x : Cert.Gin.T Cert.ReferenceIdeal.S1024x128) (W1 : Cert.Gin.T Cert.ReferenceIdeal.S128x128)
    (b1 : Cert.Gin.T Cert.ReferenceIdeal.S1x128) (W2 : Cert.Gin.T Cert.ReferenceIdeal.S128x1)
    (b2 : Cert.Gin.T Cert.ReferenceIdeal.S1x1) (p : Fin 1024) (q : Fin 1) :
    Cert.Gin.head x W1 (Cert.Gin.unrow b1) W2 (Cert.Gin.unrow1 b2) (ix2 p q)
      = row4 (fun j => x (ix2 p j)) W1 b1 W2 b2 q := by
  unfold Cert.Gin.head Cert.Gin.leaky row4
  refine congrArg₂ (· + ·) ?_ ?_
  · refine (Cert.Lib.PlainDot.dotGeneral_apply Cert.ReferenceIdeal.Facts₀.dot_S1024x128_S128x1_S1024x1_1_0_0_1_n_n_wf none _ _ p q).trans ?_
    refine Finset.sum_congr rfl fun k _ => congrArg₂ (· * ·) ?_ rfl
    have e : addf (F := Ideal) (Host.dotGeneral (F := Ideal) Cert.ReferenceIdeal.dot_S1024x128_S128x128_S1024x128_1_0_0_1_n_n none x W1)
          (broadcastInDim Cert.ReferenceIdeal.S1024x128 ![0, 1] Cert.ReferenceIdeal.Facts₀.bcast_S1x128_S1024x128_0_1
            (broadcastInDim Cert.ReferenceIdeal.S1x128 ![1] Cert.ReferenceIdeal.Facts₀.bcast_S128_S1x128_1 (Cert.Gin.unrow b1))) (ix2 p k)
        = (∑ j : Fin 128, x (ix2 p j) * W1 (ix2 j k)) + b1 (ix2 (0 : Fin 1) k) :=
      congrArg₂ (· + ·)
        (Cert.Lib.PlainDot.dotGeneral_apply Cert.ReferenceIdeal.Facts₀.dot_S1024x128_S128x128_S1024x128_1_0_0_1_n_n_wf none _ _ p k)
        ((Cert.Lib.Rows.dimRow_apply _ _ p k).trans (unitRow_apply _ _ 0 k))
    show Scalar.select (FloatOps.cmpf (F := Ideal) .oge _ _) _ (_ * _) = leak _
    unfold leak
    rw [e, broadcastInDim_scalar_apply, broadcastInDim_scalar_apply]
    rfl
  · refine (Cert.Lib.Rows.dimRow_apply _ _ p q).trans ((unitRow_apply _ _ 0 q).trans ?_)
    obtain rfl : q = 0 := Subsingleton.elim _ _
    rfl

end Whole

section Blocks
variable [Cert.ReferenceIdeal.Facts]
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the one-point grid: every window sits at block `(0, 0)`. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 ∧ True :=
  (by decide +kernel : ∀ t : Fin grid4.N, _)

/-- Every input window's block at the one point is its whole array. -/
theorem iblk_whole0 (t : Fin cfg4.N) : (iblk4 (F := Ideal) V c 0 t : Vec Ideal S1024x128 .f32) = (V c main_v91 : S1024x128.Idx → EReal) := by
  obtain ⟨e0, e1, -⟩ := idx_facts t
  funext y
  unfold iblk4
  rw [View.read_apply]
  show V c main_v91 _ = V c main_v91 y
  congr 1
  funext a
  apply Fin.ext
  match a with
  | ⟨0, _⟩ => show win4_0.index t 0 * 1024 + 1 * (y 0).val = (y 0).val; rw [e0]; omega
  | ⟨1, _⟩ => show win4_0.index t 1 * 128 + 1 * (y 1).val = (y 1).val; rw [e1]; omega

theorem iblk_whole1 (t : Fin cfg4.N) : (iblk4 (F := Ideal) V c 1 t : Vec Ideal S128x128 .f32) = (V c main_arg12 : S128x128.Idx → EReal) := by
  obtain ⟨-, -, e0, e1, -⟩ := idx_facts t
  funext y
  unfold iblk4
  rw [View.read_apply]
  show V c main_arg12 _ = V c main_arg12 y
  congr 1
  funext a
  apply Fin.ext
  match a with
  | ⟨0, _⟩ => show win4_1.index t 0 * 128 + 1 * (y 0).val = (y 0).val; rw [e0]; omega
  | ⟨1, _⟩ => show win4_1.index t 1 * 128 + 1 * (y 1).val = (y 1).val; rw [e1]; omega

theorem iblk_whole2 (t : Fin cfg4.N) : (iblk4 (F := Ideal) V c 2 t : Vec Ideal S1x128 .f32) = (V c main_v92 : S1x128.Idx → EReal) := by
  obtain ⟨-, -, -, -, e0, e1, -⟩ := idx_facts t
  funext y
  unfold iblk4
  rw [View.read_apply]
  show V c main_v92 _ = V c main_v92 y
  congr 1
  funext a
  apply Fin.ext
  match a with
  | ⟨0, _⟩ => show win4_2.index t 0 * 1 + 1 * (y 0).val = (y 0).val; rw [e0]; omega
  | ⟨1, _⟩ => show win4_2.index t 1 * 128 + 1 * (y 1).val = (y 1).val; rw [e1]; omega

theorem iblk_whole3 (t : Fin cfg4.N) : (iblk4 (F := Ideal) V c 3 t : Vec Ideal S128x1 .f32) = (V c main_arg14 : S128x1.Idx → EReal) := by
  obtain ⟨-, -, -, -, -, -, e0, e1, -⟩ := idx_facts t
  funext y
  unfold iblk4
  rw [View.read_apply]
  show V c main_arg14 _ = V c main_arg14 y
  congr 1
  funext a
  apply Fin.ext
  match a with
  | ⟨0, _⟩ => show win4_3.index t 0 * 128 + 1 * (y 0).val = (y 0).val; rw [e0]; omega
  | ⟨1, _⟩ => show win4_3.index t 1 * 1 + 1 * (y 1).val = (y 1).val; rw [e1]; omega

theorem iblk_whole4 (t : Fin cfg4.N) : (iblk4 (F := Ideal) V c 4 t : Vec Ideal S1x1 .f32) = (V c main_v93 : S1x1.Idx → EReal) := by
  obtain ⟨-, -, -, -, -, -, -, -, e0, e1, -⟩ := idx_facts t
  funext y
  unfold iblk4
  rw [View.read_apply]
  show V c main_v93 _ = V c main_v93 y
  congr 1
  funext a
  apply Fin.ext
  match a with
  | ⟨0, _⟩ => show win4_4.index t 0 * 1 + 1 * (y 0).val = (y 0).val; rw [e0]; omega
  | ⟨1, _⟩ => show win4_4.index t 1 * 1 + 1 * (y 1).val = (y 1).val; rw [e1]; omega

/-- The body's payload on the whole arrays is the whole-array head. -/
theorem point (x0 : Vec Ideal S1024x128 .f32) (w1 : Vec Ideal S128x128 .f32) (b1 : Vec Ideal S1x128 .f32)
    (w2 : Vec Ideal S128x1 .f32) (b2 : Vec Ideal S1x1 .f32)
    (j : S1024x1.Idx) (i : S1024x1.Idx) (hi0 : (i 0).val = (j 0).val) (hi1 : (i 1).val = (j 1).val) :
    k4_pay1 (F := Ideal) x0 w1 w2 b1 b2 j
      = Cert.Gin.head x0 w1 (Cert.Gin.unrow b1) w2 (Cert.Gin.unrow1 b2) i := by
  obtain rfl : i = j := funext fun a => Fin.ext (by match a with | ⟨0, _⟩ => exact hi0 | ⟨1, _⟩ => exact hi1)
  obtain ⟨p, q, rfl⟩ : ∃ (p : Fin 1024) (q : Fin 1), i = ix2 p q := ⟨i 0, i 1, eq_ix2 i⟩
  rw [pay_apply, head_apply]

/-- WHAT THE ONE POINT WRITES BACK is its block of the whole-array head of the region's input arrays. -/
theorem flushed_eq (t : Fin cfg4.N) :
    (dat4 (F := Ideal) V c).flushed 5 t = ((cfg4.win 5).blk t).view.read (Elt Ideal)
      (Cert.Gin.head (V c main_v91) (V c main_arg12) (Cert.Gin.unrow (V c main_v92)) (V c main_arg14) (Cert.Gin.unrow1 (V c main_v93))) := by
  show (cfg4.win 5).cut (grid4.coords t) ((dat4 V c).after 5 t) = _
  rw [after4_5]
  unfold out4_5
  rw [View.canon_unit_zero hz]
  simp only [View.ld_unit_zero (S := S1024x128) hz, View.ld_unit_zero (S := S128x128) hz, View.ld_unit_zero (S := S128x1) hz, View.ld_unit_zero (S := S1x128) hz, View.ld_unit_zero (S := S1x1) hz]
  obtain ⟨-, -, -, -, -, -, -, -, -, -, e0, e1, -⟩ := idx_facts t
  funext j
  show k4_pay1 (F := Ideal) (iblk4 V c 0 t) (iblk4 V c 1 t) (iblk4 V c 3 t) (iblk4 V c 2 t) (iblk4 V c 4 t) j
    = Cert.Gin.head (V c main_v91) (V c main_arg12) (Cert.Gin.unrow (V c main_v92)) (V c main_arg14) (Cert.Gin.unrow1 (V c main_v93)) (((cfg4.win 5).blk t).view.emb j)
  rw [iblk_whole0 V c t, iblk_whole1 V c t, iblk_whole2 V c t, iblk_whole3 V c t, iblk_whole4 V c t]
  exact point (V c main_v91) (V c main_arg12) (V c main_v92) (V c main_arg14) (V c main_v93) j (((cfg4.win 5).blk t).view.emb j)
    (by show win4_5.index t 0 * 1024 + 1 * (j 0).val = (j 0).val; rw [e0]; omega)
    (by show win4_5.index t 1 * 1 + 1 * (j 1).val = (j 1).val; rw [e1]; omega)

/-- An index of the output array is in point `t`'s block iff each coordinate is in the block's range on its axis. -/
theorem mem_blk (t : Fin cfg4.N) (i : S1024x1.Idx) :
    i ∈ ((cfg4.win 5).blk t).view.set ↔ ∀ a : Fin 2, win4_5.index t a * S1024x1.size a ≤ (i a).val ∧ (i a).val < win4_5.index t a * S1024x1.size a + S1024x1.size a := by
  show i ∈ ((View.whole main_v94).slice (win4_5.rect t)).set ↔ _
  rw [View.set_slice_whole, Rect.mem_set_unit]
  exact Iff.rfl

/-- The one point's block is the whole output array. -/
theorem cover (i : S1024x1.Idx) : ∃ t : Fin cfg4.N, (cfg4.win 5).flush t = true ∧ i ∈ ((cfg4.win 5).blk t).view.set := by
  have hi0 : (i 0).val < 1024 := (i 0).isLt
  have hi1 : (i 1).val < 1 := (i 1).isLt
  obtain ⟨t, ht⟩ : ∃ t : Fin cfg4.N, t.val = 0 := ⟨⟨0, by show 0 < 1; omega⟩, rfl⟩
  obtain ⟨-, -, -, -, -, -, -, -, -, -, e0, e1, -⟩ := idx_facts t
  refine ⟨t, flush4_5 t, ?_⟩
  rw [mem_blk]
  intro a
  match a with
  | ⟨0, _⟩ => show win4_5.index t 0 * 1024 ≤ (i 0).val ∧ (i 0).val < win4_5.index t 0 * 1024 + 1024; rw [e0]; omega
  | ⟨1, _⟩ => show win4_5.index t 1 * 1 ≤ (i 1).val ∧ (i 1).val < win4_5.index t 1 * 1 + 1; rw [e1]; omega

end Blocks

end Cert.Gin.K4

namespace Cert.Gin.K

variable [Cert.ReferenceIdeal.Facts]
variable (V : (c : Dev nD) → (b : Ref sig .tc) → Buf (Elt Ideal) ((c : Thread nD τ).loc b)) (c : Dev nD)

/-- REGION 4: after the head's kernel its output array holds the whole-array head of the region's input arrays,
    whatever the buffers held when the region was entered: the one point writes back the whole array. -/
theorem region4_value : (dat4 (F := Ideal) V c).arrAt 5 cfg4.N
    = Cert.Gin.head (V c main_v91) (V c main_arg12) (Cert.Gin.unrow (V c main_v92)) (V c main_arg14)
        (Cert.Gin.unrow1 (V c main_v93)) :=
  (dat4 (F := Ideal) V c).arrAt_eq_of_cover 5 _ (fun t _ => Cert.Gin.K4.flushed_eq V c t) Cert.Gin.K4.cover

end Cert.Gin.K
end
-- ==== Proof.lean ====
/-
  The certificate: a four-layer GIN network on a graph of 50000 nodes and 800000 edges with a mean pool over
  1024 graphs and a two-layer head, computed by a program of five kernel regions (the four layers' dense parts,
  tiled over the nodes in blocks of 5000 rows, and the head) among host stretches (the neighbour sums by gather
  and scatter-add, the weights cut out of their stacks, the pool), against a reference that is one line of host
  operations.

  At the ideal instance both programs end with `Cert.Gin.net` of their sixteen arguments (Proof/Spec.lean).
  The reference is that term operation by operation (Proof/RefOps.lean, Proof/RefValue.lean).  The kernel
  program's fold of buffer contents through its ten segments is read boundary by boundary (Proof/KValue.lean)
  from its run with every buffer named (Proof/KRun.lean); each region's output array is the layer's dense part
  of the region's input arrays because a block of 5000 rows of a row-wise function of the inputs is that
  function of the block's rows (Proof/Region0.lean … Proof/Region4.lean): a matrix product's row depends on
  the same row of its left operand only.  No algebraic law relates the two sides, so the precondition is never
  opened.  The ideal pass rewrote nothing, so `preserves` is trivial; the two kernel programs' frames are the
  generated ones, and the reference's frame is its run with the result dropped.
-/
import proofs.«132390_j82068235092697_1_alg».proof.Defs
import proofs.«132390_j82068235092697_1_alg».proof.Proof.Gen.Kernel
import proofs.«132390_j82068235092697_1_alg».proof.Proof.Gen.Kernel.Frame
import proofs.«132390_j82068235092697_1_alg».proof.Proof.Gen.KernelIdeal
import proofs.«132390_j82068235092697_1_alg».proof.Proof.Gen.KernelIdeal.Frame
import proofs.«132390_j82068235092697_1_alg».proof.Proof.Gen.ReferenceIdeal
import proofs.«132390_j82068235092697_1_alg».proof.Proof.Gen.Pre_finite_inputs
import proofs.«132390_j82068235092697_1_alg».proof.Proof.KRun
import proofs.«132390_j82068235092697_1_alg».proof.Proof.KValue
import proofs.«132390_j82068235092697_1_alg».proof.Proof.RefValue
import proofs.«132390_j82068235092697_1_alg».proof.Proof.Region0
import proofs.«132390_j82068235092697_1_alg».proof.Proof.Region1
import proofs.«132390_j82068235092697_1_alg».proof.Proof.Region2
import proofs.«132390_j82068235092697_1_alg».proof.Proof.Region3
import proofs.«132390_j82068235092697_1_alg».proof.Proof.Region4
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.Gin.Ref.run m ρ)

/-- Both programs end with the network's value of the arguments; the arguments agree. -/
theorem algebraic : Cert.algebraic_KernelIdeal_ReferenceIdeal := by
  intro m ρ m' ρ' _ hagree
  refine ⟨fun c => Cert.Gin.net (Cert.Gin.KVal.A.arg0 m c) (Cert.Gin.KVal.A.arg1 m c) (Cert.Gin.KVal.A.arg2 m c) (Cert.Gin.KVal.A.arg3 m c) (Cert.Gin.KVal.A.arg4 m c) (Cert.Gin.KVal.A.arg5 m c) (Cert.Gin.KVal.A.arg6 m c) (Cert.Gin.KVal.A.arg7 m c) (Cert.Gin.KVal.A.arg8 m c) (Cert.Gin.KVal.A.arg9 m c) (Cert.Gin.KVal.A.arg10 m c) (Cert.Gin.KVal.A.arg11 m c) (Cert.Gin.KVal.A.arg12 m c) (Cert.Gin.KVal.A.arg13 m c) (Cert.Gin.KVal.A.arg14 m c) (Cert.Gin.KVal.A.arg15 m c), ?_, ?_⟩
  · exact (θ_run Cert.KernelIdeal.defs _ _).mono (fun r h c =>
      ⟨((h c _ (Cert.KernelIdeal.Gen.mem_uc Cert.KernelIdeal.main_v94 (by decide)))).trans (Cert.Gin.KVal.W10_v94 m ρ c Cert.Gin.K.region0_value Cert.Gin.K.region1_value
          Cert.Gin.K.region2_value Cert.Gin.K.region3_value Cert.Gin.K.region4_value),
       ((h c _ (Cert.KernelIdeal.Gen.mem_uc Cert.KernelIdeal.main_arg0 (by decide)))).trans (Cert.KernelIdeal.Gen.W10_main_arg0 m ρ c),
       ((h c _ (Cert.KernelIdeal.Gen.mem_uc Cert.KernelIdeal.main_arg1 (by decide)))).trans (Cert.KernelIdeal.Gen.W10_main_arg1 m ρ c),
       ((h c _ (Cert.KernelIdeal.Gen.mem_uc Cert.KernelIdeal.main_arg2 (by decide)))).trans (Cert.KernelIdeal.Gen.W10_main_arg2 m ρ c),
       ((h c _ (Cert.KernelIdeal.Gen.mem_uc Cert.KernelIdeal.main_arg3 (by decide)))).trans (Cert.KernelIdeal.Gen.W10_main_arg3 m ρ c),
       ((h c _ (Cert.KernelIdeal.Gen.mem_uc Cert.KernelIdeal.main_arg4 (by decide)))).trans (Cert.KernelIdeal.Gen.W10_main_arg4 m ρ c),
       ((h c _ (Cert.KernelIdeal.Gen.mem_uc Cert.KernelIdeal.main_arg5 (by decide)))).trans (Cert.KernelIdeal.Gen.W10_main_arg5 m ρ c),
       ((h c _ (Cert.KernelIdeal.Gen.mem_uc Cert.KernelIdeal.main_arg6 (by decide)))).trans (Cert.KernelIdeal.Gen.W10_main_arg6 m ρ c),
       ((h c _ (Cert.KernelIdeal.Gen.mem_uc Cert.KernelIdeal.main_arg7 (by decide)))).trans (Cert.KernelIdeal.Gen.W10_main_arg7 m ρ c),
       ((h c _ (Cert.KernelIdeal.Gen.mem_uc Cert.KernelIdeal.main_arg8 (by decide)))).trans (Cert.KernelIdeal.Gen.W10_main_arg8 m ρ c),
       ((h c _ (Cert.KernelIdeal.Gen.mem_uc Cert.KernelIdeal.main_arg9 (by decide)))).trans (Cert.KernelIdeal.Gen.W10_main_arg9 m ρ c),
       ((h c _ (Cert.KernelIdeal.Gen.mem_uc Cert.KernelIdeal.main_arg10 (by decide)))).trans (Cert.KernelIdeal.Gen.W10_main_arg10 m ρ c),
       ((h c _ (Cert.KernelIdeal.Gen.mem_uc Cert.KernelIdeal.main_arg11 (by decide)))).trans (Cert.KernelIdeal.Gen.W10_main_arg11 m ρ c),
       ((h c _ (Cert.KernelIdeal.Gen.mem_uc Cert.KernelIdeal.main_arg12 (by decide)))).trans (Cert.KernelIdeal.Gen.W10_main_arg12 m ρ c),
       ((h c _ (Cert.KernelIdeal.Gen.mem_uc Cert.KernelIdeal.main_arg13 (by decide)))).trans (Cert.KernelIdeal.Gen.W10_main_arg13 m ρ c),
       ((h c _ (Cert.KernelIdeal.Gen.mem_uc Cert.KernelIdeal.main_arg14 (by decide)))).trans (Cert.KernelIdeal.Gen.W10_main_arg14 m ρ c),
       ((h c _ (Cert.KernelIdeal.Gen.mem_uc Cert.KernelIdeal.main_arg15 (by decide)))).trans (Cert.KernelIdeal.Gen.W10_main_arg15 m ρ c)⟩)
      (Cert.Gin.KRun.run (F := Ideal) m ρ)
  · refine (θ_run Cert.ReferenceIdeal.defs _ _).mono (fun r h c => ⟨(h c).1.trans ?_, (h c).2⟩) (Cert.Gin.Ref.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
